-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v167)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3 : Shape := ⟨2, ![131072, 3]⟩
abbrev S131072x3x3 : Shape := ⟨3, ![131072, 3, 3]⟩
abbrev S100000x3 : Shape := ⟨2, ![100000, 3]⟩
abbrev S100000x4 : Shape := ⟨2, ![100000, 4]⟩
abbrev S100000 : Shape := ⟨1, ![100000]⟩
abbrev S131072x32 : Shape := ⟨2, ![131072, 32]⟩
abbrev S_ : Shape := ⟨0, ![]⟩

class Facts : Prop where
  bcast_S_S131072x3 : S_.BroadcastsInDim S131072x3 (![] : Fin 0 → Fin S131072x3.rank)
  reducesTo_S131072x3_S_d0_1 : S131072x3.ReducesTo [0, 1] S_
  h_S_ : 0 < S_.numel
  bcast_S_S131072x3x3 : S_.BroadcastsInDim S131072x3x3 (![] : Fin 0 → Fin S131072x3x3.rank)
  reducesTo_S131072x3x3_S_d0_1_2 : S131072x3x3.ReducesTo [0, 1, 2] S_
  bcast_S_S100000x3 : S_.BroadcastsInDim S100000x3 (![] : Fin 0 → Fin S100000x3.rank)
  reducesTo_S100000x3_S_d0_1 : S100000x3.ReducesTo [0, 1] S_
  bcast_S_S100000x4 : S_.BroadcastsInDim S100000x4 (![] : Fin 0 → Fin S100000x4.rank)
  reducesTo_S100000x4_S_d0_1 : S100000x4.ReducesTo [0, 1] S_
  bcast_S_S100000 : S_.BroadcastsInDim S100000 (![] : Fin 0 → Fin S100000.rank)
  reducesTo_S100000_S_d0 : S100000.ReducesTo [0] S_
  transposes_S131072x3x3_S131072x3x3_0_2_1 : S131072x3x3.Transposes [0, 2, 1] S131072x3x3

variable [Facts]

def fn_part1 {F : FTy → Type} [FloatOps F] (main_arg1 : FVec F S131072x3x3 .f32) (main_arg4 : FVec F S100000x4 .f32) (main_arg5 : FVec F S100000 .f32) (main_v13 : IVec S_ 1) (main_v16 : IVec S100000x3 1) : IVec S_ 1 :=
  let main_c_5 : IVec S_ 1 := constantI S_ 1 1#1
  let main_v17 : IVec S_ 1 := (fun x v => Host.reduce IntOp.andi x v reducesTo_S100000x3_S_d0_1 h_S_) main_v16 main_c_5
  let main_v18 : IVec S_ 1 := andi main_v13 main_v17
  let main_v19 : FVec F S100000x4 .f32 := Host.absf main_arg4
  let main_cst_6 : FVec F S_ .f32 := constant S_ .f32 0x7F800000#32
  let main_v20 : FVec F S100000x4 .f32 := broadcastInDim S100000x4 ![] bcast_S_S100000x4 main_cst_6
  let main_v21 : IVec S100000x4 1 := cmpf .olt main_v19 main_v20
  let main_c_7 : IVec S_ 1 := constantI S_ 1 1#1
  let main_v22 : IVec S_ 1 := (fun x v => Host.reduce IntOp.andi x v reducesTo_S100000x4_S_d0_1 h_S_) main_v21 main_c_7
  let main_v23 : IVec S_ 1 := andi main_v18 main_v22
  let main_v24 : FVec F S100000 .f32 := Host.absf main_arg5
  let main_cst_8 : FVec F S_ .f32 := constant S_ .f32 0x7F800000#32
  let main_v25 : FVec F S100000 .f32 := broadcastInDim S100000 ![] bcast_S_S100000 main_cst_8
  let main_v26 : IVec S100000 1 := cmpf .olt main_v24 main_v25
  let main_c_9 : IVec S_ 1 := constantI S_ 1 1#1
  let main_v27 : IVec S_ 1 := (fun x v => Host.reduce IntOp.andi x v reducesTo_S100000_S_d0 h_S_) main_v26 main_c_9
  let main_v28 : IVec S_ 1 := andi main_v23 main_v27
  let main_v29 : FVec F S131072x3x3 .f32 := (transpose S131072x3x3 [0, 2, 1] · transposes_S131072x3x3_S131072x3x3_0_2_1) main_arg1
  let main_v30 : IVec S131072x3x3 1 := cmpf .oeq main_arg1 main_v29
  let main_c_10 : IVec S_ 1 := constantI S_ 1 1#1
  let main_v31 : IVec S_ 1 := (fun x v => Host.reduce IntOp.andi x v reducesTo_S131072x3x3_S_d0_1_2 h_S_) main_v30 main_c_10
  let main_v32 : IVec S_ 1 := andi main_v28 main_v31
  main_v32

def fn {F : FTy → Type} [FloatOps F] (main_arg0 : FVec F S131072x3 .f32) (main_arg1 : FVec F S131072x3x3 .f32) (main_arg2 : FVec F S100000x3 .f32) (main_arg3 : FVec F S100000x3 .f32) (main_arg4 : FVec F S100000x4 .f32) (main_arg5 : FVec F S100000 .f32) (main_arg6 : IVec S131072x32 32) : IVec S_ 1 :=
  let main_v0 : FVec F S131072x3 .f32 := Host.absf main_arg0
  let main_cst : FVec F S_ .f32 := constant S_ .f32 0x7F800000#32
  let main_v1 : FVec F S131072x3 .f32 := broadcastInDim S131072x3 ![] bcast_S_S131072x3 main_cst
  let main_v2 : IVec S131072x3 1 := cmpf .olt main_v0 main_v1
  let main_c : IVec S_ 1 := constantI S_ 1 1#1
  let main_v3 : IVec S_ 1 := (fun x v => Host.reduce IntOp.andi x v reducesTo_S131072x3_S_d0_1 h_S_) main_v2 main_c
  let main_v4 : FVec F S131072x3x3 .f32 := Host.absf main_arg1
  let main_cst_0 : FVec F S_ .f32 := constant S_ .f32 0x7F800000#32
  let main_v5 : FVec F S131072x3x3 .f32 := broadcastInDim S131072x3x3 ![] bcast_S_S131072x3x3 main_cst_0
  let main_v6 : IVec S131072x3x3 1 := cmpf .olt main_v4 main_v5
  let main_c_1 : IVec S_ 1 := constantI S_ 1 1#1
  let main_v7 : IVec S_ 1 := (fun x v => Host.reduce IntOp.andi x v reducesTo_S131072x3x3_S_d0_1_2 h_S_) main_v6 main_c_1
  let main_v8 : IVec S_ 1 := andi main_v3 main_v7
  let main_v9 : FVec F S100000x3 .f32 := Host.absf main_arg2
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S100000x3 .f32 := Host.absf main_arg3
  let main_cst_4 : FVec F S_ .f32 := constant S_ .f32 0x7F800000#32
  let main_v15 : FVec F S100000x3 .f32 := broadcastInDim S100000x3 ![] bcast_S_S100000x3 main_cst_4
  let main_v16 : IVec S100000x3 1 := cmpf .olt main_v14 main_v15
  fn_part1 (F := F) main_arg1 main_arg4 main_arg5 main_v13 main_v16
-- ==== Kernel.lean ====
abbrev S131072x3 : Shape := ⟨2, ![131072, 3]⟩
abbrev S131072x3x3 : Shape := ⟨3, ![131072, 3, 3]⟩
abbrev S100000x3 : Shape := ⟨2, ![100000, 3]⟩
abbrev S100000x4 : Shape := ⟨2, ![100000, 4]⟩
abbrev S100000 : Shape := ⟨1, ![100000]⟩
abbrev S131072x32 : Shape := ⟨2, ![131072, 32]⟩
abbrev S_ : Shape := ⟨0, ![]⟩
abbrev S100000x1 : Shape := ⟨2, ![100000, 1]⟩
abbrev S100000x1x3 : Shape := ⟨3, ![100000, 1, 3]⟩
abbrev S100000x3x3 : Shape := ⟨3, ![100000, 3, 3]⟩
abbrev S100000x1x1 : Shape := ⟨3, ![100000, 1, 1]⟩
abbrev S100000x6 : Shape := ⟨2, ![100000, 6]⟩
abbrev S131072x32x1 : Shape := ⟨3, ![131072, 32, 1]⟩
abbrev S131072x32x3 : Shape := ⟨3, ![131072, 32, 3]⟩
abbrev S131072x32x6 : Shape := ⟨3, ![131072, 32, 6]⟩
abbrev S131072x1x1 : Shape := ⟨3, ![131072, 1, 1]⟩
abbrev S131072 : Shape := ⟨1, ![131072]⟩
abbrev S131072x1 : Shape := ⟨2, ![131072, 1]⟩
abbrev S131072x9 : Shape := ⟨2, ![131072, 9]⟩
abbrev S1024x32 : Shape := ⟨2, ![1024, 32]⟩
abbrev S1024x9 : Shape := ⟨2, ![1024, 9]⟩
abbrev S1024x1 : Shape := ⟨2, ![1024, 1]⟩
abbrev S1024 : Shape := ⟨1, ![1024]⟩

abbrev nBuf : Space → Nat
  | .hbm => 196
  | .vmem => 24
  | .smem => 0
  | _ => 0

abbrev hbmTy0_0 (i : Nat) : BufTy := match i % 128 with
  | 0 => ⟨S131072x3, .f32⟩
  | 1 => ⟨S131072x3x3, .f32⟩
  | 2 => ⟨S100000x3, .f32⟩
  | 3 => ⟨S100000x3, .f32⟩
  | 4 => ⟨S100000x4, .f32⟩
  | 5 => ⟨S100000, .f32⟩
  | 6 => ⟨S131072x32, .i32⟩
  | 7 => ⟨S100000x4, .f32⟩
  | 8 => ⟨S_, .f32⟩
  | 9 => ⟨S100000, .f32⟩
  | 10 => ⟨S100000x1, .f32⟩
  | 11 => ⟨S_, .f32⟩
  | 12 => ⟨S100000x1, .f32⟩
  | 13 => ⟨S100000x1, .f32⟩
  | 14 => ⟨S100000x1, .f32⟩
  | 15 => ⟨S100000x4, .f32⟩
  | 16 => ⟨S100000x4, .f32⟩
  | 17 => ⟨S100000x1, .f32⟩
  | 18 => ⟨S100000, .f32⟩
  | 19 => ⟨S100000x1, .f32⟩
  | 20 => ⟨S100000, .f32⟩
  | 21 => ⟨S100000x1, .f32⟩
  | 22 => ⟨S100000, .f32⟩
  | 23 => ⟨S100000x1, .f32⟩
  | 24 => ⟨S100000, .f32⟩
  | 25 => ⟨S100000, .f32⟩
  | 26 => ⟨S100000, .f32⟩
  | 27 => ⟨S100000, .f32⟩
  | 28 => ⟨S100000, .f32⟩
  | 29 => ⟨S100000, .f32⟩
  | 30 => ⟨S100000, .f32⟩
  | 31 => ⟨S100000, .f32⟩
  | 32 => ⟨S100000, .f32⟩
  | 33 => ⟨S100000, .f32⟩
  | 34 => ⟨S100000, .f32⟩
  | 35 => ⟨S_, .f32⟩
  | 36 => ⟨S100000, .f32⟩
  | 37 => ⟨S100000, .f32⟩
  | 38 => ⟨S_, .f32⟩
  | 39 => ⟨S100000, .f32⟩
  | 40 => ⟨S100000, .f32⟩
  | 41 => ⟨S100000, .f32⟩
  | 42 => ⟨S_, .f32⟩
  | 43 => ⟨S100000, .f32⟩
  | 44 => ⟨S100000, .f32⟩
  | 45 => ⟨S100000, .f32⟩
  | 46 => ⟨S_, .f32⟩
  | 47 => ⟨S100000, .f32⟩
  | 48 => ⟨S100000, .f32⟩
  | 49 => ⟨S100000x1, .f32⟩
  | 50 => ⟨S100000x1, .f32⟩
  | 51 => ⟨S100000x1, .f32⟩
  | 52 => ⟨S100000x3, .f32⟩
  | 53 => ⟨S100000, .f32⟩
  | 54 => ⟨S_, .f32⟩
  | 55 => ⟨S100000, .f32⟩
  | 56 => ⟨S100000, .f32⟩
  | 57 => ⟨S100000, .f32⟩
  | 58 => ⟨S_, .f32⟩
  | 59 => ⟨S100000, .f32⟩
  | 60 => ⟨S100000, .f32⟩
  | 61 => ⟨S_, .f32⟩
  | 62 => ⟨S100000, .f32⟩
  | 63 => ⟨S100000, .f32⟩
  | 64 => ⟨S100000, .f32⟩
  | 65 => ⟨S_, .f32⟩
  | 66 => ⟨S100000, .f32⟩
  | 67 => ⟨S100000, .f32⟩
  | 68 => ⟨S100000x1, .f32⟩
  | 69 => ⟨S100000x1, .f32⟩
  | 70 => ⟨S100000x1, .f32⟩
  | 71 => ⟨S100000x3, .f32⟩
  | 72 => ⟨S100000, .f32⟩
  | 73 => ⟨S_, .f32⟩
  | 74 => ⟨S100000, .f32⟩
  | 75 => ⟨S100000, .f32⟩
  | 76 => ⟨S100000, .f32⟩
  | 77 => ⟨S_, .f32⟩
  | 78 => ⟨S100000, .f32⟩
  | 79 => ⟨S100000, .f32⟩
  | 80 => ⟨S100000, .f32⟩
  | 81 => ⟨S_, .f32⟩
  | 82 => ⟨S100000, .f32⟩
  | 83 => ⟨S100000, .f32⟩
  | 84 => ⟨S_, .f32⟩
  | 85 => ⟨S100000, .f32⟩
  | 86 => ⟨S100000, .f32⟩
  | 87 => ⟨S100000x1, .f32⟩
  | 88 => ⟨S100000x1, .f32⟩
  | 89 => ⟨S100000x1, .f32⟩
  | 90 => ⟨S100000x3, .f32⟩
  | 91 => ⟨S100000x1x3, .f32⟩
  | 92 => ⟨S100000x1x3, .f32⟩
  | 93 => ⟨S100000x1x3, .f32⟩
  | 94 => ⟨S100000x3x3, .f32⟩
  | 95 => ⟨S_, .f32⟩
  | 96 => ⟨S100000x3, .f32⟩
  | 97 => ⟨S100000x3, .f32⟩
  | 98 => ⟨S100000x1x3, .f32⟩
  | 99 => ⟨S100000x3x3, .f32⟩
  | 100 => ⟨S100000x3x3, .f32⟩
  | 101 => ⟨S100000x3x3, .f32⟩
  | 102 => ⟨S100000x1x1, .f32⟩
  | 103 => ⟨S100000, .f32⟩
  | 104 => ⟨S100000x1x1, .f32⟩
  | 105 => ⟨S100000, .f32⟩
  | 106 => ⟨S100000x1x1, .f32⟩
  | 107 => ⟨S100000, .f32⟩
  | 108 => ⟨S100000x1x1, .f32⟩
  | 109 => ⟨S100000, .f32⟩
  | 110 => ⟨S100000x1x1, .f32⟩
  | 111 => ⟨S100000, .f32⟩
  | 112 => ⟨S100000x1x1, .f32⟩
  | 113 => ⟨S100000, .f32⟩
  | 114 => ⟨S100000x1, .f32⟩
  | 115 => ⟨S100000x1, .f32⟩
  | 116 => ⟨S100000x1, .f32⟩
  | 117 => ⟨S100000x1, .f32⟩
  | 118 => ⟨S100000x1, .f32⟩
  | 119 => ⟨S100000x1, .f32⟩
  | 120 => ⟨S100000x6, .f32⟩
  | 121 => ⟨S_, .i32⟩
  | 122 => ⟨S131072x32, .i32⟩
  | 123 => ⟨S131072x32, .i1⟩
  | 124 => ⟨S_, .i32⟩
  | 125 => ⟨S131072x32, .i32⟩
  | 126 => ⟨S131072x32, .i32⟩
  | 127 => ⟨S131072x32, .i32⟩
  | _ => ⟨S131072x3, .f32⟩

abbrev hbmTy0_1 (i : Nat) : BufTy := match i % 128 with
  | 0 => ⟨S131072x32x1, .i32⟩
  | 1 => ⟨S131072x32x3, .f32⟩
  | 2 => ⟨S_, .i32⟩
  | 3 => ⟨S131072x32, .i32⟩
  | 4 => ⟨S131072x32, .i1⟩
  | 5 => ⟨S_, .i32⟩
  | 6 => ⟨S131072x32, .i32⟩
  | 7 => ⟨S131072x32, .i32⟩
  | 8 => ⟨S131072x32, .i32⟩
  | 9 => ⟨S131072x32x1, .i32⟩
  | 10 => ⟨S131072x32x6, .f32⟩
  | 11 => ⟨S_, .i32⟩
  | 12 => ⟨S131072x32, .i32⟩
  | 13 => ⟨S131072x32, .i1⟩
  | 14 => ⟨S_, .i32⟩
  | 15 => ⟨S131072x32, .i32⟩
  | 16 => ⟨S131072x32, .i32⟩
  | 17 => ⟨S131072x32, .i32⟩
  | 18 => ⟨S131072x32x1, .i32⟩
  | 19 => ⟨S131072x32, .f32⟩
  | 20 => ⟨S131072x32x1, .f32⟩
  | 21 => ⟨S131072x32, .f32⟩
  | 22 => ⟨S131072x32x1, .f32⟩
  | 23 => ⟨S131072x32, .f32⟩
  | 24 => ⟨S131072x32x1, .f32⟩
  | 25 => ⟨S131072x32, .f32⟩
  | 26 => ⟨S131072x32x1, .f32⟩
  | 27 => ⟨S131072x32, .f32⟩
  | 28 => ⟨S131072x32x1, .f32⟩
  | 29 => ⟨S131072x32, .f32⟩
  | 30 => ⟨S131072x32x1, .f32⟩
  | 31 => ⟨S131072x32, .f32⟩
  | 32 => ⟨S131072x32x1, .f32⟩
  | 33 => ⟨S131072x32, .f32⟩
  | 34 => ⟨S131072x32x1, .f32⟩
  | 35 => ⟨S131072x32, .f32⟩
  | 36 => ⟨S131072x32x1, .f32⟩
  | 37 => ⟨S131072x32, .f32⟩
  | 38 => ⟨S131072x1x1, .f32⟩
  | 39 => ⟨S131072, .f32⟩
  | 40 => ⟨S131072x1x1, .f32⟩
  | 41 => ⟨S131072, .f32⟩
  | 42 => ⟨S131072x1x1, .f32⟩
  | 43 => ⟨S131072, .f32⟩
  | 44 => ⟨S131072x1x1, .f32⟩
  | 45 => ⟨S131072, .f32⟩
  | 46 => ⟨S131072x1x1, .f32⟩
  | 47 => ⟨S131072, .f32⟩
  | 48 => ⟨S131072x1x1, .f32⟩
  | 49 => ⟨S131072, .f32⟩
  | 50 => ⟨S131072x1, .f32⟩
  | 51 => ⟨S131072, .f32⟩
  | 52 => ⟨S131072x1, .f32⟩
  | 53 => ⟨S131072, .f32⟩
  | 54 => ⟨S131072x1, .f32⟩
  | 55 => ⟨S131072, .f32⟩
  | 56 => ⟨S131072x1, .f32⟩
  | 57 => ⟨S131072x1, .f32⟩
  | 58 => ⟨S131072x1, .f32⟩
  | 59 => ⟨S131072x1, .f32⟩
  | 60 => ⟨S131072x1, .f32⟩
  | 61 => ⟨S131072x1, .f32⟩
  | 62 => ⟨S131072x1, .f32⟩
  | 63 => ⟨S131072x1, .f32⟩
  | 64 => ⟨S131072x1, .f32⟩
  | 65 => ⟨S131072x9, .f32⟩
  | 66 => ⟨S131072x1, .f32⟩
  | 67 => ⟨S131072, .f32⟩
  | _ => ⟨S131072x3, .f32⟩

abbrev hbmTy (i : Nat) : BufTy := match i / 128 with
  | 0 => hbmTy0_0 i
  | 1 => hbmTy0_1 i
  | _ => ⟨S131072x3, .f32⟩

abbrev bufTy : (tb : Table) → Fin (tcTables nBuf tb) → BufTy
  | .hbm, ⟨i, _⟩ => hbmTy i
  | .local _ .vmem, ⟨0, _⟩ => ⟨S1024x32, .f32⟩
  | .local _ .vmem, ⟨1, _⟩ => ⟨S1024x32, .f32⟩
  | .local _ .vmem, ⟨2, _⟩ => ⟨S1024x32, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | .local _ .vmem, ⟨8, _⟩ => ⟨S1024x32, .f32⟩
  | .local _ .vmem, ⟨9, _⟩ => ⟨S1024x32, .f32⟩
  | .local _ .vmem, ⟨10, _⟩ => ⟨S1024x32, .f32⟩
  | .local _ .vmem, ⟨11, _⟩ => ⟨S1024x32, .f32⟩
  | .local _ .vmem, ⟨12, _⟩ => ⟨S1024x32, .f32⟩
  | .local _ .vmem, ⟨13, _⟩ => ⟨S1024x32, .f32⟩
  | .local _ .vmem, ⟨14, _⟩ => ⟨S1024x32, .f32⟩
  | .local _ .vmem, ⟨15, _⟩ => ⟨S1024x32, .f32⟩
  | .local _ .vmem, ⟨16, _⟩ => ⟨S1024x32, .f32⟩
  | .local _ .vmem, ⟨17, _⟩ => ⟨S1024x32, .f32⟩
  | .local _ .vmem, ⟨18, _⟩ => ⟨S1024x32, .f32⟩
  | .local _ .vmem, ⟨19, _⟩ => ⟨S1024x32, .f32⟩
  | .local _ .vmem, ⟨20, _⟩ => ⟨S1024x9, .f32⟩
  | .local _ .vmem, ⟨21, _⟩ => ⟨S1024x9, .f32⟩
  | .local _ .vmem, ⟨22, _⟩ => ⟨S1024x1, .f32⟩
  | .local _ .vmem, ⟨23, _⟩ => ⟨S1024x1, .f32⟩
  | _, _ => ⟨S131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_13 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_c : Ref sig .tc := ⟨.hbm, 121, rfl⟩
abbrev main_v99 : Ref sig .tc := ⟨.hbm, 122, rfl⟩
abbrev main_v100 : Ref sig .tc := ⟨.hbm, 123, rfl⟩
abbrev main_c_14 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_c_15 : Ref sig .tc := ⟨.hbm, 130, rfl⟩
abbrev main_v106 : Ref sig .tc := ⟨.hbm, 131, rfl⟩
abbrev main_v107 : Ref sig .tc := ⟨.hbm, 132, rfl⟩
abbrev main_c_16 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_c_17 : Ref sig .tc := ⟨.hbm, 139, rfl⟩
abbrev main_v113 : Ref sig .tc := ⟨.hbm, 140, rfl⟩
abbrev main_v114 : Ref sig .tc := ⟨.hbm, 141, rfl⟩
abbrev main_c_18 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x9 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  reducesTo_S100000x4_S100000_d1 : S100000x4.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x4_0_1 : S100000x1.BroadcastsInDim S100000x4 (![0, 1] : Fin 2 → Fin S100000x4.rank)
  slices_S100000x4_S100000x1_0_0 : S100000x4.Slices ![0, 0] S100000x1
  shapeCasts_S100000x1_S100000 : S100000x1.ShapeCasts S100000
  slices_S100000x4_S100000x1_0_1 : S100000x4.Slices ![0, 1] S100000x1
  slices_S100000x4_S100000x1_0_2 : S100000x4.Slices ![0, 2] S100000x1
  slices_S100000x4_S100000x1_0_3 : S100000x4.Slices ![0, 3] S100000x1
  bcast_S_S100000 : S_.BroadcastsInDim S100000 (![] : Fin 0 → Fin S100000.rank)
  concatenates_S100000x1_S100000x1_S100000x1_S100000x3_d1 : Shape.Concatenates [S100000x1, S100000x1, S100000x1] S100000x3 1
  bcast_S100000x3_S100000x1x3_0_2 : S100000x3.BroadcastsInDim S100000x1x3 (![0, 2] : Fin 2 → Fin S100000x1x3.rank)
  concatenates_S100000x1x3_S100000x1x3_S100000x1x3_S100000x3x3_d1 : Shape.Concatenates [S100000x1x3, S100000x1x3, S100000x1x3] S100000x3x3 1
  bcast_S_S100000x3 : S_.BroadcastsInDim S100000x3 (![] : Fin 0 → Fin S100000x3.rank)
  bcast_S100000x1x3_S100000x3x3_0_1_2 : S100000x1x3.BroadcastsInDim S100000x3x3 (![0, 1, 2] : Fin 3 → Fin S100000x3x3.rank)
  slices_S100000x3x3_S100000x1x1_0_0_0 : S100000x3x3.Slices ![0, 0, 0] S100000x1x1
  shapeCasts_S100000x1x1_S100000 : S100000x1x1.ShapeCasts S100000
  slices_S100000x3x3_S100000x1x1_0_0_1 : S100000x3x3.Slices ![0, 0, 1] S100000x1x1
  slices_S100000x3x3_S100000x1x1_0_0_2 : S100000x3x3.Slices ![0, 0, 2] S100000x1x1
  slices_S100000x3x3_S100000x1x1_0_1_1 : S100000x3x3.Slices ![0, 1, 1] S100000x1x1
  slices_S100000x3x3_S100000x1x1_0_1_2 : S100000x3x3.Slices ![0, 1, 2] S100000x1x1
  slices_S100000x3x3_S100000x1x1_0_2_2 : S100000x3x3.Slices ![0, 2, 2] S100000x1x1
  concatenates_S100000x1_S100000x1_S100000x1_S100000x1_S100000x1_S100000x1_S100000x6_d1 : Shape.Concatenates [S100000x1, S100000x1, S100000x1, S100000x1, S100000x1, S100000x1] S100000x6 1
  bcast_S_S131072x32 : S_.BroadcastsInDim S131072x32 (![] : Fin 0 → Fin S131072x32.rank)
  bcast_S131072x32_S131072x32x1_0_1 : S131072x32.BroadcastsInDim S131072x32x1 (![0, 1] : Fin 2 → Fin S131072x32x1.rank)
  slices_S131072x32x3_S131072x32x1_0_0_0 : S131072x32x3.Slices ![0, 0, 0] S131072x32x1
  shapeCasts_S131072x32x1_S131072x32 : S131072x32x1.ShapeCasts S131072x32
  slices_S131072x32x3_S131072x32x1_0_0_1 : S131072x32x3.Slices ![0, 0, 1] S131072x32x1
  slices_S131072x32x3_S131072x32x1_0_0_2 : S131072x32x3.Slices ![0, 0, 2] S131072x32x1
  slices_S131072x32x6_S131072x32x1_0_0_0 : S131072x32x6.Slices ![0, 0, 0] S131072x32x1
  slices_S131072x32x6_S131072x32x1_0_0_1 : S131072x32x6.Slices ![0, 0, 1] S131072x32x1
  slices_S131072x32x6_S131072x32x1_0_0_2 : S131072x32x6.Slices ![0, 0, 2] S131072x32x1
  slices_S131072x32x6_S131072x32x1_0_0_3 : S131072x32x6.Slices ![0, 0, 3] S131072x32x1
  slices_S131072x32x6_S131072x32x1_0_0_4 : S131072x32x6.Slices ![0, 0, 4] S131072x32x1
  slices_S131072x32x6_S131072x32x1_0_0_5 : S131072x32x6.Slices ![0, 0, 5] S131072x32x1
  slices_S131072x3x3_S131072x1x1_0_0_0 : S131072x3x3.Slices ![0, 0, 0] S131072x1x1
  shapeCasts_S131072x1x1_S131072 : S131072x1x1.ShapeCasts S131072
  slices_S131072x3x3_S131072x1x1_0_0_1 : S131072x3x3.Slices ![0, 0, 1] S131072x1x1
  slices_S131072x3x3_S131072x1x1_0_0_2 : S131072x3x3.Slices ![0, 0, 2] S131072x1x1
  slices_S131072x3x3_S131072x1x1_0_1_1 : S131072x3x3.Slices ![0, 1, 1] S131072x1x1
  slices_S131072x3x3_S131072x1x1_0_1_2 : S131072x3x3.Slices ![0, 1, 2] S131072x1x1
  slices_S131072x3x3_S131072x1x1_0_2_2 : S131072x3x3.Slices ![0, 2, 2] S131072x1x1
  slices_S131072x3_S131072x1_0_0 : S131072x3.Slices ![0, 0] S131072x1
  shapeCasts_S131072x1_S131072 : S131072x1.ShapeCasts S131072
  slices_S131072x3_S131072x1_0_1 : S131072x3.Slices ![0, 1] S131072x1
  slices_S131072x3_S131072x1_0_2 : S131072x3.Slices ![0, 2] S131072x1
  bcast_S131072_S131072x1_0 : S131072.BroadcastsInDim S131072x1 (![0] : Fin 1 → Fin S131072x1.rank)
  concatenates_S131072x1_S131072x1_S131072x1_S131072x1_S131072x1_S131072x1_S131072x1_S131072x1_S131072x1_S131072x9_d1 : Shape.Concatenates [S131072x1, S131072x1, S131072x1, S131072x1, S131072x1, S131072x1, S131072x1, S131072x1, S131072x1] S131072x9 1
  inb_S1024x9_S1024x9_0_0 : ∀ a, (![0, 0] : Fin 2 → Nat) a + S1024x9.size a ≤ S1024x9.size a
  h_S1024x9 : 0 < S1024x9.numel
  shapeCasts_S1024x9_S1024x9 : S1024x9.ShapeCasts S1024x9
  slices_S1024x9_o0_0_S1024x1 : S1024x9.Slices ![0, 0] S1024x1
  shapeCasts_S1024x1_S1024x1 : S1024x1.ShapeCasts S1024x1
  broadcasts_S1024x1_S1024x32 : S1024x1.Broadcasts S1024x32
  slices_S1024x9_o0_1_S1024x1 : S1024x9.Slices ![0, 1] S1024x1
  slices_S1024x9_o0_2_S1024x1 : S1024x9.Slices ![0, 2] S1024x1
  slices_S1024x9_o0_3_S1024x1 : S1024x9.Slices ![0, 3] S1024x1
  slices_S1024x9_o0_4_S1024x1 : S1024x9.Slices ![0, 4] S1024x1
  slices_S1024x9_o0_5_S1024x1 : S1024x9.Slices ![0, 5] S1024x1
  slices_S1024x9_o0_6_S1024x1 : S1024x9.Slices ![0, 6] S1024x1
  slices_S1024x9_o0_7_S1024x1 : S1024x9.Slices ![0, 7] S1024x1
  slices_S1024x9_o0_8_S1024x1 : S1024x9.Slices ![0, 8] S1024x1
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  reduces_S1024x32_S1024 : S1024x32.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  dot_S100000x3x3_S100000x3x3_S100000x3x3_2_2_1_1_0_0_wf : DotDims.WF S100000x3x3 S100000x3x3 S100000x3x3 [2] [2] [1] [1] [0] [0]
  gather_S100000x3_S131072x32x1_S131072x32x3_2_0_n_n_0_2_13_wf : GatherDims.WF S100000x3 S131072x32x1 S131072x32x3 [2] [0] [] [0] [] 2 ![1, 3]
  gather_S100000x6_S131072x32x1_S131072x32x6_2_0_n_n_0_2_16_wf : GatherDims.WF S100000x6 S131072x32x1 S131072x32x6 [2] [0] [] [0] [] 2 ![1, 6]
  gather_S100000_S131072x32x1_S131072x32_n_0_n_n_0_2_1_wf : GatherDims.WF S100000 S131072x32x1 S131072x32 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S131072x32.size a
  hwx0_0 : ∀ i : grid0.Coords, EltTy.bits .f32 = 32 ∨ (Rect.block (s := S131072x32) S1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S131072x32.size a
  hwx0_1 : ∀ i : grid0.Coords, EltTy.bits .f32 = 32 ∨ (Rect.block (s := S131072x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S131072x32.size a
  hwx0_2 : ∀ i : grid0.Coords, EltTy.bits .f32 = 32 ∨ (Rect.block (s := S131072x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S131072x32.size a
  hwx0_3 : ∀ i : grid0.Coords, EltTy.bits .f32 = 32 ∨ (Rect.block (s := S131072x32) S1024x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x32.size a ≤ S131072x32.size a
  hwx0_4 : ∀ i : grid0.Coords, EltTy.bits .f32 = 32 ∨ (Rect.block (s := S131072x32) S1024x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x32.size a ≤ S131072x32.size a
  hwx0_5 : ∀ i : grid0.Coords, EltTy.bits .f32 = 32 ∨ (Rect.block (s := S131072x32) S1024x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x32.size a ≤ S131072x32.size a
  hwx0_6 : ∀ i : grid0.Coords, EltTy.bits .f32 = 32 ∨ (Rect.block (s := S131072x32) S1024x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x32.size a ≤ S131072x32.size a
  hwx0_7 : ∀ i : grid0.Coords, EltTy.bits .f32 = 32 ∨ (Rect.block (s := S131072x32) S1024x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x32.size a ≤ S131072x32.size a
  hwx0_8 : ∀ i : grid0.Coords, EltTy.bits .f32 = 32 ∨ (Rect.block (s := S131072x32) S1024x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x32.size a ≤ S131072x32.size a
  hwx0_9 : ∀ i : grid0.Coords, EltTy.bits .f32 = 32 ∨ (Rect.block (s := S131072x32) S1024x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x9.size a ≤ S131072x9.size a
  hwx0_10 : ∀ i : grid0.Coords, EltTy.bits .f32 = 32 ∨ (Rect.block (s := S131072x9) S1024x9.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S131072x1.size a
  hwx0_11 : ∀ i : grid0.Coords, EltTy.bits .f32 = 32 ∨ (Rect.block (s := S131072x1) S1024x1.size (cc0_transform_11 i) (hinb0_11 i)).WholeWords (EltTy.packing .f32)

variable [Facts₀]

def dot_S100000x3x3_S100000x3x3_S100000x3x3_2_2_1_1_0_0 : DotDims S100000x3x3 S100000x3x3 S100000x3x3 where
  lhsContracting := [2]
  rhsContracting := [2]
  lhsNonContracting := [1]
  rhsNonContracting := [1]
  lhsBatch := [0]
  rhsBatch := [0]
  wf := dot_S100000x3x3_S100000x3x3_S100000x3x3_2_2_1_1_0_0_wf
def gather_S100000x3_S131072x32x1_S131072x32x3_2_0_n_n_0_2_13 : GatherDims S100000x3 S131072x32x1 S131072x32x3 where
  offsetDims := [2]
  collapsedSliceDims := [0]
  operandBatchingDims := []
  startIndicesBatchingDims := []
  startIndexMap := [0]
  indexVectorDim := 2
  sliceSizes := ![1, 3]
  wf := gather_S100000x3_S131072x32x1_S131072x32x3_2_0_n_n_0_2_13_wf
def gather_S100000x6_S131072x32x1_S131072x32x6_2_0_n_n_0_2_16 : GatherDims S100000x6 S131072x32x1 S131072x32x6 where
  offsetDims := [2]
  collapsedSliceDims := [0]
  operandBatchingDims := []
  startIndicesBatchingDims := []
  startIndexMap := [0]
  indexVectorDim := 2
  sliceSizes := ![1, 6]
  wf := gather_S100000x6_S131072x32x1_S131072x32x6_2_0_n_n_0_2_16_wf
def gather_S100000_S131072x32x1_S131072x32_n_0_n_n_0_2_1 : GatherDims S100000 S131072x32x1 S131072x32 where
  offsetDims := []
  collapsedSliceDims := [0]
  operandBatchingDims := []
  startIndicesBatchingDims := []
  startIndexMap := [0]
  indexVectorDim := 2
  sliceSizes := ![1]
  wf := gather_S100000_S131072x32x1_S131072x32_n_0_n_n_0_2_1_wf

abbrev win0_0 : Pipeline.Window sig grid0 :=
  Pipeline.Window.ofSpec (Memref.whole main_v121) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v123) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v125) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v127) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v129) S1024x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v131) S1024x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v133) S1024x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v135) S1024x32.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v137) S1024x32.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v119) S1024x32.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v165) S1024x9.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v166) S1024x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S131072x3 : Shape := ⟨2, ![131072, 3]⟩
abbrev S131072x3x3 : Shape := ⟨3, ![131072, 3, 3]⟩
abbrev S100000x3 : Shape := ⟨2, ![100000, 3]⟩
abbrev S100000x4 : Shape := ⟨2, ![100000, 4]⟩
abbrev S100000 : Shape := ⟨1, ![100000]⟩
abbrev S131072x32 : Shape := ⟨2, ![131072, 32]⟩
abbrev S_ : Shape := ⟨0, ![]⟩
abbrev S131072x32x1 : Shape := ⟨3, ![131072, 32, 1]⟩
abbrev S131072x32x3 : Shape := ⟨3, ![131072, 32, 3]⟩
abbrev S131072x1x3 : Shape := ⟨3, ![131072, 1, 3]⟩
abbrev S100000x1 : Shape := ⟨2, ![100000, 1]⟩
abbrev S100000x1x3 : Shape := ⟨3, ![100000, 1, 3]⟩
abbrev S100000x3x3 : Shape := ⟨3, ![100000, 3, 3]⟩
abbrev S131072x32x3x3 : Shape := ⟨4, ![131072, 32, 3, 3]⟩
abbrev S131072x1x3x3 : Shape := ⟨4, ![131072, 1, 3, 3]⟩
abbrev S131072x32x1x1 : Shape := ⟨4, ![131072, 32, 1, 1]⟩
abbrev S131072 : Shape := ⟨1, ![131072]⟩
abbrev S131072x1 : Shape := ⟨2, ![131072, 1]⟩

abbrev nBuf : Space → Nat
  | .hbm => 234
  | .vmem => 0
  | .smem => 0
  | _ => 0

abbrev hbmTy0_0 (i : Nat) : BufTy := match i % 128 with
  | 0 => ⟨S131072x3, .f32⟩
  | 1 => ⟨S131072x3x3, .f32⟩
  | 2 => ⟨S100000x3, .f32⟩
  | 3 => ⟨S100000x3, .f32⟩
  | 4 => ⟨S100000x4, .f32⟩
  | 5 => ⟨S100000, .f32⟩
  | 6 => ⟨S131072x32, .i32⟩
  | 7 => ⟨S_, .i32⟩
  | 8 => ⟨S131072x32, .i32⟩
  | 9 => ⟨S131072x32, .i1⟩
  | 10 => ⟨S_, .i32⟩
  | 11 => ⟨S131072x32, .i32⟩
  | 12 => ⟨S131072x32, .i32⟩
  | 13 => ⟨S131072x32, .i32⟩
  | 14 => ⟨S131072x32x1, .i32⟩
  | 15 => ⟨S131072x32x3, .f32⟩
  | 16 => ⟨S131072x1x3, .f32⟩
  | 17 => ⟨S131072x32x3, .f32⟩
  | 18 => ⟨S131072x32x3, .f32⟩
  | 19 => ⟨S100000x4, .f32⟩
  | 20 => ⟨S_, .f32⟩
  | 21 => ⟨S100000, .f32⟩
  | 22 => ⟨S100000x1, .f32⟩
  | 23 => ⟨S_, .f32⟩
  | 24 => ⟨S100000x1, .f32⟩
  | 25 => ⟨S100000x1, .f32⟩
  | 26 => ⟨S100000x1, .f32⟩
  | 27 => ⟨S100000x4, .f32⟩
  | 28 => ⟨S100000x4, .f32⟩
  | 29 => ⟨S100000x1, .f32⟩
  | 30 => ⟨S100000, .f32⟩
  | 31 => ⟨S100000x1, .f32⟩
  | 32 => ⟨S100000, .f32⟩
  | 33 => ⟨S100000x1, .f32⟩
  | 34 => ⟨S100000, .f32⟩
  | 35 => ⟨S100000x1, .f32⟩
  | 36 => ⟨S100000, .f32⟩
  | 37 => ⟨S100000, .f32⟩
  | 38 => ⟨S100000, .f32⟩
  | 39 => ⟨S100000, .f32⟩
  | 40 => ⟨S100000, .f32⟩
  | 41 => ⟨S100000, .f32⟩
  | 42 => ⟨S100000, .f32⟩
  | 43 => ⟨S100000, .f32⟩
  | 44 => ⟨S100000, .f32⟩
  | 45 => ⟨S100000, .f32⟩
  | 46 => ⟨S100000, .f32⟩
  | 47 => ⟨S_, .f32⟩
  | 48 => ⟨S100000, .f32⟩
  | 49 => ⟨S100000, .f32⟩
  | 50 => ⟨S_, .f32⟩
  | 51 => ⟨S100000, .f32⟩
  | 52 => ⟨S100000, .f32⟩
  | 53 => ⟨S100000, .f32⟩
  | 54 => ⟨S_, .f32⟩
  | 55 => ⟨S100000, .f32⟩
  | 56 => ⟨S100000, .f32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x1, .f32⟩
  | 63 => ⟨S100000x1, .f32⟩
  | 64 => ⟨S100000x3, .f32⟩
  | 65 => ⟨S100000, .f32⟩
  | 66 => ⟨S_, .f32⟩
  | 67 => ⟨S100000, .f32⟩
  | 68 => ⟨S100000, .f32⟩
  | 69 => ⟨S100000, .f32⟩
  | 70 => ⟨S_, .f32⟩
  | 71 => ⟨S100000, .f32⟩
  | 72 => ⟨S100000, .f32⟩
  | 73 => ⟨S_, .f32⟩
  | 74 => ⟨S100000, .f32⟩
  | 75 => ⟨S100000, .f32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x1, .f32⟩
  | 82 => ⟨S100000x1, .f32⟩
  | 83 => ⟨S100000x3, .f32⟩
  | 84 => ⟨S100000, .f32⟩
  | 85 => ⟨S_, .f32⟩
  | 86 => ⟨S100000, .f32⟩
  | 87 => ⟨S100000, .f32⟩
  | 88 => ⟨S100000, .f32⟩
  | 89 => ⟨S_, .f32⟩
  | 90 => ⟨S100000, .f32⟩
  | 91 => ⟨S100000, .f32⟩
  | 92 => ⟨S100000, .f32⟩
  | 93 => ⟨S_, .f32⟩
  | 94 => ⟨S100000, .f32⟩
  | 95 => ⟨S100000, .f32⟩
  | 96 => ⟨S_, .f32⟩
  | 97 => ⟨S100000, .f32⟩
  | 98 => ⟨S100000, .f32⟩
  | 99 => ⟨S100000x1, .f32⟩
  | 100 => ⟨S100000x1, .f32⟩
  | 101 => ⟨S100000x1, .f32⟩
  | 102 => ⟨S100000x3, .f32⟩
  | 103 => ⟨S100000x1x3, .f32⟩
  | 104 => ⟨S100000x1x3, .f32⟩
  | 105 => ⟨S100000x1x3, .f32⟩
  | 106 => ⟨S100000x3x3, .f32⟩
  | 107 => ⟨S_, .f32⟩
  | 108 => ⟨S100000x3, .f32⟩
  | 109 => ⟨S100000x3, .f32⟩
  | 110 => ⟨S100000x1x3, .f32⟩
  | 111 => ⟨S100000x3x3, .f32⟩
  | 112 => ⟨S100000x3x3, .f32⟩
  | 113 => ⟨S100000x3x3, .f32⟩
  | 114 => ⟨S_, .i32⟩
  | 115 => ⟨S131072x32, .i32⟩
  | 116 => ⟨S131072x32, .i1⟩
  | 117 => ⟨S_, .i32⟩
  | 118 => ⟨S131072x32, .i32⟩
  | 119 => ⟨S131072x32, .i32⟩
  | 120 => ⟨S131072x32, .i32⟩
  | 121 => ⟨S131072x32x1, .i32⟩
  | 122 => ⟨S131072x32x3x3, .f32⟩
  | 123 => ⟨S131072x1x3x3, .f32⟩
  | 124 => ⟨S131072x32x3x3, .f32⟩
  | 125 => ⟨S131072x32x3x3, .f32⟩
  | 126 => ⟨S131072x32x1x1, .f32⟩
  | 127 => ⟨S131072x32, .f32⟩
  | _ => ⟨S131072x3, .f32⟩

abbrev hbmTy0_1 (i : Nat) : BufTy := match i % 128 with
  | 0 => ⟨S131072x32x1x1, .f32⟩
  | 1 => ⟨S131072x32, .f32⟩
  | 2 => ⟨S131072x32x1x1, .f32⟩
  | 3 => ⟨S131072x32, .f32⟩
  | 4 => ⟨S131072x32x1x1, .f32⟩
  | 5 => ⟨S131072x32, .f32⟩
  | 6 => ⟨S131072x32x1x1, .f32⟩
  | 7 => ⟨S131072x32, .f32⟩
  | 8 => ⟨S131072x32x1x1, .f32⟩
  | 9 => ⟨S131072x32, .f32⟩
  | 10 => ⟨S131072x32x1x1, .f32⟩
  | 11 => ⟨S131072x32, .f32⟩
  | 12 => ⟨S131072x32, .f32⟩
  | 13 => ⟨S131072x32, .f32⟩
  | 14 => ⟨S131072x32, .f32⟩
  | 15 => ⟨S131072x32, .f32⟩
  | 16 => ⟨S131072x32, .f32⟩
  | 17 => ⟨S131072x32, .f32⟩
  | 18 => ⟨S131072x32, .f32⟩
  | 19 => ⟨S131072x32, .f32⟩
  | 20 => ⟨S131072x32, .f32⟩
  | 21 => ⟨S131072x32, .f32⟩
  | 22 => ⟨S131072x32, .f32⟩
  | 23 => ⟨S131072x32, .f32⟩
  | 24 => ⟨S131072x32, .f32⟩
  | 25 => ⟨S131072x32, .f32⟩
  | 26 => ⟨S_, .f32⟩
  | 27 => ⟨S131072x32, .f32⟩
  | 28 => ⟨S131072x32, .f32⟩
  | 29 => ⟨S_, .f32⟩
  | 30 => ⟨S131072x32, .f32⟩
  | 31 => ⟨S131072x32, .f32⟩
  | 32 => ⟨S131072x32, .f32⟩
  | 33 => ⟨S131072x32, .f32⟩
  | 34 => ⟨S131072x32, .f32⟩
  | 35 => ⟨S131072x32, .f32⟩
  | 36 => ⟨S131072x32, .f32⟩
  | 37 => ⟨S131072x32, .f32⟩
  | 38 => ⟨S131072x32, .f32⟩
  | 39 => ⟨S131072x32, .f32⟩
  | 40 => ⟨S131072x32, .f32⟩
  | 41 => ⟨S131072x32, .f32⟩
  | 42 => ⟨S131072x32, .f32⟩
  | 43 => ⟨S131072x32, .f32⟩
  | 44 => ⟨S131072x32, .f32⟩
  | 45 => ⟨S131072x32, .f32⟩
  | 46 => ⟨S131072x32, .f32⟩
  | 47 => ⟨S131072x32, .f32⟩
  | 48 => ⟨S131072x32, .f32⟩
  | 49 => ⟨S131072x32, .f32⟩
  | 50 => ⟨S131072x32, .f32⟩
  | 51 => ⟨S131072x32, .f32⟩
  | 52 => ⟨S131072x32, .f32⟩
  | 53 => ⟨S131072x32, .f32⟩
  | 54 => ⟨S131072x32, .f32⟩
  | 55 => ⟨S131072x32, .f32⟩
  | 56 => ⟨S131072x32x1, .f32⟩
  | 57 => ⟨S131072x32, .f32⟩
  | 58 => ⟨S131072x32x1, .f32⟩
  | 59 => ⟨S131072x32, .f32⟩
  | 60 => ⟨S131072x32x1, .f32⟩
  | 61 => ⟨S131072x32, .f32⟩
  | 62 => ⟨S131072x32, .f32⟩
  | 63 => ⟨S131072x32, .f32⟩
  | 64 => ⟨S131072x32, .f32⟩
  | 65 => ⟨S131072x32, .f32⟩
  | 66 => ⟨S131072x32, .f32⟩
  | 67 => ⟨S131072x32, .f32⟩
  | 68 => ⟨S131072x32, .f32⟩
  | 69 => ⟨S131072x32, .f32⟩
  | 70 => ⟨S131072x32, .f32⟩
  | 71 => ⟨S131072x32, .f32⟩
  | 72 => ⟨S131072x32, .f32⟩
  | 73 => ⟨S131072x32, .f32⟩
  | 74 => ⟨S131072x32, .f32⟩
  | 75 => ⟨S131072x32, .f32⟩
  | 76 => ⟨S131072x32, .f32⟩
  | 77 => ⟨S131072x32, .f32⟩
  | 78 => ⟨S131072x32, .f32⟩
  | 79 => ⟨S131072x32, .f32⟩
  | 80 => ⟨S131072x32, .f32⟩
  | 81 => ⟨S131072x32, .f32⟩
  | 82 => ⟨S_, .f32⟩
  | 83 => ⟨S131072x32, .f32⟩
  | 84 => ⟨S131072x32, .f32⟩
  | 85 => ⟨S131072x32, .f32⟩
  | 86 => ⟨S_, .f32⟩
  | 87 => ⟨S131072, .f32⟩
  | 88 => ⟨S131072x1, .f32⟩
  | 89 => ⟨S_, .f32⟩
  | 90 => ⟨S131072x1, .f32⟩
  | 91 => ⟨S131072x1, .f32⟩
  | 92 => ⟨S131072x32, .f32⟩
  | 93 => ⟨S131072x32, .f32⟩
  | 94 => ⟨S_, .i32⟩
  | 95 => ⟨S131072x32, .i32⟩
  | 96 => ⟨S131072x32, .i1⟩
  | 97 => ⟨S_, .i32⟩
  | 98 => ⟨S131072x32, .i32⟩
  | 99 => ⟨S131072x32, .i32⟩
  | 100 => ⟨S131072x32, .i32⟩
  | 101 => ⟨S131072x32x1, .i32⟩
  | 102 => ⟨S131072x32, .f32⟩
  | 103 => ⟨S131072x32, .f32⟩
  | 104 => ⟨S_, .f32⟩
  | 105 => ⟨S131072, .f32⟩
  | _ => ⟨S131072x3, .f32⟩

abbrev hbmTy (i : Nat) : BufTy := match i / 128 with
  | 0 => hbmTy0_0 i
  | 1 => hbmTy0_1 i
  | _ => ⟨S131072x3, .f32⟩

abbrev bufTy : (tb : Table) → Fin (tcTables nBuf tb) → BufTy
  | .hbm, ⟨i, _⟩ => hbmTy i
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_10 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_cst_13 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_14 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_c_15 : Ref sig .tc := ⟨.hbm, 114, rfl⟩
abbrev main_v90 : Ref sig .tc := ⟨.hbm, 115, rfl⟩
abbrev main_v91 : Ref sig .tc := ⟨.hbm, 116, rfl⟩
abbrev main_c_16 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_cst_17 : Ref sig .tc := ⟨.hbm, 154, rfl⟩
abbrev main_v128 : Ref sig .tc := ⟨.hbm, 155, rfl⟩
abbrev main_v129 : Ref sig .tc := ⟨.hbm, 156, rfl⟩
abbrev main_cst_18 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_cst_19 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_cst_20 : Ref sig .tc := ⟨.hbm, 214, rfl⟩
abbrev main_v185 : Ref sig .tc := ⟨.hbm, 215, rfl⟩
abbrev main_v186 : Ref sig .tc := ⟨.hbm, 216, rfl⟩
abbrev main_cst_21 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_c_22 : Ref sig .tc := ⟨.hbm, 222, rfl⟩
abbrev main_v191 : Ref sig .tc := ⟨.hbm, 223, rfl⟩
abbrev main_v192 : Ref sig .tc := ⟨.hbm, 224, rfl⟩
abbrev main_c_23 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_cst_24 : Ref sig .tc := ⟨.hbm, 232, rfl⟩
abbrev main_v199 : Ref sig .tc := ⟨.hbm, 233, rfl⟩

abbrev nD : Nat := 1
abbrev τ : Topo := Topo.v7x

variable {F : FTy → Type} [FloatOps F]

class Facts₀ : Prop where
  bcast_S_S131072x32 : S_.BroadcastsInDim S131072x32 (![] : Fin 0 → Fin S131072x32.rank)
  bcast_S131072x32_S131072x32x1_0_1 : S131072x32.BroadcastsInDim S131072x32x1 (![0, 1] : Fin 2 → Fin S131072x32x1.rank)
  bcast_S131072x3_S131072x1x3_0_2 : S131072x3.BroadcastsInDim S131072x1x3 (![0, 2] : Fin 2 → Fin S131072x1x3.rank)
  bcast_S131072x1x3_S131072x32x3_0_1_2 : S131072x1x3.BroadcastsInDim S131072x32x3 (![0, 1, 2] : Fin 3 → Fin S131072x32x3.rank)
  reducesTo_S100000x4_S100000_d1 : S100000x4.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x4_0_1 : S100000x1.BroadcastsInDim S100000x4 (![0, 1] : Fin 2 → Fin S100000x4.rank)
  slices_S100000x4_S100000x1_0_0 : S100000x4.Slices ![0, 0] S100000x1
  shapeCasts_S100000x1_S100000 : S100000x1.ShapeCasts S100000
  slices_S100000x4_S100000x1_0_1 : S100000x4.Slices ![0, 1] S100000x1
  slices_S100000x4_S100000x1_0_2 : S100000x4.Slices ![0, 2] S100000x1
  slices_S100000x4_S100000x1_0_3 : S100000x4.Slices ![0, 3] S100000x1
  bcast_S_S100000 : S_.BroadcastsInDim S100000 (![] : Fin 0 → Fin S100000.rank)
  concatenates_S100000x1_S100000x1_S100000x1_S100000x3_d1 : Shape.Concatenates [S100000x1, S100000x1, S100000x1] S100000x3 1
  bcast_S100000x3_S100000x1x3_0_2 : S100000x3.BroadcastsInDim S100000x1x3 (![0, 2] : Fin 2 → Fin S100000x1x3.rank)
  concatenates_S100000x1x3_S100000x1x3_S100000x1x3_S100000x3x3_d1 : Shape.Concatenates [S100000x1x3, S100000x1x3, S100000x1x3] S100000x3x3 1
  bcast_S_S100000x3 : S_.BroadcastsInDim S100000x3 (![] : Fin 0 → Fin S100000x3.rank)
  bcast_S100000x1x3_S100000x3x3_0_1_2 : S100000x1x3.BroadcastsInDim S100000x3x3 (![0, 1, 2] : Fin 3 → Fin S100000x3x3.rank)
  bcast_S131072x3x3_S131072x1x3x3_0_2_3 : S131072x3x3.BroadcastsInDim S131072x1x3x3 (![0, 2, 3] : Fin 3 → Fin S131072x1x3x3.rank)
  bcast_S131072x1x3x3_S131072x32x3x3_0_1_2_3 : S131072x1x3x3.BroadcastsInDim S131072x32x3x3 (![0, 1, 2, 3] : Fin 4 → Fin S131072x32x3x3.rank)
  slices_S131072x32x3x3_S131072x32x1x1_0_0_0_0 : S131072x32x3x3.Slices ![0, 0, 0, 0] S131072x32x1x1
  shapeCasts_S131072x32x1x1_S131072x32 : S131072x32x1x1.ShapeCasts S131072x32
  slices_S131072x32x3x3_S131072x32x1x1_0_0_0_1 : S131072x32x3x3.Slices ![0, 0, 0, 1] S131072x32x1x1
  slices_S131072x32x3x3_S131072x32x1x1_0_0_0_2 : S131072x32x3x3.Slices ![0, 0, 0, 2] S131072x32x1x1
  slices_S131072x32x3x3_S131072x32x1x1_0_0_1_1 : S131072x32x3x3.Slices ![0, 0, 1, 1] S131072x32x1x1
  slices_S131072x32x3x3_S131072x32x1x1_0_0_1_2 : S131072x32x3x3.Slices ![0, 0, 1, 2] S131072x32x1x1
  slices_S131072x32x3x3_S131072x32x1x1_0_0_2_1 : S131072x32x3x3.Slices ![0, 0, 2, 1] S131072x32x1x1
  slices_S131072x32x3x3_S131072x32x1x1_0_0_2_2 : S131072x32x3x3.Slices ![0, 0, 2, 2] S131072x32x1x1
  slices_S131072x32x3_S131072x32x1_0_0_0 : S131072x32x3.Slices ![0, 0, 0] S131072x32x1
  shapeCasts_S131072x32x1_S131072x32 : S131072x32x1.ShapeCasts S131072x32
  slices_S131072x32x3_S131072x32x1_0_0_1 : S131072x32x3.Slices ![0, 0, 1] S131072x32x1
  slices_S131072x32x3_S131072x32x1_0_0_2 : S131072x32x3.Slices ![0, 0, 2] S131072x32x1
  reducesTo_S131072x32_S131072_d1 : S131072x32.ReducesTo [1] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x32_0_1 : S131072x1.BroadcastsInDim S131072x32 (![0, 1] : Fin 2 → Fin S131072x32.rank)
  gather_S100000x3_S131072x32x1_S131072x32x3_2_0_n_n_0_2_13_wf : GatherDims.WF S100000x3 S131072x32x1 S131072x32x3 [2] [0] [] [0] [] 2 ![1, 3]
  dot_S100000x3x3_S100000x3x3_S100000x3x3_2_2_1_1_0_0_wf : DotDims.WF S100000x3x3 S100000x3x3 S100000x3x3 [2] [2] [1] [1] [0] [0]
  gather_S100000x3x3_S131072x32x1_S131072x32x3x3_23_0_n_n_0_2_133_wf : GatherDims.WF S100000x3x3 S131072x32x1 S131072x32x3x3 [2, 3] [0] [] [0] [] 2 ![1, 3, 3]
  gather_S100000_S131072x32x1_S131072x32_n_0_n_n_0_2_1_wf : GatherDims.WF S100000 S131072x32x1 S131072x32 [] [0] [] [0] [] 2 ![1]

variable [Facts₀]

def gather_S100000x3_S131072x32x1_S131072x32x3_2_0_n_n_0_2_13 : GatherDims S100000x3 S131072x32x1 S131072x32x3 where
  offsetDims := [2]
  collapsedSliceDims := [0]
  operandBatchingDims := []
  startIndicesBatchingDims := []
  startIndexMap := [0]
  indexVectorDim := 2
  sliceSizes := ![1, 3]
  wf := gather_S100000x3_S131072x32x1_S131072x32x3_2_0_n_n_0_2_13_wf
def dot_S100000x3x3_S100000x3x3_S100000x3x3_2_2_1_1_0_0 : DotDims S100000x3x3 S100000x3x3 S100000x3x3 where
  lhsContracting := [2]
  rhsContracting := [2]
  lhsNonContracting := [1]
  rhsNonContracting := [1]
  lhsBatch := [0]
  rhsBatch := [0]
  wf := dot_S100000x3x3_S100000x3x3_S100000x3x3_2_2_1_1_0_0_wf
def gather_S100000x3x3_S131072x32x1_S131072x32x3x3_23_0_n_n_0_2_133 : GatherDims S100000x3x3 S131072x32x1 S131072x32x3x3 where
  offsetDims := [2, 3]
  collapsedSliceDims := [0]
  operandBatchingDims := []
  startIndicesBatchingDims := []
  startIndexMap := [0]
  indexVectorDim := 2
  sliceSizes := ![1, 3, 3]
  wf := gather_S100000x3x3_S131072x32x1_S131072x32x3x3_23_0_n_n_0_2_133_wf
def gather_S100000_S131072x32x1_S131072x32_n_0_n_n_0_2_1 : GatherDims S100000 S131072x32x1 S131072x32 where
  offsetDims := []
  collapsedSliceDims := [0]
  operandBatchingDims := []
  startIndicesBatchingDims := []
  startIndexMap := [0]
  indexVectorDim := 2
  sliceSizes := ![1]
  wf := gather_S100000_S131072x32x1_S131072x32_n_0_n_n_0_2_1_wf

class Facts : Prop extends Facts₀ where

variable [Facts]
-- ==== Proof.KFrameHost.lean ====
/-
  The host side of the kernel's program, around its one region.

  The program is 187 host operations, one pipelined region, and one host operation (a reshape). Each host operation
  writes exactly one buffer, its own result, and no result buffer is one of the seven argument arrays. So the
  argument arrays reach the region as launched, and — none of them being an array the pipeline stages — leave the
  program as launched. This module states the contents the region is entered with (the fold of the 187 operations
  over the launch memory, never unfolded), the shape of the program around the region, the facts about the reshape
  after it, and how a window's block at a grid point is read off the array the region finds.
-/
import proofs.«142190_j3564822856016_2_alg».proof.Proof.Gen.KernelIdeal.Launch
import proofs.«142190_j3564822856016_2_alg».proof.Proof.Gen.KernelIdeal.Skeleton
import proofs.«142190_j3564822856016_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the host operations before it, folded over the launch
    memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the reshape after it; run from the launch
    memory it reaches the region with contents `V` and continues with the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches unscoped TensorCore buffers only: with nothing prefetched, each of those is
    an array of the pipeline or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its one result buffer is none of the twelve. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-! ## The argument arrays, before and after -/

/-- No host operation before the region writes `main_arg0` (each writes only its own result buffer, and no result
    buffer is an argument): the region finds the array as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the reshape after the region, and `main_arg0` is no array of the pipeline: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1` (each writes only its own result buffer, and no result
    buffer is an argument): the region finds the array as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the reshape after the region, and `main_arg1` is no array of the pipeline: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2` (each writes only its own result buffer, and no result
    buffer is an argument): the region finds the array as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the reshape after the region, and `main_arg2` is no array of the pipeline: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3` (each writes only its own result buffer, and no result
    buffer is an argument): the region finds the array as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the reshape after the region, and `main_arg3` is no array of the pipeline: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4` (each writes only its own result buffer, and no result
    buffer is an argument): the region finds the array as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the reshape after the region, and `main_arg4` is no array of the pipeline: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5` (each writes only its own result buffer, and no result
    buffer is an argument): the region finds the array as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the reshape after the region, and `main_arg5` is no array of the pipeline: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6` (each writes only its own result buffer, and no result
    buffer is an argument): the region finds the array as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the reshape after the region, and `main_arg6` is no array of the pipeline: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at grid point `t`: the rectangle of its array the window's index map selects there, read off
    the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block when the body is called, whether the pipeline
    fetched it at that point or kept it from the point before (then the index has not moved): for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run whose final memory has every buffer outside the pipeline's arrays as the reshape after the region leaves it
    has every argument array as launched: no argument is an array of the pipeline, so each is read by the second
    clause of the run's post and then by `W_main_argK`. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c))⟩) h

end Cert.KernelIdeal.Hand

end
-- ==== Proof.KFrameBody.lean ====
/-
  The kernel body, run once on whole staging buffers.

  At a grid point the body reads eleven blocks whole — ten of 1024×32 numbers and one of 1024×9 parameters —,
  computes with them pointwise and with two sums along the 32 lanes, reads the output block once (the value read is
  not used) and then overwrites the whole 1024×1 output block. So the output block ends as one function of the eleven
  input blocks, whatever it held before; the input blocks are left as they were.
-/
import proofs.«142190_j3564822856016_2_alg».proof.Proof.Gen.KernelIdeal.Launch
import proofs.«142190_j3564822856016_2_alg».proof.Proof.Gen.KernelIdeal.Skeleton
import proofs.«142190_j3564822856016_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each the whole block -/

/-- A whole 1024×32 input block. -/
abbrev rIn : Rect S1024x32 := Rect.unit (s := S1024x32) ![0, 0] S1024x32.size inb_S1024x32_S1024x32_0_0
/-- The whole 1024×9 parameter block. -/
abbrev rPar : Rect S1024x9 := Rect.unit (s := S1024x9) ![0, 0] S1024x9.size inb_S1024x9_S1024x9_0_0
/-- The whole 1024×1 output block. -/
abbrev rOut : Rect S1024x1 := Rect.unit (s := S1024x1) ![0, 0] S1024x1.size inb_S1024x1_S1024x1_0_0

/-! ## What the body leaves in the output block -/

/-- The value the body stores, as a function of the eleven input blocks `x0 … x10` (in the order of the windows; `x10`
    is the parameter block): the nine parameter columns broadcast along the lanes (`v19 … v28` and inside
    `v31 … v43`), combined with the blocks `x0 … x4` into the three differences `v31, v34, v37` and the two sums
    `v40, v43`; from these and the blocks `x5 … x8` the inverse of a symmetric 3×3 matrix by cofactors over its
    determinant (`v73` the reciprocal determinant, `v77 … v96` the cofactor terms); then the quadratic form, its
    exponential, the lane sum that normalises it, the product with block `x9` and the final lane sum. -/
def pay0_11 (x0 x1 x2 x3 x4 x5 x6 x7 x8 x9 : Vec F S1024x32 .f32) (x10 : Vec F S1024x9 .f32) : FVec F S1024x1 .f32 :=
  let p : Vec F S1024x9 .f32 := View.ld x10 rPar
  let v19 := k0_pay3 p
  let v22 := k0_pay4 p
  let v25 := k0_pay5 p
  let v28 := k0_pay6 p
  let v31 := k0_pay7 p (View.ld x0 rIn)
  let v34 := k0_pay8 p (View.ld x1 rIn)
  let v37 := k0_pay9 p (View.ld x2 rIn)
  let v40 := k0_pay10 p (View.ld x3 rIn)
  let v43 := k0_pay11 p (View.ld x4 rIn)
  let v44 : Vec F S1024x32 .f32 := View.ld x5 rIn
  let v47 : Vec F S1024x32 .f32 := View.ld x6 rIn
  let v50 : Vec F S1024x32 .f32 := View.ld x7 rIn
  let v53 : Vec F S1024x32 .f32 := View.ld x8 rIn
  let v73 := k0_pay16 v19 v22 v25 v28 v40 v43 v44 v47 v50 v53
  let v77 := k0_pay17 v19 v22 v25 v28 v40 v43 v44 v47 v50 v53
  let v81 := k0_pay18 v19 v22 v25 v28 v40 v43 v44 v47 v50 v53
  let v85 := k0_pay19 v19 v22 v25 v28 v40 v43 v44 v47 v50 v53
  let v89 := k0_pay20 v19 v22 v25 v28 v40 v43 v44 v47 v50 v53
  let v93 := k0_pay21 v19 v22 v25 v28 v40 v43 v44 v47 v50 v53
  let v96 := k0_pay22 v22 v40 v43 v47
  k0_pay1 v31 v34 v37 v73 v77 v81 v85 v89 v93 v96 (View.ld x9 rIn)

/-- The output block after the body: its one store, through the whole block, of `pay0_11` of the input blocks. -/
def out0_11 (x0 x1 x2 x3 x4 x5 x6 x7 x8 x9 : Vec F S1024x32 .f32) (x10 : Vec F S1024x9 .f32) : Vec F S1024x1 .f32 :=
  View.canon [⟨rOut, pay0_11 x0 x1 x2 x3 x4 x5 x6 x7 x8 x9 x10⟩]

/-- The one store goes through the whole block, so every index of the block lies under it. -/
theorem cover0_11 (p0 : Vec F S1024x1 .f32) (y : S1024x1.Idx) :
    ∃ pc ∈ ([⟨rOut, p0⟩] : List (View.Piece (Elt F) S1024x1 .f32)), y ∈ pc.1.set :=
  View.cover_of_tiled [⟨rOut, p0⟩] S1024x1.size (by rfl) y

/-! ## The body's triple -/

set_option maxHeartbeats 4000000 in
/-- On whole staging buffers, the eleven inputs' holding contents that read `x0 … x10` and the output's holding
    anything, the body runs to its end without fault; then the inputs' buffers hold what they held and the output's
    reads `out0_11 x0 … x10`. The printed function and its two parts are their skeletons (by unfolding), and the
    skeleton is a sequence of whole-block loads, one whole-block store and a return. -/
theorem sound_kernel (c : Dev nD) (E : Set ℕ) (i : grid0.Coords) (arg1 : Memref sig .tc .vmem S1024x32 .f32) (harg1 : arg1.IsWhole) (arg2 : Memref sig .tc .vmem S1024x32 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1024x32 .f32) (harg8 : arg8.IsWhole) (arg9 : Memref sig .tc .vmem S1024x32 .f32) (harg9 : arg9.IsWhole) (arg10 : Memref sig .tc .vmem S1024x32 .f32) (harg10 : arg10.IsWhole) (arg11 : Memref sig .tc .vmem S1024x9 .f32) (harg11 : arg11.IsWhole) (arg12 : Memref sig .tc .vmem S1024x1 .f32) (harg12 : arg12.IsWhole)
    (x0 x1 x2 x3 x4 x5 x6 x7 x8 x9 : Vec F S1024x32 .f32) (x10 : Vec F S1024x9 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__gsvr_kernel i arg1 harg1 arg2 harg2 arg3 harg3 arg4 harg4 arg5 harg5 arg6 harg6 arg7 harg7 arg8 harg8 arg9 harg9 arg10 harg10 arg11 harg11 arg12 harg12) K := by
  simp only [cc0__gsvr_kernel_eq_skeleton]; unfold cc0__gsvr_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

end Cert.KernelIdeal.Hand

end
-- ==== Proof.KFrame.lean ====
/-
  The frame of the kernel's program: it runs to its end without fault and leaves its seven argument arrays as launched.

  The proof data of the one pipeline says what each window's staging buffer holds after the body at a grid point: an
  input window's its block of the array the region found (the body only reads it), the output window's the value of
  `out0_11` at the eleven input blocks (the body overwrites it whole). With the body's triple this is the body
  obligation at every point; the library's launch theorem for "host operations, region, host operations" then gives the
  run, and the argument arrays are read off its final memory.
-/
import proofs.«142190_j3564822856016_2_alg».proof.Proof.KFrameHost
import proofs.«142190_j3564822856016_2_alg».proof.Proof.KFrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block
    and the output's at `out0_11` of the input blocks; the invariant the untouched rest (scoped buffers and the
    generator register); full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents (a projection; the fold behind `V` is not opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block when the body is called. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation -/

/-- What the body is called with at point `t`: the invariant, the core's debt, and each window's current staging
    buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it must return. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point: the inputs' buffers hold their blocks, so the body's triple applies at those blocks; the
    invariant and the debt pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of the program on the TensorCores
    terminates, and in every final state each array of the pipeline holds what the proof data's write-backs leave and
    every other unscoped buffer what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of the program, at any float instance: it runs to its end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Hand

end
-- ==== Proof.KFrameBitsHost.lean ====
/-
  The host side of the kernel's program, around its one region.

  The program is 187 host operations, one pipelined region, and one host operation (a reshape). Each host operation
  writes exactly one buffer, its own result, and no result buffer is one of the seven argument arrays. So the
  argument arrays reach the region as launched, and — none of them being an array the pipeline stages — leave the
  program as launched. This module states the contents the region is entered with (the fold of the 187 operations
  over the launch memory, never unfolded), the shape of the program around the region, the facts about the reshape
  after it, and how a window's block at a grid point is read off the array the region finds.
-/
import proofs.«142190_j3564822856016_2_alg».proof.Proof.Gen.Kernel.Launch
import proofs.«142190_j3564822856016_2_alg».proof.Proof.Gen.Kernel.Skeleton
import proofs.«142190_j3564822856016_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the host operations before it, folded over the launch
    memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the reshape after it; run from the launch
    memory it reaches the region with contents `V` and continues with the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches unscoped TensorCore buffers only: with nothing prefetched, each of those is
    an array of the pipeline or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its one result buffer is none of the twelve. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-! ## The argument arrays, before and after -/

/-- No host operation before the region writes `main_arg0` (each writes only its own result buffer, and no result
    buffer is an argument): the region finds the array as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the reshape after the region, and `main_arg0` is no array of the pipeline: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1` (each writes only its own result buffer, and no result
    buffer is an argument): the region finds the array as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the reshape after the region, and `main_arg1` is no array of the pipeline: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2` (each writes only its own result buffer, and no result
    buffer is an argument): the region finds the array as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the reshape after the region, and `main_arg2` is no array of the pipeline: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3` (each writes only its own result buffer, and no result
    buffer is an argument): the region finds the array as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the reshape after the region, and `main_arg3` is no array of the pipeline: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4` (each writes only its own result buffer, and no result
    buffer is an argument): the region finds the array as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the reshape after the region, and `main_arg4` is no array of the pipeline: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5` (each writes only its own result buffer, and no result
    buffer is an argument): the region finds the array as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the reshape after the region, and `main_arg5` is no array of the pipeline: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6` (each writes only its own result buffer, and no result
    buffer is an argument): the region finds the array as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Nor does the reshape after the region, and `main_arg6` is no array of the pipeline: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at grid point `t`: the rectangle of its array the window's index map selects there, read off
    the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block when the body is called, whether the pipeline
    fetched it at that point or kept it from the point before (then the index has not moved): for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run whose final memory has every buffer outside the pipeline's arrays as the reshape after the region leaves it
    has every argument array as launched: no argument is an array of the pipeline, so each is read by the second
    clause of the run's post and then by `W_main_argK`. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c))⟩) h

end Cert.Kernel.Hand

end
-- ==== Proof.KFrameBitsBody.lean ====
/-
  The kernel body, run once on whole staging buffers.

  At a grid point the body reads eleven blocks whole — ten of 1024×32 numbers and one of 1024×9 parameters —,
  computes with them pointwise and with two sums along the 32 lanes, reads the output block once (the value read is
  not used) and then overwrites the whole 1024×1 output block. So the output block ends as one function of the eleven
  input blocks, whatever it held before; the input blocks are left as they were.
-/
import proofs.«142190_j3564822856016_2_alg».proof.Proof.Gen.Kernel.Launch
import proofs.«142190_j3564822856016_2_alg».proof.Proof.Gen.Kernel.Skeleton
import proofs.«142190_j3564822856016_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each the whole block -/

/-- A whole 1024×32 input block. -/
abbrev rIn : Rect S1024x32 := Rect.unit (s := S1024x32) ![0, 0] S1024x32.size inb_S1024x32_S1024x32_0_0
/-- The whole 1024×9 parameter block. -/
abbrev rPar : Rect S1024x9 := Rect.unit (s := S1024x9) ![0, 0] S1024x9.size inb_S1024x9_S1024x9_0_0
/-- The whole 1024×1 output block. -/
abbrev rOut : Rect S1024x1 := Rect.unit (s := S1024x1) ![0, 0] S1024x1.size inb_S1024x1_S1024x1_0_0

/-! ## What the body leaves in the output block -/

/-- The value the body stores, as a function of the eleven input blocks `x0 … x10` (in the order of the windows; `x10`
    is the parameter block): the nine parameter columns broadcast along the lanes (`v19 … v28` and inside
    `v31 … v43`), combined with the blocks `x0 … x4` into the three differences `v31, v34, v37` and the two sums
    `v40, v43`; from these and the blocks `x5 … x8` the inverse of a symmetric 3×3 matrix by cofactors over its
    determinant (`v73` the reciprocal determinant, `v77 … v96` the cofactor terms); then the quadratic form, its
    exponential, the lane sum that normalises it, the product with block `x9` and the final lane sum. -/
def pay0_11 (x0 x1 x2 x3 x4 x5 x6 x7 x8 x9 : Vec F S1024x32 .f32) (x10 : Vec F S1024x9 .f32) : FVec F S1024x1 .f32 :=
  let p : Vec F S1024x9 .f32 := View.ld x10 rPar
  let v19 := k0_pay3 p
  let v22 := k0_pay4 p
  let v25 := k0_pay5 p
  let v28 := k0_pay6 p
  let v31 := k0_pay7 p (View.ld x0 rIn)
  let v34 := k0_pay8 p (View.ld x1 rIn)
  let v37 := k0_pay9 p (View.ld x2 rIn)
  let v40 := k0_pay10 p (View.ld x3 rIn)
  let v43 := k0_pay11 p (View.ld x4 rIn)
  let v44 : Vec F S1024x32 .f32 := View.ld x5 rIn
  let v47 : Vec F S1024x32 .f32 := View.ld x6 rIn
  let v50 : Vec F S1024x32 .f32 := View.ld x7 rIn
  let v53 : Vec F S1024x32 .f32 := View.ld x8 rIn
  let v73 := k0_pay16 v19 v22 v25 v28 v40 v43 v44 v47 v50 v53
  let v77 := k0_pay17 v19 v22 v25 v28 v40 v43 v44 v47 v50 v53
  let v81 := k0_pay18 v19 v22 v25 v28 v40 v43 v44 v47 v50 v53
  let v85 := k0_pay19 v19 v22 v25 v28 v40 v43 v44 v47 v50 v53
  let v89 := k0_pay20 v19 v22 v25 v28 v40 v43 v44 v47 v50 v53
  let v93 := k0_pay21 v19 v22 v25 v28 v40 v43 v44 v47 v50 v53
  let v96 := k0_pay22 v22 v40 v43 v47
  k0_pay1 v31 v34 v37 v73 v77 v81 v85 v89 v93 v96 (View.ld x9 rIn)

/-- The output block after the body: its one store, through the whole block, of `pay0_11` of the input blocks. -/
def out0_11 (x0 x1 x2 x3 x4 x5 x6 x7 x8 x9 : Vec F S1024x32 .f32) (x10 : Vec F S1024x9 .f32) : Vec F S1024x1 .f32 :=
  View.canon [⟨rOut, pay0_11 x0 x1 x2 x3 x4 x5 x6 x7 x8 x9 x10⟩]

/-- The one store goes through the whole block, so every index of the block lies under it. -/
theorem cover0_11 (p0 : Vec F S1024x1 .f32) (y : S1024x1.Idx) :
    ∃ pc ∈ ([⟨rOut, p0⟩] : List (View.Piece (Elt F) S1024x1 .f32)), y ∈ pc.1.set :=
  View.cover_of_tiled [⟨rOut, p0⟩] S1024x1.size (by rfl) y

/-! ## The body's triple -/

set_option maxHeartbeats 4000000 in
/-- On whole staging buffers, the eleven inputs' holding contents that read `x0 … x10` and the output's holding
    anything, the body runs to its end without fault; then the inputs' buffers hold what they held and the output's
    reads `out0_11 x0 … x10`. The printed function and its two parts are their skeletons (by unfolding), and the
    skeleton is a sequence of whole-block loads, one whole-block store and a return. -/
theorem sound_kernel (c : Dev nD) (E : Set ℕ) (i : grid0.Coords) (arg1 : Memref sig .tc .vmem S1024x32 .f32) (harg1 : arg1.IsWhole) (arg2 : Memref sig .tc .vmem S1024x32 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1024x32 .f32) (harg8 : arg8.IsWhole) (arg9 : Memref sig .tc .vmem S1024x32 .f32) (harg9 : arg9.IsWhole) (arg10 : Memref sig .tc .vmem S1024x32 .f32) (harg10 : arg10.IsWhole) (arg11 : Memref sig .tc .vmem S1024x9 .f32) (harg11 : arg11.IsWhole) (arg12 : Memref sig .tc .vmem S1024x1 .f32) (harg12 : arg12.IsWhole)
    (x0 x1 x2 x3 x4 x5 x6 x7 x8 x9 : Vec F S1024x32 .f32) (x10 : Vec F S1024x9 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__gsvr_kernel i arg1 harg1 arg2 harg2 arg3 harg3 arg4 harg4 arg5 harg5 arg6 harg6 arg7 harg7 arg8 harg8 arg9 harg9 arg10 harg10 arg11 harg11 arg12 harg12) K := by
  simp only [cc0__gsvr_kernel_eq_skeleton]; unfold cc0__gsvr_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

end Cert.Kernel.Hand

end
-- ==== Proof.KFrameBits.lean ====
/-
  The frame of the kernel's program: it runs to its end without fault and leaves its seven argument arrays as launched.

  The proof data of the one pipeline says what each window's staging buffer holds after the body at a grid point: an
  input window's its block of the array the region found (the body only reads it), the output window's the value of
  `out0_11` at the eleven input blocks (the body overwrites it whole). With the body's triple this is the body
  obligation at every point; the library's launch theorem for "host operations, region, host operations" then gives the
  run, and the argument arrays are read off its final memory.
-/
import proofs.«142190_j3564822856016_2_alg».proof.Proof.KFrameBitsHost
import proofs.«142190_j3564822856016_2_alg».proof.Proof.KFrameBitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block
    and the output's at `out0_11` of the input blocks; the invariant the untouched rest (scoped buffers and the
    generator register); full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents (a projection; the fold behind `V` is not opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block when the body is called. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation -/

/-- What the body is called with at point `t`: the invariant, the core's debt, and each window's current staging
    buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it must return. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point: the inputs' buffers hold their blocks, so the body's triple applies at those blocks; the
    invariant and the debt pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of the program on the TensorCores
    terminates, and in every final state each array of the pipeline holds what the proof data's write-backs leave and
    every other unscoped buffer what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of the program, at any float instance: it runs to its end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Hand

end
-- ==== Proof.KValueRun.lean ====
/-
  From the blocks to the array, and through the reshape after the region.

  The grid has 128 points and every window's index map sends point `t` to block (t, 0): block `t` of a window is rows
  1024 t … 1024 t + 1023 of its array, all columns. So an entry of an input block is an entry of the window's array as
  the region finds it, and — given one function `G` of an array index that every point's output block agrees with on
  its own rows — the output array ends holding `G`: the 128 blocks cover its 131072 rows. The reshape after the region
  then reads row `i` of that one-column array as entry `i` of the result vector.
-/
import proofs.«142190_j3564822856016_2_alg».proof.Proof.KFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The index maps, over the grid -/

/-- Row `r` of block `t` is a row of the array: 1024 t + r < 131072, the grid having 128 points. -/
theorem row_lt (t : Fin cfg0.N) (r : Fin 1024) : 1024 * t.val + r.val < 131072 := by
  have ht : t.val < 128 := lt_of_lt_of_eq t.isLt (show cfg0.N = 128 from N_0)
  omega

/-! Each window's index map sends point `t` to block (t, 0): decided over the 128 points. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)
theorem idx0_5 : ∀ t : Fin cfg0.N, win0_5.index t (0 : Fin 2) = t.val ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)
theorem idx0_10 : ∀ t : Fin cfg0.N, win0_10.index t (0 : Fin 2) = t.val ∧ win0_10.index t (1 : Fin 2) = 0 :=
  (by decide +kernel : ∀ t : Fin grid0.N, _)
theorem idx0_11 : ∀ t : Fin cfg0.N, win0_11.index t (0 : Fin 2) = t.val ∧ win0_11.index t (1 : Fin 2) = 0 :=
  (by decide +kernel : ∀ t : Fin grid0.N, _)

/-! ## The input blocks, entry by entry -/

/-- Entry (r, k) of window 0's block at point `t` is entry (1024 t + r, k) of its array. -/
theorem iblk_at_0 (c : Dev nD) (t : Fin cfg0.N) (r : Fin 1024) (k : Fin 32) :
    (iblk m c 0 t : Vec F S1024x32 .f32) (ix2 r k)
      = (V m c main_v121 : S131072x32.Idx → Elt F .f32) (ix2 ⟨1024 * t.val + r.val, row_lt t r⟩ k) := by
  obtain ⟨h0, h1⟩ := idx0_0 t
  unfold iblk
  rw [View.read_apply]
  show (V m c main_v121 : S131072x32.Idx → Elt F .f32) _ = _
  refine congrArg _ ?_
  funext a
  apply Fin.ext
  match a with
  | ⟨0, _⟩ => show win0_0.index t (0 : Fin 2) * 1024 + 1 * r.val = 1024 * t.val + r.val; rw [h0]; omega
  | ⟨1, _⟩ => show win0_0.index t (1 : Fin 2) * 32 + 1 * k.val = k.val; rw [h1]; omega

/-- Entry (r, k) of window 1's block at point `t` is entry (1024 t + r, k) of its array. -/
theorem iblk_at_1 (c : Dev nD) (t : Fin cfg0.N) (r : Fin 1024) (k : Fin 32) :
    (iblk m c 1 t : Vec F S1024x32 .f32) (ix2 r k)
      = (V m c main_v123 : S131072x32.Idx → Elt F .f32) (ix2 ⟨1024 * t.val + r.val, row_lt t r⟩ k) := by
  obtain ⟨h0, h1⟩ := idx0_1 t
  unfold iblk
  rw [View.read_apply]
  show (V m c main_v123 : S131072x32.Idx → Elt F .f32) _ = _
  refine congrArg _ ?_
  funext a
  apply Fin.ext
  match a with
  | ⟨0, _⟩ => show win0_1.index t (0 : Fin 2) * 1024 + 1 * r.val = 1024 * t.val + r.val; rw [h0]; omega
  | ⟨1, _⟩ => show win0_1.index t (1 : Fin 2) * 32 + 1 * k.val = k.val; rw [h1]; omega

/-- Entry (r, k) of window 2's block at point `t` is entry (1024 t + r, k) of its array. -/
theorem iblk_at_2 (c : Dev nD) (t : Fin cfg0.N) (r : Fin 1024) (k : Fin 32) :
    (iblk m c 2 t : Vec F S1024x32 .f32) (ix2 r k)
      = (V m c main_v125 : S131072x32.Idx → Elt F .f32) (ix2 ⟨1024 * t.val + r.val, row_lt t r⟩ k) := by
  obtain ⟨h0, h1⟩ := idx0_2 t
  unfold iblk
  rw [View.read_apply]
  show (V m c main_v125 : S131072x32.Idx → Elt F .f32) _ = _
  refine congrArg _ ?_
  funext a
  apply Fin.ext
  match a with
  | ⟨0, _⟩ => show win0_2.index t (0 : Fin 2) * 1024 + 1 * r.val = 1024 * t.val + r.val; rw [h0]; omega
  | ⟨1, _⟩ => show win0_2.index t (1 : Fin 2) * 32 + 1 * k.val = k.val; rw [h1]; omega

/-- Entry (r, k) of window 3's block at point `t` is entry (1024 t + r, k) of its array. -/
theorem iblk_at_3 (c : Dev nD) (t : Fin cfg0.N) (r : Fin 1024) (k : Fin 32) :
    (iblk m c 3 t : Vec F S1024x32 .f32) (ix2 r k)
      = (V m c main_v127 : S131072x32.Idx → Elt F .f32) (ix2 ⟨1024 * t.val + r.val, row_lt t r⟩ k) := by
  obtain ⟨h0, h1⟩ := idx0_3 t
  unfold iblk
  rw [View.read_apply]
  show (V m c main_v127 : S131072x32.Idx → Elt F .f32) _ = _
  refine congrArg _ ?_
  funext a
  apply Fin.ext
  match a with
  | ⟨0, _⟩ => show win0_3.index t (0 : Fin 2) * 1024 + 1 * r.val = 1024 * t.val + r.val; rw [h0]; omega
  | ⟨1, _⟩ => show win0_3.index t (1 : Fin 2) * 32 + 1 * k.val = k.val; rw [h1]; omega

/-- Entry (r, k) of window 4's block at point `t` is entry (1024 t + r, k) of its array. -/
theorem iblk_at_4 (c : Dev nD) (t : Fin cfg0.N) (r : Fin 1024) (k : Fin 32) :
    (iblk m c 4 t : Vec F S1024x32 .f32) (ix2 r k)
      = (V m c main_v129 : S131072x32.Idx → Elt F .f32) (ix2 ⟨1024 * t.val + r.val, row_lt t r⟩ k) := by
  obtain ⟨h0, h1⟩ := idx0_4 t
  unfold iblk
  rw [View.read_apply]
  show (V m c main_v129 : S131072x32.Idx → Elt F .f32) _ = _
  refine congrArg _ ?_
  funext a
  apply Fin.ext
  match a with
  | ⟨0, _⟩ => show win0_4.index t (0 : Fin 2) * 1024 + 1 * r.val = 1024 * t.val + r.val; rw [h0]; omega
  | ⟨1, _⟩ => show win0_4.index t (1 : Fin 2) * 32 + 1 * k.val = k.val; rw [h1]; omega

/-- Entry (r, k) of window 5's block at point `t` is entry (1024 t + r, k) of its array. -/
theorem iblk_at_5 (c : Dev nD) (t : Fin cfg0.N) (r : Fin 1024) (k : Fin 32) :
    (iblk m c 5 t : Vec F S1024x32 .f32) (ix2 r k)
      = (V m c main_v131 : S131072x32.Idx → Elt F .f32) (ix2 ⟨1024 * t.val + r.val, row_lt t r⟩ k) := by
  obtain ⟨h0, h1⟩ := idx0_5 t
  unfold iblk
  rw [View.read_apply]
  show (V m c main_v131 : S131072x32.Idx → Elt F .f32) _ = _
  refine congrArg _ ?_
  funext a
  apply Fin.ext
  match a with
  | ⟨0, _⟩ => show win0_5.index t (0 : Fin 2) * 1024 + 1 * r.val = 1024 * t.val + r.val; rw [h0]; omega
  | ⟨1, _⟩ => show win0_5.index t (1 : Fin 2) * 32 + 1 * k.val = k.val; rw [h1]; omega

/-- Entry (r, k) of window 6's block at point `t` is entry (1024 t + r, k) of its array. -/
theorem iblk_at_6 (c : Dev nD) (t : Fin cfg0.N) (r : Fin 1024) (k : Fin 32) :
    (iblk m c 6 t : Vec F S1024x32 .f32) (ix2 r k)
      = (V m c main_v133 : S131072x32.Idx → Elt F .f32) (ix2 ⟨1024 * t.val + r.val, row_lt t r⟩ k) := by
  obtain ⟨h0, h1⟩ := idx0_6 t
  unfold iblk
  rw [View.read_apply]
  show (V m c main_v133 : S131072x32.Idx → Elt F .f32) _ = _
  refine congrArg _ ?_
  funext a
  apply Fin.ext
  match a with
  | ⟨0, _⟩ => show win0_6.index t (0 : Fin 2) * 1024 + 1 * r.val = 1024 * t.val + r.val; rw [h0]; omega
  | ⟨1, _⟩ => show win0_6.index t (1 : Fin 2) * 32 + 1 * k.val = k.val; rw [h1]; omega

/-- Entry (r, k) of window 7's block at point `t` is entry (1024 t + r, k) of its array. -/
theorem iblk_at_7 (c : Dev nD) (t : Fin cfg0.N) (r : Fin 1024) (k : Fin 32) :
    (iblk m c 7 t : Vec F S1024x32 .f32) (ix2 r k)
      = (V m c main_v135 : S131072x32.Idx → Elt F .f32) (ix2 ⟨1024 * t.val + r.val, row_lt t r⟩ k) := by
  obtain ⟨h0, h1⟩ := idx0_7 t
  unfold iblk
  rw [View.read_apply]
  show (V m c main_v135 : S131072x32.Idx → Elt F .f32) _ = _
  refine congrArg _ ?_
  funext a
  apply Fin.ext
  match a with
  | ⟨0, _⟩ => show win0_7.index t (0 : Fin 2) * 1024 + 1 * r.val = 1024 * t.val + r.val; rw [h0]; omega
  | ⟨1, _⟩ => show win0_7.index t (1 : Fin 2) * 32 + 1 * k.val = k.val; rw [h1]; omega

/-- Entry (r, k) of window 8's block at point `t` is entry (1024 t + r, k) of its array. -/
theorem iblk_at_8 (c : Dev nD) (t : Fin cfg0.N) (r : Fin 1024) (k : Fin 32) :
    (iblk m c 8 t : Vec F S1024x32 .f32) (ix2 r k)
      = (V m c main_v137 : S131072x32.Idx → Elt F .f32) (ix2 ⟨1024 * t.val + r.val, row_lt t r⟩ k) := by
  obtain ⟨h0, h1⟩ := idx0_8 t
  unfold iblk
  rw [View.read_apply]
  show (V m c main_v137 : S131072x32.Idx → Elt F .f32) _ = _
  refine congrArg _ ?_
  funext a
  apply Fin.ext
  match a with
  | ⟨0, _⟩ => show win0_8.index t (0 : Fin 2) * 1024 + 1 * r.val = 1024 * t.val + r.val; rw [h0]; omega
  | ⟨1, _⟩ => show win0_8.index t (1 : Fin 2) * 32 + 1 * k.val = k.val; rw [h1]; omega

/-- Entry (r, k) of window 9's block at point `t` is entry (1024 t + r, k) of its array. -/
theorem iblk_at_9 (c : Dev nD) (t : Fin cfg0.N) (r : Fin 1024) (k : Fin 32) :
    (iblk m c 9 t : Vec F S1024x32 .f32) (ix2 r k)
      = (V m c main_v119 : S131072x32.Idx → Elt F .f32) (ix2 ⟨1024 * t.val + r.val, row_lt t r⟩ k) := by
  obtain ⟨h0, h1⟩ := idx0_9 t
  unfold iblk
  rw [View.read_apply]
  show (V m c main_v119 : S131072x32.Idx → Elt F .f32) _ = _
  refine congrArg _ ?_
  funext a
  apply Fin.ext
  match a with
  | ⟨0, _⟩ => show win0_9.index t (0 : Fin 2) * 1024 + 1 * r.val = 1024 * t.val + r.val; rw [h0]; omega
  | ⟨1, _⟩ => show win0_9.index t (1 : Fin 2) * 32 + 1 * k.val = k.val; rw [h1]; omega

/-- Entry (r, k) of window 10's block at point `t` is entry (1024 t + r, k) of its array. -/
theorem iblk_at_10 (c : Dev nD) (t : Fin cfg0.N) (r : Fin 1024) (k : Fin 9) :
    (iblk m c 10 t : Vec F S1024x9 .f32) (ix2 r k)
      = (V m c main_v165 : S131072x9.Idx → Elt F .f32) (ix2 ⟨1024 * t.val + r.val, row_lt t r⟩ k) := by
  obtain ⟨h0, h1⟩ := idx0_10 t
  unfold iblk
  rw [View.read_apply]
  show (V m c main_v165 : S131072x9.Idx → Elt F .f32) _ = _
  refine congrArg _ ?_
  funext a
  apply Fin.ext
  match a with
  | ⟨0, _⟩ => show win0_10.index t (0 : Fin 2) * 1024 + 1 * r.val = 1024 * t.val + r.val; rw [h0]; omega
  | ⟨1, _⟩ => show win0_10.index t (1 : Fin 2) * 9 + 1 * k.val = k.val; rw [h1]; omega

/-! ## The output array after the region -/

variable (G : Dev nD → S131072x1.Idx → Elt F .f32)

/-- A two-axis index is its two coordinates. -/
theorem exists_ix2 {n0 n1 : Nat} (j : (⟨2, ![n0, n1]⟩ : Shape).Idx) : ∃ (a : Fin n0) (b : Fin n1), j = ix2 a b :=
  ⟨j 0, j 1, eq_ix2 j⟩

/-- What point `t` writes back is block `t` of `G`: the body leaves `out0_11` of the input blocks, which agrees with `G`
    on the block's rows (`hG`), and entry (r, u) of block `t` sits at (1024 t + r, u). -/
theorem flushed_eq (hG : ∀ (c : Dev nD) (t : Fin cfg0.N) (r : Fin 1024) (u : Fin 1),
      out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r u)
        = G c (ix2 ⟨1024 * t.val + r.val, row_lt t r⟩ u))
    (c : Dev nD) (t : Fin cfg0.N) :
    (dats m 0 c).flushed 11 t = ((cfg0.win 11).blk t).view.read (Elt F) (G c) := by
  obtain ⟨h0, h1⟩ := idx0_11 t
  show (cfg0.win 11).cut (grid0.coords t) ((dats m 0 c).after 11 t) = _
  rw [after0_11]
  funext j
  obtain ⟨r, u, rfl⟩ := exists_ix2 (n0 := 1024) (n1 := 1) j
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r u)
    = G c (((cfg0.win 11).blk t).view.emb (ix2 r u))
  rw [hG c t r u]
  refine congrArg (G c) ?_
  funext a
  apply Fin.ext
  match a with
  | ⟨0, _⟩ => show 1024 * t.val + r.val = win0_11.index t (0 : Fin 2) * 1024 + 1 * r.val; rw [h0]; omega
  | ⟨1, _⟩ => show u.val = win0_11.index t (1 : Fin 2) * 1 + 1 * u.val; rw [h1]; omega

/-- An index of the output array is in point `t`'s block iff each coordinate is in the block's range on its axis. -/
theorem mem_blk (t : Fin cfg0.N) (i : S131072x1.Idx) :
    i ∈ ((cfg0.win 11).blk t).view.set ↔ ∀ a : Fin 2, win0_11.index t a * S1024x1.size a ≤ (i a).val ∧ (i a).val < win0_11.index t a * S1024x1.size a + S1024x1.size a := by
  show i ∈ ((View.whole main_v166).slice (win0_11.rect t)).set ↔ _
  rw [View.set_slice_whole, Rect.mem_set_unit]
  exact Iff.rfl

/-- The 128 blocks cover the array: row `n` lies in the block of point `n / 1024`, and every point writes back. -/
theorem cover (i : S131072x1.Idx) : ∃ t : Fin cfg0.N, (cfg0.win 11).flush t = true ∧ i ∈ ((cfg0.win 11).blk t).view.set := by
  have hi0 : (i 0).val < 131072 := idx2_lt0 i
  have hi1 : (i 1).val < 1 := idx2_lt1 i
  have hN : cfg0.N = 128 := N_0
  obtain ⟨t, ht⟩ : ∃ t : Fin cfg0.N, t.val = (i 0).val / 1024 := ⟨⟨(i 0).val / 1024, by rw [hN]; omega⟩, rfl⟩
  obtain ⟨h0, h1⟩ := idx0_11 t
  refine ⟨t, flush0_11 t, ?_⟩
  rw [mem_blk]
  intro a
  match a with
  | ⟨0, _⟩ => show win0_11.index t (0 : Fin 2) * 1024 ≤ (i 0).val ∧ (i 0).val < win0_11.index t (0 : Fin 2) * 1024 + 1024; rw [h0, ht]; omega
  | ⟨1, _⟩ => show win0_11.index t (1 : Fin 2) * 1 ≤ (i 1).val ∧ (i 1).val < win0_11.index t (1 : Fin 2) * 1 + 1; rw [h1]; omega

/-- So the output array ends holding `G`. -/
theorem final_out (hG : ∀ (c : Dev nD) (t : Fin cfg0.N) (r : Fin 1024) (u : Fin 1),
      out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r u)
        = G c (ix2 ⟨1024 * t.val + r.val, row_lt t r⟩ u))
    (c : Dev nD) : (dats m 0 c).arrAt 11 cfg0.N = G c :=
  (dats m 0 c).arrAt_eq_of_cover 11 (G c) (fun t _ => flushed_eq m G hG c t) cover

/-! ## Through the reshape after the region -/

/-- The reshape reads the one-column array row by row: entry `i` of the result vector is `G` at (i, 0). -/
theorem tail_v167 (hG : ∀ (c : Dev nD) (t : Fin cfg0.N) (r : Fin 1024) (u : Fin 1),
      out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r u)
        = G c (ix2 ⟨1024 * t.val + r.val, row_lt t r⟩ u))
    (c : Dev nD) :
    Pipeline.afterTail₀ cfgs (dats m) 0 (V0 m) [hostOps1] c main_v167 = (fun i : S131072.Idx => G c (ix2 (i 0) (0 : Fin 1))) := by
  have e : Pipeline.withArrays spec0 c (V0 m c) (fun w => (dats m 0 c).arrAt w cfg0.N) (Proc.devRef .tc main_v166) = G c :=
    (Pipeline.withArrays_arr spec0 launch0.win.arr_inj c _ _ 11).trans (final_out m G hG c)
  unfold Pipeline.afterTail₀
  show StableHlo.after hostOps1 _ (Proc.devRef .tc main_v167) = _
  after_results
  rw [e]
  refine funext fun (i : S131072.Idx) => ?_
  show shapeCast S131072 (G c) shapeCasts_S131072x1_S131072 i = _
  refine shapeCast_apply (G c) shapeCasts_S131072x1_S131072 i (ix2 (i 0) (0 : Fin 1)) ?_
  rw [Shape.rowMajor_val_two, Shape.rowMajor_val_one]
  show (i 0).val * 1 + 0 = (i 0).val
  omega

/-! ## The run, read -/

/-- Given one function `G` of an output-array index that the body's output block at every point agrees with on the
    block's rows, the program runs to its end, the result vector ends at `G` read down its one column, and the seven
    argument arrays end as launched. -/
theorem run_value (hG : ∀ (c : Dev nD) (t : Fin cfg0.N) (r : Fin 1024) (u : Fin 1),
      out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r u)
        = G c (ix2 ⟨1024 * t.val + r.val, row_lt t r⟩ u)) :
    θ_run defs (onTc (τ := τ) (main (F := F))) ⟨m, fun _ => 0, ρ⟩ (fun r => ∀ c : Dev nD,
      r.2.mem ((c.tc : Thread nD τ).loc main_v167) = (fun i : S131072.Idx => G c (ix2 (i 0) (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v167 (Pipeline.mem_restRefs_of main_v167 (by decide) (by decide))).trans (tail_v167 m G hG c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Hand

end
-- ==== Proof.KFrameOut.lean ====
/-
  The output block after the body, read without the loads' rectangles.

  Every load of the body goes through the rectangle that is the whole block, so it reads the block itself; and the one
  store goes through the whole output block, so the block ends as the stored value. Hence the output block is the
  payload chain applied to the input blocks directly.
-/
import proofs.«142190_j3564822856016_2_alg».proof.Proof.KFrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole-block rectangle starts at the origin. -/
theorem off00 : (![0, 0] : Fin 2 → Nat) = fun _ => 0 := funext fun a => by fin_cases a <;> rfl

/-- The value the body stores, over the input blocks themselves (`x10` the 1024×9 parameter block): the parameter
    columns broadcast along the lanes, the differences `v31, v34, v37` and sums `v40, v43` with blocks `x0 … x4`, the
    cofactor terms and reciprocal determinant from blocks `x5 … x8`, and the final payload with block `x9`. -/
def val0_11 (x0 x1 x2 x3 x4 x5 x6 x7 x8 x9 : Vec F S1024x32 .f32) (x10 : Vec F S1024x9 .f32) : FVec F S1024x1 .f32 :=
  let v19 := k0_pay3 x10
  let v22 := k0_pay4 x10
  let v25 := k0_pay5 x10
  let v28 := k0_pay6 x10
  let v31 := k0_pay7 x10 x0
  let v34 := k0_pay8 x10 x1
  let v37 := k0_pay9 x10 x2
  let v40 := k0_pay10 x10 x3
  let v43 := k0_pay11 x10 x4
  let v73 := k0_pay16 v19 v22 v25 v28 v40 v43 x5 x6 x7 x8
  let v77 := k0_pay17 v19 v22 v25 v28 v40 v43 x5 x6 x7 x8
  let v81 := k0_pay18 v19 v22 v25 v28 v40 v43 x5 x6 x7 x8
  let v85 := k0_pay19 v19 v22 v25 v28 v40 v43 x5 x6 x7 x8
  let v89 := k0_pay20 v19 v22 v25 v28 v40 v43 x5 x6 x7 x8
  let v93 := k0_pay21 v19 v22 v25 v28 v40 v43 x5 x6 x7 x8
  let v96 := k0_pay22 v22 v40 v43 x6
  k0_pay1 v31 v34 v37 v73 v77 v81 v85 v89 v93 v96 x9

/-- A load through a whole-block rectangle reads the block, so the stored value is `val0_11` of the blocks. -/
theorem pay0_11_eq (x0 x1 x2 x3 x4 x5 x6 x7 x8 x9 : Vec F S1024x32 .f32) (x10 : Vec F S1024x9 .f32) : pay0_11 x0 x1 x2 x3 x4 x5 x6 x7 x8 x9 x10 = val0_11 x0 x1 x2 x3 x4 x5 x6 x7 x8 x9 x10 := by
  unfold pay0_11 val0_11
  simp only [View.ld_unit_zero (S := S1024x32) off00, View.ld_unit_zero (S := S1024x9) off00]

/-- The one store covers the output block, so the block ends as the stored value. -/
theorem out0_11_eq (x0 x1 x2 x3 x4 x5 x6 x7 x8 x9 : Vec F S1024x32 .f32) (x10 : Vec F S1024x9 .f32) : out0_11 x0 x1 x2 x3 x4 x5 x6 x7 x8 x9 x10 = val0_11 x0 x1 x2 x3 x4 x5 x6 x7 x8 x9 x10 := by
  unfold out0_11
  rw [View.canon_unit_zero off00]
  exact pay0_11_eq x0 x1 x2 x3 x4 x5 x6 x7 x8 x9 x10

end Cert.KernelIdeal.Hand

end
-- ==== Proof.Spec.lean ====
/-
  What both programs compute, as one function of the argument arrays, entry by entry, on the extended reals.

  For a query point n and its k-th neighbour, g = row n k is the neighbour's number (the index word read signed and
  clamped into the table). The matrix S = Σ_g + Σ_psf[n] has entries a b c / · e f / · h i (only these seven are read);
  v = coords[n] − μ_g. The weight is exp(−½ · vᵀ S⁻¹ v), with S⁻¹ written out by cofactors over det S + ε, and the
  result at n is Σ_k (w_k / (Σ_k' w_k' + δ)) · color_g.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- ε, the guard added to the determinant (the f32 nearest 1e-8, as both programs carry it). -/
abbrev eps : EReal := Ideal.ofBits .f32 0x322BCC77#32
/-- 1. -/
abbrev one : EReal := Ideal.ofBits .f32 0x3F800000#32
/-- −½. -/
abbrev mhalf : EReal := Ideal.ofBits .f32 0xBF000000#32
/-- δ, the guard added to the sum of the weights (the f32 nearest 0.05). -/
abbrev delta : EReal := Ideal.ofBits .f32 0x3D4CCCCD#32

/-- The unnormalised weight of one neighbour: exp(−½ vᵀ S⁻¹ v) for S = (a b c / b e f / c h i) by cofactors,
    the determinant guarded by ε. The entry below the diagonal in the last row, h, is kept apart from f. -/
def wgt (a b c e f h i vx vy vz : EReal) : EReal :=
  let det := (a * (e * i - f * h) - b * (b * i - f * c)) + c * (b * h - e * c)
  let d := Ideal.div one (det + eps)
  let i00 := (e * i - f * h) * d
  let i01 := (c * h - b * i) * d
  let i02 := (b * f - c * e) * d
  let i11 := (a * i - c * c) * d
  let i12 := (c * b - a * f) * d
  let i22 := (a * e - b * b) * d
  let t0 := (i00 * vx + i01 * vy) + i02 * vz
  let t1 := (i01 * vx + i11 * vy) + i12 * vz
  let t2 := (i02 * vx + i12 * vy) + i22 * vz
  Ideal.exp (mhalf * ((vx * t0 + vy * t1) + vz * t2))

/-- The normalised, colour-weighted sum over a point's 32 neighbours. -/
def mix (W C : Fin 32 → EReal) : EReal := ∑ k : Fin 32, Ideal.div (W k) ((∑ k' : Fin 32, W k') + delta) * C k

/-- The neighbour's number: the index word at (n, k) read signed and clamped into [0, 99999]. -/
def row (tbl : (⟨3, ![131072, 32, 1]⟩ : Shape).Idx → BitVec 32) (n : Fin 131072) (k : Fin 32) : Fin 100000 :=
  ⟨min (tbl (ix3 n k (0 : Fin 1))).toInt.toNat (100000 - 1), by omega⟩

variable (coords : (⟨2, ![131072, 3]⟩ : Shape).Idx → EReal) (psf : (⟨3, ![131072, 3, 3]⟩ : Shape).Idx → EReal)
  (mu : (⟨2, ![100000, 3]⟩ : Shape).Idx → EReal) (sg : (⟨3, ![100000, 3, 3]⟩ : Shape).Idx → EReal)
  (color : (⟨1, ![100000]⟩ : Shape).Idx → EReal) (tbl : (⟨3, ![131072, 32, 1]⟩ : Shape).Idx → BitVec 32)

/-- Entry (p, q) of the summed covariance of point n and its k-th neighbour. -/
def cov (n : Fin 131072) (k : Fin 32) (p q : Fin 3) : EReal := sg (ix3 (row tbl n k) p q) + psf (ix3 n p q)

/-- Coordinate p of the offset of point n from its k-th neighbour's centre. -/
def off (n : Fin 131072) (k : Fin 32) (p : Fin 3) : EReal := coords (ix2 n p) - mu (ix2 (row tbl n k) p)

/-- The weight of the k-th neighbour of point n. -/
def weight (n : Fin 131072) (k : Fin 32) : EReal :=
  wgt (cov psf sg tbl n k 0 0) (cov psf sg tbl n k 0 1) (cov psf sg tbl n k 0 2) (cov psf sg tbl n k 1 1)
    (cov psf sg tbl n k 1 2) (cov psf sg tbl n k 2 1) (cov psf sg tbl n k 2 2)
    (off coords mu tbl n k 0) (off coords mu tbl n k 1) (off coords mu tbl n k 2)

/-- The rendered intensity at point n. -/
def result (n : Fin 131072) : EReal :=
  mix (fun k => weight coords psf mu sg tbl n k) (fun k => color (ix1 (row tbl n k)))

end Cert.Spec

end
-- ==== Proof.LibColumnsAt.lean ====
/-
  Columns cut out of, and put side by side into, small-trailing-axis arrays, each read at an index.

  * a column of a three-axis array `[A, B, D]` (slice `[:, :, p:p+1]`, reshaped to `[A, B]`) at (a, b) is the array at (a, b, p);
  * an entry plane of a stack of matrices `[A, P, Q]` (slice `[:, p:p+1, q:q+1]`, reshaped to `[A]`, made a column `[A, 1]`)
    at (a, 0) is the array at (a, p, q); likewise a column of `[A, D]` made a column `[A, 1]`;
  * inside a block: a column of `[A, D]` spread over the lanes (`[A, 1] → [A, B]`) at (a, b) is the block at (a, p).
-/
import Idealize.ShloMosaic.Lib.ValueIdx
import Idealize.ShloMosaic.Lib.Pipeline.Value

noncomputable section

namespace Cert.LibColumnsAt

open Idealize.ShloMosaic Idealize.ShloMosaic.ValueIdx

variable {α : Type}

/-- A column of `[A, B, D]` as an `[A, B]` array. -/
theorem slice3_cast_apply {A B D : Nat} (x : (⟨3, ![A, B, D]⟩ : Shape).Idx → α) (p : Nat)
    (hs : (⟨3, ![A, B, D]⟩ : Shape).Slices ![0, 0, p] ⟨3, ![A, B, 1]⟩)
    (hc : (⟨3, ![A, B, 1]⟩ : Shape).ShapeCasts ⟨2, ![A, B]⟩) (a : Fin A) (b : Fin B) (hp : p < D) :
    shapeCast ⟨2, ![A, B]⟩ (extractStridedSlice ⟨3, ![A, B, 1]⟩ ![0, 0, p] x hs) hc (ix2 a b) = x (ix3 a b ⟨p, hp⟩) := by
  rw [shapeCast_apply _ hc (ix2 a b) (ix3 a b (0 : Fin 1)) (by
    rw [Shape.rowMajor_val_three, Shape.rowMajor_val_two]
    show (a.val * B + b.val) * 1 + 0 = a.val * B + b.val
    omega)]
  exact extractStridedSlice_apply _ _ hs _ _ (fun c => by
    match c with
    | ⟨0, _⟩ => show a.val = 0 + a.val; omega
    | ⟨1, _⟩ => show b.val = 0 + b.val; omega
    | ⟨2, _⟩ => show p = p + 0; omega)

/-- An entry plane of a stack of matrices `[A, P, Q]` as a column `[A, 1]`. -/
theorem plane_col_apply {A P Q : Nat} (x : (⟨3, ![A, P, Q]⟩ : Shape).Idx → α) (p q : Nat)
    (hs : (⟨3, ![A, P, Q]⟩ : Shape).Slices ![0, p, q] ⟨3, ![A, 1, 1]⟩)
    (hc : (⟨3, ![A, 1, 1]⟩ : Shape).ShapeCasts ⟨1, ![A]⟩)
    (hb : (⟨1, ![A]⟩ : Shape).BroadcastsInDim ⟨2, ![A, 1]⟩ ![0]) (a : Fin A) (u : Fin 1) (hp : p < P) (hq : q < Q) :
    broadcastInDim ⟨2, ![A, 1]⟩ ![0] hb (shapeCast ⟨1, ![A]⟩ (extractStridedSlice ⟨3, ![A, 1, 1]⟩ ![0, p, q] x hs) hc) (ix2 a u)
      = x (ix3 a ⟨p, hp⟩ ⟨q, hq⟩) := by
  rw [broadcastInDim_apply _ hb _ (ix2 a u) (ix1 a) (fun c => by
    match c with
    | ⟨0, _⟩ =>
      show a.val = if A = 1 then 0 else a.val
      split
      · have := a.isLt; omega
      · rfl)]
  rw [shapeCast_apply _ hc (ix1 a) (ix3 a (0 : Fin 1) (0 : Fin 1)) (by
    rw [Shape.rowMajor_val_three, Shape.rowMajor_val_one]
    show (a.val * 1 + 0) * 1 + 0 = a.val
    omega)]
  exact extractStridedSlice_apply _ _ hs _ _ (fun c => by
    match c with
    | ⟨0, _⟩ => show a.val = 0 + a.val; omega
    | ⟨1, _⟩ => show p = p + 0; omega
    | ⟨2, _⟩ => show q = q + 0; omega)

/-- A column of `[A, D]` as a column `[A, 1]`. -/
theorem col_col_apply {A D : Nat} (x : (⟨2, ![A, D]⟩ : Shape).Idx → α) (p : Nat)
    (hs : (⟨2, ![A, D]⟩ : Shape).Slices ![0, p] ⟨2, ![A, 1]⟩)
    (hc : (⟨2, ![A, 1]⟩ : Shape).ShapeCasts ⟨1, ![A]⟩)
    (hb : (⟨1, ![A]⟩ : Shape).BroadcastsInDim ⟨2, ![A, 1]⟩ ![0]) (a : Fin A) (u : Fin 1) (hp : p < D) :
    broadcastInDim ⟨2, ![A, 1]⟩ ![0] hb (shapeCast ⟨1, ![A]⟩ (extractStridedSlice ⟨2, ![A, 1]⟩ ![0, p] x hs) hc) (ix2 a u)
      = x (ix2 a ⟨p, hp⟩) := by
  rw [broadcastInDim_apply _ hb _ (ix2 a u) (ix1 a) (fun c => by
    match c with
    | ⟨0, _⟩ =>
      show a.val = if A = 1 then 0 else a.val
      split
      · have := a.isLt; omega
      · rfl)]
  rw [shapeCast_apply _ hc (ix1 a) (ix2 a (0 : Fin 1)) (by
    rw [Shape.rowMajor_val_two, Shape.rowMajor_val_one]
    show a.val * 1 + 0 = a.val
    omega)]
  exact extractStridedSlice_apply _ _ hs _ _ (fun c => by
    match c with
    | ⟨0, _⟩ => show a.val = 0 + a.val; omega
    | ⟨1, _⟩ => show p = p + 0; omega)

/-- Inside a block: a column of `[A, D]`, kept as `[A, 1]`, spread over `B` lanes. -/
theorem col_spread_apply {A D B : Nat} (hB : B ≠ 1) (x : (⟨2, ![A, D]⟩ : Shape).Idx → α) (p : Nat)
    (hs : (⟨2, ![A, D]⟩ : Shape).Slices ![0, p] ⟨2, ![A, 1]⟩)
    (hb : (⟨2, ![A, 1]⟩ : Shape).Broadcasts ⟨2, ![A, B]⟩) (a : Fin A) (b : Fin B) (hp : p < D) :
    broadcastTo ⟨2, ![A, B]⟩ (extractStridedSlice ⟨2, ![A, 1]⟩ ![0, p] x hs) hb (ix2 a b) = x (ix2 a ⟨p, hp⟩) := by
  rw [broadcastTo_apply _ hb (ix2 a b) (ix2 a (0 : Fin 1)) (fun c => by
    match c with
    | ⟨0, _⟩ =>
      show a.val = if A = 1 then 0 else a.val
      split
      · have := a.isLt; omega
      · rfl
    | ⟨1, _⟩ =>
      show 0 = if 1 = 1 then 0 else b.val
      rfl)]
  exact extractStridedSlice_apply _ _ hs _ _ (fun c => by
    match c with
    | ⟨0, _⟩ => show a.val = 0 + a.val; omega
    | ⟨1, _⟩ => show p = p + 0; omega)

end Cert.LibColumnsAt

end
-- ==== Proof.KPay.lean ====
/-
  The kernel body's arithmetic, read at an entry of the output block, on the extended reals.

  A block holds 1024 points (rows) and their 32 neighbours (lanes). Row r of the nine-column feature block carries the
  point's coordinates and the six upper-triangle entries of its Σ_psf; each is spread over the lanes and met with the
  neighbour's gathered entry at (r, k): the offsets v = c − μ, the summed covariance entries a b c e f i = psf + Σ_g.
  The body then forms the weight exp(−½ vᵀ S⁻¹ v) by cofactors, with the last row's off-diagonal entry taken to be f,
  and leaves in row r of the output column Σ_k (w_k / (Σ_k' w_k' + δ)) · color_k.
-/
import proofs.«142190_j3564822856016_2_alg».proof.Proof.Gen.KernelIdeal.Skeleton
import proofs.«142190_j3564822856016_2_alg».proof.Proof.Spec
import proofs.«142190_j3564822856016_2_alg».proof.Proof.LibColumnsAt
import Idealize.ShloMosaic.PureOps.Ideal.Laws

set_option maxRecDepth 16384

noncomputable section

open scoped BigOperators

namespace Cert.KernelIdeal.Pay

open Cert.KernelIdeal Cert.KernelIdeal.Gen Idealize.ShloMosaic Idealize.ShloMosaic.ValueIdx Cert.LibColumnsAt

/-- Column j of the feature block, spread over the 32 lanes. -/
def fcol (v0 : Vec Ideal S1024x9 .f32) (j : Fin 9) : FVec Ideal S1024x32 .f32 := fun i => v0 (ix2 (i 0) j)

theorem spread_eq (v0 : Vec Ideal S1024x9 .f32) (j : Nat) (hj : j < 9) (hs : S1024x9.Slices ![0, j] S1024x1)
    (hb : S1024x1.Broadcasts S1024x32) :
    broadcastTo S1024x32 (extractStridedSlice S1024x1 ![0, j] v0 hs) hb = fcol v0 ⟨j, hj⟩ := by
  funext i
  obtain ⟨r, k, rfl⟩ : ∃ (r : Fin 1024) (k : Fin 32), i = ix2 r k := ⟨i 0, i 1, eq_ix2 i⟩
  exact col_spread_apply (by decide) v0 j hs hb r k hj

theorem pay2_eq (v0 : Vec Ideal S1024x9 .f32) : k0_pay2 (F := Ideal) v0 = v0 := by
  unfold k0_pay2; exact shapeCast_self _ _

theorem pay3_eq (v0 : Vec Ideal S1024x9 .f32) : k0_pay3 (F := Ideal) v0 = fcol v0 5 := by
  unfold k0_pay3; dsimp only; rw [pay2_eq, shapeCast_self]; exact spread_eq v0 5 (by omega) _ _
theorem pay4_eq (v0 : Vec Ideal S1024x9 .f32) : k0_pay4 (F := Ideal) v0 = fcol v0 6 := by
  unfold k0_pay4; dsimp only; rw [pay2_eq, shapeCast_self]; exact spread_eq v0 6 (by omega) _ _
theorem pay5_eq (v0 : Vec Ideal S1024x9 .f32) : k0_pay5 (F := Ideal) v0 = fcol v0 7 := by
  unfold k0_pay5; dsimp only; rw [pay2_eq, shapeCast_self]; exact spread_eq v0 7 (by omega) _ _
theorem pay6_eq (v0 : Vec Ideal S1024x9 .f32) : k0_pay6 (F := Ideal) v0 = fcol v0 8 := by
  unfold k0_pay6; dsimp only; rw [pay2_eq, shapeCast_self]; exact spread_eq v0 8 (by omega) _ _

theorem pay7_eq (v0 : Vec Ideal S1024x9 .f32) (x : Vec Ideal S1024x32 .f32) : k0_pay7 (F := Ideal) v0 x = subf (fcol v0 0) x := by
  unfold k0_pay7; dsimp only; rw [pay2_eq, shapeCast_self, shapeCast_self, spread_eq v0 0 (by omega)]; rfl
theorem pay8_eq (v0 : Vec Ideal S1024x9 .f32) (x : Vec Ideal S1024x32 .f32) : k0_pay8 (F := Ideal) v0 x = subf (fcol v0 1) x := by
  unfold k0_pay8; dsimp only; rw [pay2_eq, shapeCast_self, shapeCast_self, spread_eq v0 1 (by omega)]; rfl
theorem pay9_eq (v0 : Vec Ideal S1024x9 .f32) (x : Vec Ideal S1024x32 .f32) : k0_pay9 (F := Ideal) v0 x = subf (fcol v0 2) x := by
  unfold k0_pay9; dsimp only; rw [pay2_eq, shapeCast_self, shapeCast_self, spread_eq v0 2 (by omega)]; rfl
theorem pay10_eq (v0 : Vec Ideal S1024x9 .f32) (x : Vec Ideal S1024x32 .f32) : k0_pay10 (F := Ideal) v0 x = addf (fcol v0 3) x := by
  unfold k0_pay10; dsimp only; rw [pay2_eq, shapeCast_self, shapeCast_self, spread_eq v0 3 (by omega)]; rfl
theorem pay11_eq (v0 : Vec Ideal S1024x9 .f32) (x : Vec Ideal S1024x32 .f32) : k0_pay11 (F := Ideal) v0 x = addf (fcol v0 4) x := by
  unfold k0_pay11; dsimp only; rw [pay2_eq, shapeCast_self, shapeCast_self, spread_eq v0 4 (by omega)]; rfl
theorem pay12_eq (v x : Vec Ideal S1024x32 .f32) : k0_pay12 (F := Ideal) v x = addf v x := by
  unfold k0_pay12; dsimp only; rw [shapeCast_self]
theorem pay13_eq (v x : Vec Ideal S1024x32 .f32) : k0_pay13 (F := Ideal) v x = addf v x := by
  unfold k0_pay13; dsimp only; rw [shapeCast_self]
theorem pay14_eq (v x : Vec Ideal S1024x32 .f32) : k0_pay14 (F := Ideal) v x = addf v x := by
  unfold k0_pay14; dsimp only; rw [shapeCast_self]
theorem pay15_eq (v x : Vec Ideal S1024x32 .f32) : k0_pay15 (F := Ideal) v x = addf v x := by
  unfold k0_pay15; dsimp only; rw [shapeCast_self]

/-- A lane sum kept as a column, `[1024] → [1024, 1]`, at (r, ·). -/
theorem keep_col_apply (v : FVec Ideal S1024 .f32) (h : S1024.ShapeCasts S1024x1) (r : Fin 1024) (u : Fin 1) :
    shapeCast S1024x1 v h (ix2 r u) = v (ix1 r) :=
  shapeCast_apply v h (ix2 r u) (ix1 r) (by
    rw [Shape.rowMajor_val_one, Shape.rowMajor_val_two]
    show r.val = r.val * 1 + u.val
    omega)

/-- A column spread over the lanes, `[1024, 1] → [1024, 32]`, at (r, k). -/
theorem spread_col_apply (v : FVec Ideal S1024x1 .f32) (h : S1024x1.Broadcasts S1024x32) (r : Fin 1024) (k : Fin 32) :
    broadcastTo S1024x32 v h (ix2 r k) = v (ix2 r (0 : Fin 1)) :=
  broadcastTo_apply v h (ix2 r k) (ix2 r (0 : Fin 1)) (fun c => by
    match c with
    | ⟨0, _⟩ => rfl
    | ⟨1, _⟩ => rfl)

/-- The sum over the lanes of row r. -/
theorem lane_sum_apply (v : FVec Ideal S1024x32 .f32) (h : S1024x32.Reduces [1] S1024) (hφ) (hacc) (r : Fin 1024) :
    multiReduction .add [1] S1024 v 0x00000000#32 h hφ hacc (ix1 r) = ∑ k : Fin 32, v (ix2 r k) := by
  rw [Ideal.multiReduction_add_single]
  refine Finset.sum_congr rfl fun k _ => congrArg v (funext fun c => Fin.ext ?_)
  match c with
  | ⟨0, _⟩ => rfl
  | ⟨1, _⟩ => rfl

/-- The last stage: from the lane-wise weights w (as the body computes them) and the colours, the output column. -/
theorem out_of_weights (w col : FVec Ideal S1024x32 .f32) (r : Fin 1024) (u : Fin 1) (hr hφ hacc hc hb hs) :
    shapeCast S1024x1 (multiReduction .add [1] S1024 (mulf (divf w (broadcastTo S1024x32 (addf (shapeCast S1024x1
        (multiReduction .add [1] S1024 w 0x00000000#32 hr hφ hacc) hc) (broadcast S1024x1 (Scalar.ofBits .f32 0x3D4CCCCD#32))) hb))
        (shapeCast S1024x32 col hs)) 0x00000000#32 hr hφ hacc) hc (ix2 r u)
      = Cert.Spec.mix (fun k => w (ix2 r k)) (fun k => col (ix2 r k)) := by
  rw [keep_col_apply, lane_sum_apply, shapeCast_self]
  unfold Cert.Spec.mix
  refine Finset.sum_congr rfl fun k _ => ?_
  show Ideal.div (w (ix2 r k)) (broadcastTo S1024x32 _ hb (ix2 r k)) * col (ix2 r k) = _
  rw [spread_col_apply]
  show Ideal.div (w (ix2 r k)) (shapeCast S1024x1 _ hc (ix2 r 0) + _) * col (ix2 r k) = _
  rw [keep_col_apply, lane_sum_apply]
  rfl

/-- The value the body stores, from the parameter block p and the ten neighbour blocks: the payloads composed as the
    body composes them. -/
def payCore (p : Vec Ideal S1024x9 .f32) (y0 y1 y2 y3 y4 y5 y6 y7 y8 y9 : Vec Ideal S1024x32 .f32) : FVec Ideal S1024x1 .f32 :=
  k0_pay1 (k0_pay7 p y0) (k0_pay8 p y1) (k0_pay9 p y2)
    (k0_pay16 (k0_pay3 p) (k0_pay4 p) (k0_pay5 p) (k0_pay6 p) (k0_pay10 p y3) (k0_pay11 p y4) y5 y6 y7 y8)
    (k0_pay17 (k0_pay3 p) (k0_pay4 p) (k0_pay5 p) (k0_pay6 p) (k0_pay10 p y3) (k0_pay11 p y4) y5 y6 y7 y8)
    (k0_pay18 (k0_pay3 p) (k0_pay4 p) (k0_pay5 p) (k0_pay6 p) (k0_pay10 p y3) (k0_pay11 p y4) y5 y6 y7 y8)
    (k0_pay19 (k0_pay3 p) (k0_pay4 p) (k0_pay5 p) (k0_pay6 p) (k0_pay10 p y3) (k0_pay11 p y4) y5 y6 y7 y8)
    (k0_pay20 (k0_pay3 p) (k0_pay4 p) (k0_pay5 p) (k0_pay6 p) (k0_pay10 p y3) (k0_pay11 p y4) y5 y6 y7 y8)
    (k0_pay21 (k0_pay3 p) (k0_pay4 p) (k0_pay5 p) (k0_pay6 p) (k0_pay10 p y3) (k0_pay11 p y4) y5 y6 y7 y8)
    (k0_pay22 (k0_pay4 p) (k0_pay10 p y3) (k0_pay11 p y4) y6) y9

set_option maxHeartbeats 4000000 in
/-- Row r of the output block: the normalised colour mix of the row's 32 weights, each the specification's weight of
    the summed covariance entries (the last row's off-diagonal entry being f again) and the offsets at (r, k). -/
theorem payCore_at' (p : Vec Ideal S1024x9 .f32) (y0 y1 y2 y3 y4 y5 y6 y7 y8 y9 : Vec Ideal S1024x32 .f32) (r : Fin 1024) (u : Fin 1) :
    payCore p y0 y1 y2 y3 y4 y5 y6 y7 y8 y9 (ix2 r u)
      = Cert.Spec.mix (fun k => Cert.Spec.wgt (p (ix2 r 3) + y3 (ix2 r k)) (p (ix2 r 4) + y4 (ix2 r k)) (p (ix2 r 5) + y5 (ix2 r k))
          (p (ix2 r 6) + y6 (ix2 r k)) (p (ix2 r 7) + y7 (ix2 r k)) (p (ix2 r 7) + y7 (ix2 r k)) (p (ix2 r 8) + y8 (ix2 r k))
          (p (ix2 r 0) - y0 (ix2 r k)) (p (ix2 r 1) - y1 (ix2 r k)) (p (ix2 r 2) - y2 (ix2 r k)))
        (fun k => y9 (ix2 r k)) := by
  unfold payCore k0_pay1
  dsimp only
  refine (out_of_weights _ y9 r u _ _ _ _ _ _).trans ?_
  congr 1
  funext k
  simp only [pay3_eq, pay4_eq, pay5_eq, pay6_eq, pay7_eq, pay8_eq, pay9_eq, pay10_eq, pay11_eq]
  unfold k0_pay16 k0_pay17 k0_pay18 k0_pay19 k0_pay20 k0_pay21 k0_pay22
  dsimp only
  simp only [pay12_eq, pay13_eq, pay14_eq, pay15_eq]
  unfold k0_pay16
  dsimp only
  simp only [pay12_eq, pay13_eq, pay14_eq, pay15_eq]
  simp only [Cert.Spec.wgt, exp, mulf, addf, subf, divf, broadcast, fcol, Ideal.exp_def, Ideal.mulf_def, Ideal.addf_def,
    Ideal.subf_def, Ideal.divf_def, Ideal.ofBits_def, Scalar.ofBits]

/-- The same with each covariance entry written Σ_g's part first. -/
theorem payCore_at (p : Vec Ideal S1024x9 .f32) (y0 y1 y2 y3 y4 y5 y6 y7 y8 y9 : Vec Ideal S1024x32 .f32) (r : Fin 1024) (u : Fin 1) :
    payCore p y0 y1 y2 y3 y4 y5 y6 y7 y8 y9 (ix2 r u)
      = Cert.Spec.mix (fun k => Cert.Spec.wgt (y3 (ix2 r k) + p (ix2 r 3)) (y4 (ix2 r k) + p (ix2 r 4)) (y5 (ix2 r k) + p (ix2 r 5))
          (y6 (ix2 r k) + p (ix2 r 6)) (y7 (ix2 r k) + p (ix2 r 7)) (y7 (ix2 r k) + p (ix2 r 7)) (y8 (ix2 r k) + p (ix2 r 8))
          (p (ix2 r 0) - y0 (ix2 r k)) (p (ix2 r 1) - y1 (ix2 r k)) (p (ix2 r 2) - y2 (ix2 r k)))
        (fun k => y9 (ix2 r k)) := by
  rw [payCore_at']
  congr 1
  funext k
  rw [add_comm (p (ix2 r 3)), add_comm (p (ix2 r 4)), add_comm (p (ix2 r 5)), add_comm (p (ix2 r 6)), add_comm (p (ix2 r 7)),
    add_comm (p (ix2 r 8))]

end Cert.KernelIdeal.Pay

end
-- ==== Proof.KHost.lean ====
/-
  The host side of the kernel program, read structurally: what each array the pallas_call stages holds, as a term of
  the argument arrays and of the covariance table Σ_g (the [G,3,3] batch product M·Mᵀ, kept whole here).
  The neighbour words are normalised three times over in the program, by one and the same expression.
-/
import proofs.«142190_j3564822856016_2_alg».proof.Proof.Gen.KernelIdeal.Launch
import proofs.«142190_j3564822856016_2_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-- The index table every gather reads: the neighbour words, a negative one moved up by the table's length,
    as a [N, K, 1] array. -/
def tbl (a6 : IVec S131072x32 32) : IVec S131072x32x1 32 :=
  broadcastInDim S131072x32x1 ![0, 1] bcast_S131072x32_S131072x32x1_0_1 (select (cmpi .slt a6 (broadcastInDim S131072x32 ![] bcast_S_S131072x32 (constantI S_ 32 0#32))) (addi a6 (broadcastInDim S131072x32 ![] bcast_S_S131072x32 (constantI S_ 32 100000#32))) a6)

/-- The six upper-triangle entries of each Gaussian's covariance, side by side: columns (0,0) (0,1) (0,2) (1,1) (1,2) (2,2). -/
def tab6 (sg : FVec F S100000x3x3 .f32) : FVec F S100000x6 .f32 :=
  concatenate S100000x6 1 [⟨S100000x1, (broadcastInDim S100000x1 ![0] bcast_S100000_S100000x1_0 (shapeCast _ (extractStridedSlice S100000x1x1 ![0, 0, 0] sg slices_S100000x3x3_S100000x1x1_0_0_0) shapeCasts_S100000x1x1_S100000))⟩, ⟨S100000x1, (broadcastInDim S100000x1 ![0] bcast_S100000_S100000x1_0 (shapeCast _ (extractStridedSlice S100000x1x1 ![0, 0, 1] sg slices_S100000x3x3_S100000x1x1_0_0_1) shapeCasts_S100000x1x1_S100000))⟩, ⟨S100000x1, (broadcastInDim S100000x1 ![0] bcast_S100000_S100000x1_0 (shapeCast _ (extractStridedSlice S100000x1x1 ![0, 0, 2] sg slices_S100000x3x3_S100000x1x1_0_0_2) shapeCasts_S100000x1x1_S100000))⟩, ⟨S100000x1, (broadcastInDim S100000x1 ![0] bcast_S100000_S100000x1_0 (shapeCast _ (extractStridedSlice S100000x1x1 ![0, 1, 1] sg slices_S100000x3x3_S100000x1x1_0_1_1) shapeCasts_S100000x1x1_S100000))⟩, ⟨S100000x1, (broadcastInDim S100000x1 ![0] bcast_S100000_S100000x1_0 (shapeCast _ (extractStridedSlice S100000x1x1 ![0, 1, 2] sg slices_S100000x3x3_S100000x1x1_0_1_2) shapeCasts_S100000x1x1_S100000))⟩, ⟨S100000x1, (broadcastInDim S100000x1 ![0] bcast_S100000_S100000x1_0 (shapeCast _ (extractStridedSlice S100000x1x1 ![0, 2, 2] sg slices_S100000x3x3_S100000x1x1_0_2_2) shapeCasts_S100000x1x1_S100000))⟩] concatenates_S100000x1_S100000x1_S100000x1_S100000x1_S100000x1_S100000x1_S100000x6_d1

/-- The nine per-point features side by side: the three coordinates, then the six upper-triangle entries of Σ_psf. -/
def feats (a0 : FVec F S131072x3 .f32) (a1 : FVec F S131072x3x3 .f32) : FVec F S131072x9 .f32 :=
  concatenate S131072x9 1 [⟨S131072x1, (broadcastInDim S131072x1 ![0] bcast_S131072_S131072x1_0 (shapeCast _ (extractStridedSlice S131072x1 ![0, 0] a0 slices_S131072x3_S131072x1_0_0) shapeCasts_S131072x1_S131072))⟩, ⟨S131072x1, (broadcastInDim S131072x1 ![0] bcast_S131072_S131072x1_0 (shapeCast _ (extractStridedSlice S131072x1 ![0, 1] a0 slices_S131072x3_S131072x1_0_1) shapeCasts_S131072x1_S131072))⟩, ⟨S131072x1, (broadcastInDim S131072x1 ![0] bcast_S131072_S131072x1_0 (shapeCast _ (extractStridedSlice S131072x1 ![0, 2] a0 slices_S131072x3_S131072x1_0_2) shapeCasts_S131072x1_S131072))⟩, ⟨S131072x1, (broadcastInDim S131072x1 ![0] bcast_S131072_S131072x1_0 (shapeCast _ (extractStridedSlice S131072x1x1 ![0, 0, 0] a1 slices_S131072x3x3_S131072x1x1_0_0_0) shapeCasts_S131072x1x1_S131072))⟩, ⟨S131072x1, (broadcastInDim S131072x1 ![0] bcast_S131072_S131072x1_0 (shapeCast _ (extractStridedSlice S131072x1x1 ![0, 0, 1] a1 slices_S131072x3x3_S131072x1x1_0_0_1) shapeCasts_S131072x1x1_S131072))⟩, ⟨S131072x1, (broadcastInDim S131072x1 ![0] bcast_S131072_S131072x1_0 (shapeCast _ (extractStridedSlice S131072x1x1 ![0, 0, 2] a1 slices_S131072x3x3_S131072x1x1_0_0_2) shapeCasts_S131072x1x1_S131072))⟩, ⟨S131072x1, (broadcastInDim S131072x1 ![0] bcast_S131072_S131072x1_0 (shapeCast _ (extractStridedSlice S131072x1x1 ![0, 1, 1] a1 slices_S131072x3x3_S131072x1x1_0_1_1) shapeCasts_S131072x1x1_S131072))⟩, ⟨S131072x1, (broadcastInDim S131072x1 ![0] bcast_S131072_S131072x1_0 (shapeCast _ (extractStridedSlice S131072x1x1 ![0, 1, 2] a1 slices_S131072x3x3_S131072x1x1_0_1_2) shapeCasts_S131072x1x1_S131072))⟩, ⟨S131072x1, (broadcastInDim S131072x1 ![0] bcast_S131072_S131072x1_0 (shapeCast _ (extractStridedSlice S131072x1x1 ![0, 2, 2] a1 slices_S131072x3x3_S131072x1x1_0_2_2) shapeCasts_S131072x1x1_S131072))⟩] concatenates_S131072x1_S131072x1_S131072x1_S131072x1_S131072x1_S131072x1_S131072x1_S131072x1_S131072x1_S131072x9_d1

/-- The host operations up to the covariance table's matrix product, and those after it. -/
abbrev pre : List (HloOp τ sig (Elt F)) := (hostOps0 (F := F)).take 95
abbrev post : List (HloOp τ sig (Elt F)) := (hostOps0 (F := F)).drop 95

theorem after_split (W : Valuation τ sig (Elt F)) : after (hostOps0 (F := F)) W = after post (after pre W) := by
  rw [← after_append]; unfold pre post; rw [List.take_append_drop]

set_option maxHeartbeats 4000000 in
/-- Coordinate 0 of the gathered centres. -/
theorem v121_eq (W : Valuation τ sig (Elt F)) :
    after (post (F := F)) W (Proc.devRef .tc main_v121)
      = shapeCast _ (extractStridedSlice S131072x32x1 ![0, 0, 0] (Host.gather gather_S100000x3_S131072x32x1_S131072x32x3_2_0_n_n_0_2_13 (W (Proc.devRef .tc main_arg2)) (tbl (W (Proc.devRef .tc main_arg6)))) slices_S131072x32x3_S131072x32x1_0_0_0) shapeCasts_S131072x32x1_S131072x32 := by
  simp only [post, hostOps0, List.drop_succ_cons, List.drop_zero]
  after_results_simp
  try dsimp only [Matrix.cons_val]
  try after_results_simp
  all_goals rfl

set_option maxHeartbeats 4000000 in
/-- Coordinate 1 of the gathered centres. -/
theorem v123_eq (W : Valuation τ sig (Elt F)) :
    after (post (F := F)) W (Proc.devRef .tc main_v123)
      = shapeCast _ (extractStridedSlice S131072x32x1 ![0, 0, 1] (Host.gather gather_S100000x3_S131072x32x1_S131072x32x3_2_0_n_n_0_2_13 (W (Proc.devRef .tc main_arg2)) (tbl (W (Proc.devRef .tc main_arg6)))) slices_S131072x32x3_S131072x32x1_0_0_1) shapeCasts_S131072x32x1_S131072x32 := by
  simp only [post, hostOps0, List.drop_succ_cons, List.drop_zero]
  after_results_simp
  try dsimp only [Matrix.cons_val]
  try after_results_simp
  all_goals rfl

set_option maxHeartbeats 4000000 in
/-- Coordinate 2 of the gathered centres. -/
theorem v125_eq (W : Valuation τ sig (Elt F)) :
    after (post (F := F)) W (Proc.devRef .tc main_v125)
      = shapeCast _ (extractStridedSlice S131072x32x1 ![0, 0, 2] (Host.gather gather_S100000x3_S131072x32x1_S131072x32x3_2_0_n_n_0_2_13 (W (Proc.devRef .tc main_arg2)) (tbl (W (Proc.devRef .tc main_arg6)))) slices_S131072x32x3_S131072x32x1_0_0_2) shapeCasts_S131072x32x1_S131072x32 := by
  simp only [post, hostOps0, List.drop_succ_cons, List.drop_zero]
  after_results_simp
  try dsimp only [Matrix.cons_val]
  try after_results_simp
  all_goals rfl

set_option maxHeartbeats 4000000 in
/-- Column 0 of the gathered covariance rows. -/
theorem v127_eq (W : Valuation τ sig (Elt F)) :
    after (post (F := F)) W (Proc.devRef .tc main_v127)
      = shapeCast _ (extractStridedSlice S131072x32x1 ![0, 0, 0] (Host.gather gather_S100000x6_S131072x32x1_S131072x32x6_2_0_n_n_0_2_16 (tab6 (W (Proc.devRef .tc main_v79))) (tbl (W (Proc.devRef .tc main_arg6)))) slices_S131072x32x6_S131072x32x1_0_0_0) shapeCasts_S131072x32x1_S131072x32 := by
  unfold tab6
  simp only [post, hostOps0, List.drop_succ_cons, List.drop_zero]
  after_results_simp
  try dsimp only [Matrix.cons_val]
  try after_results_simp
  all_goals rfl

set_option maxHeartbeats 4000000 in
/-- Column 1 of the gathered covariance rows. -/
theorem v129_eq (W : Valuation τ sig (Elt F)) :
    after (post (F := F)) W (Proc.devRef .tc main_v129)
      = shapeCast _ (extractStridedSlice S131072x32x1 ![0, 0, 1] (Host.gather gather_S100000x6_S131072x32x1_S131072x32x6_2_0_n_n_0_2_16 (tab6 (W (Proc.devRef .tc main_v79))) (tbl (W (Proc.devRef .tc main_arg6)))) slices_S131072x32x6_S131072x32x1_0_0_1) shapeCasts_S131072x32x1_S131072x32 := by
  unfold tab6
  simp only [post, hostOps0, List.drop_succ_cons, List.drop_zero]
  after_results_simp
  try dsimp only [Matrix.cons_val]
  try after_results_simp
  all_goals rfl

set_option maxHeartbeats 4000000 in
/-- Column 2 of the gathered covariance rows. -/
theorem v131_eq (W : Valuation τ sig (Elt F)) :
    after (post (F := F)) W (Proc.devRef .tc main_v131)
      = shapeCast _ (extractStridedSlice S131072x32x1 ![0, 0, 2] (Host.gather gather_S100000x6_S131072x32x1_S131072x32x6_2_0_n_n_0_2_16 (tab6 (W (Proc.devRef .tc main_v79))) (tbl (W (Proc.devRef .tc main_arg6)))) slices_S131072x32x6_S131072x32x1_0_0_2) shapeCasts_S131072x32x1_S131072x32 := by
  unfold tab6
  simp only [post, hostOps0, List.drop_succ_cons, List.drop_zero]
  after_results_simp
  try dsimp only [Matrix.cons_val]
  try after_results_simp
  all_goals rfl

set_option maxHeartbeats 4000000 in
/-- Column 3 of the gathered covariance rows. -/
theorem v133_eq (W : Valuation τ sig (Elt F)) :
    after (post (F := F)) W (Proc.devRef .tc main_v133)
      = shapeCast _ (extractStridedSlice S131072x32x1 ![0, 0, 3] (Host.gather gather_S100000x6_S131072x32x1_S131072x32x6_2_0_n_n_0_2_16 (tab6 (W (Proc.devRef .tc main_v79))) (tbl (W (Proc.devRef .tc main_arg6)))) slices_S131072x32x6_S131072x32x1_0_0_3) shapeCasts_S131072x32x1_S131072x32 := by
  unfold tab6
  simp only [post, hostOps0, List.drop_succ_cons, List.drop_zero]
  after_results_simp
  try dsimp only [Matrix.cons_val]
  try after_results_simp
  all_goals rfl

set_option maxHeartbeats 4000000 in
/-- Column 4 of the gathered covariance rows. -/
theorem v135_eq (W : Valuation τ sig (Elt F)) :
    after (post (F := F)) W (Proc.devRef .tc main_v135)
      = shapeCast _ (extractStridedSlice S131072x32x1 ![0, 0, 4] (Host.gather gather_S100000x6_S131072x32x1_S131072x32x6_2_0_n_n_0_2_16 (tab6 (W (Proc.devRef .tc main_v79))) (tbl (W (Proc.devRef .tc main_arg6)))) slices_S131072x32x6_S131072x32x1_0_0_4) shapeCasts_S131072x32x1_S131072x32 := by
  unfold tab6
  simp only [post, hostOps0, List.drop_succ_cons, List.drop_zero]
  after_results_simp
  try dsimp only [Matrix.cons_val]
  try after_results_simp
  all_goals rfl

set_option maxHeartbeats 4000000 in
/-- Column 5 of the gathered covariance rows. -/
theorem v137_eq (W : Valuation τ sig (Elt F)) :
    after (post (F := F)) W (Proc.devRef .tc main_v137)
      = shapeCast _ (extractStridedSlice S131072x32x1 ![0, 0, 5] (Host.gather gather_S100000x6_S131072x32x1_S131072x32x6_2_0_n_n_0_2_16 (tab6 (W (Proc.devRef .tc main_v79))) (tbl (W (Proc.devRef .tc main_arg6)))) slices_S131072x32x6_S131072x32x1_0_0_5) shapeCasts_S131072x32x1_S131072x32 := by
  unfold tab6
  simp only [post, hostOps0, List.drop_succ_cons, List.drop_zero]
  after_results_simp
  try dsimp only [Matrix.cons_val]
  try after_results_simp
  all_goals rfl

set_option maxHeartbeats 4000000 in
/-- The gathered colours. -/
theorem v119_eq (W : Valuation τ sig (Elt F)) :
    after (post (F := F)) W (Proc.devRef .tc main_v119) = Host.gather gather_S100000_S131072x32x1_S131072x32_n_0_n_n_0_2_1 (W (Proc.devRef .tc main_arg5)) (tbl (W (Proc.devRef .tc main_arg6))) := by
  simp only [post, hostOps0, List.drop_succ_cons, List.drop_zero]
  after_results_simp
  try dsimp only [Matrix.cons_val]
  try after_results_simp
  all_goals rfl

set_option maxHeartbeats 4000000 in
/-- The per-point features. -/
theorem v165_eq (W : Valuation τ sig (Elt F)) :
    after (post (F := F)) W (Proc.devRef .tc main_v165) = feats (W (Proc.devRef .tc main_arg0)) (W (Proc.devRef .tc main_arg1)) := by
  unfold feats
  simp only [post, hostOps0, List.drop_succ_cons, List.drop_zero]
  after_results_simp
  try dsimp only [Matrix.cons_val]
  try after_results_simp
  all_goals rfl

end Cert.KernelIdeal.HostSide

end
-- ==== Proof.KHostTables.lean ====
/-
  The two side-by-side tables of the kernel's host side, read at an entry: column j of the covariance table is entry
  (p, q) of Σ_g for j ↦ (0,0) (0,1) (0,2) (1,1) (1,2) (2,2); column j of the feature table is coordinate j of the point
  for j < 3 and the same six entries of Σ_psf for j = 3 … 8.
-/
import proofs.«142190_j3564822856016_2_alg».proof.Proof.Gen.KernelIdeal.Launch
import proofs.«142190_j3564822856016_2_alg».proof.Proof.Spec
import Idealize.ShloMosaic.Lib.StableHlo.Run
import Idealize.ShloMosaic.Lib.ValueIdx
import Idealize.ShloMosaic.Lib.Pipeline.Value
import proofs.«142190_j3564822856016_2_alg».proof.Proof.KHost
import proofs.«142190_j3564822856016_2_alg».proof.Proof.LibColumnsAt
set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

open Cert.LibColumnsAt

variable {F : FTy → Type} [FloatOps F]

theorem tab6_at_0 (sg : FVec F S100000x3x3 .f32) (g : Fin 100000) :
    tab6 sg (ix2 g (⟨0, by omega⟩ : Fin 6)) = sg (ix3 g (⟨0, by omega⟩ : Fin 3) (⟨0, by omega⟩ : Fin 3)) := by
  unfold tab6
  refine (concatenate_apply_piece (1 : Fin 2) _ _ (ix2 g (⟨0, by omega⟩ : Fin 6)) 0 ?_ S100000x1 (broadcastInDim S100000x1 ![0] bcast_S100000_S100000x1_0 (shapeCast _ (extractStridedSlice S100000x1x1 ![0, 0, 0] sg slices_S100000x3x3_S100000x1x1_0_0_0) shapeCasts_S100000x1x1_S100000)) ?_ rfl 0 ?_
    (ix2 g (0 : Fin 1)) ?_ ?_).trans ?_
  · simp only [List.length_cons, List.length_nil]; omega
  · rfl
  · rfl
  · intro b hb
    match b with
    | ⟨0, _⟩ => rfl
    | ⟨1, _⟩ => exact absurd rfl hb
  · rfl
  · exact plane_col_apply sg 0 0 _ _ _ g 0 (by omega) (by omega)

theorem tab6_at_1 (sg : FVec F S100000x3x3 .f32) (g : Fin 100000) :
    tab6 sg (ix2 g (⟨1, by omega⟩ : Fin 6)) = sg (ix3 g (⟨0, by omega⟩ : Fin 3) (⟨1, by omega⟩ : Fin 3)) := by
  unfold tab6
  refine (concatenate_apply_piece (1 : Fin 2) _ _ (ix2 g (⟨1, by omega⟩ : Fin 6)) 1 ?_ S100000x1 (broadcastInDim S100000x1 ![0] bcast_S100000_S100000x1_0 (shapeCast _ (extractStridedSlice S100000x1x1 ![0, 0, 1] sg slices_S100000x3x3_S100000x1x1_0_0_1) shapeCasts_S100000x1x1_S100000)) ?_ rfl 1 ?_
    (ix2 g (0 : Fin 1)) ?_ ?_).trans ?_
  · simp only [List.length_cons, List.length_nil]; omega
  · rfl
  · rfl
  · intro b hb
    match b with
    | ⟨0, _⟩ => rfl
    | ⟨1, _⟩ => exact absurd rfl hb
  · rfl
  · exact plane_col_apply sg 0 1 _ _ _ g 0 (by omega) (by omega)

theorem tab6_at_2 (sg : FVec F S100000x3x3 .f32) (g : Fin 100000) :
    tab6 sg (ix2 g (⟨2, by omega⟩ : Fin 6)) = sg (ix3 g (⟨0, by omega⟩ : Fin 3) (⟨2, by omega⟩ : Fin 3)) := by
  unfold tab6
  refine (concatenate_apply_piece (1 : Fin 2) _ _ (ix2 g (⟨2, by omega⟩ : Fin 6)) 2 ?_ S100000x1 (broadcastInDim S100000x1 ![0] bcast_S100000_S100000x1_0 (shapeCast _ (extractStridedSlice S100000x1x1 ![0, 0, 2] sg slices_S100000x3x3_S100000x1x1_0_0_2) shapeCasts_S100000x1x1_S100000)) ?_ rfl 2 ?_
    (ix2 g (0 : Fin 1)) ?_ ?_).trans ?_
  · simp only [List.length_cons, List.length_nil]; omega
  · rfl
  · rfl
  · intro b hb
    match b with
    | ⟨0, _⟩ => rfl
    | ⟨1, _⟩ => exact absurd rfl hb
  · rfl
  · exact plane_col_apply sg 0 2 _ _ _ g 0 (by omega) (by omega)

theorem tab6_at_3 (sg : FVec F S100000x3x3 .f32) (g : Fin 100000) :
    tab6 sg (ix2 g (⟨3, by omega⟩ : Fin 6)) = sg (ix3 g (⟨1, by omega⟩ : Fin 3) (⟨1, by omega⟩ : Fin 3)) := by
  unfold tab6
  refine (concatenate_apply_piece (1 : Fin 2) _ _ (ix2 g (⟨3, by omega⟩ : Fin 6)) 3 ?_ S100000x1 (broadcastInDim S100000x1 ![0] bcast_S100000_S100000x1_0 (shapeCast _ (extractStridedSlice S100000x1x1 ![0, 1, 1] sg slices_S100000x3x3_S100000x1x1_0_1_1) shapeCasts_S100000x1x1_S100000)) ?_ rfl 3 ?_
    (ix2 g (0 : Fin 1)) ?_ ?_).trans ?_
  · simp only [List.length_cons, List.length_nil]; omega
  · rfl
  · rfl
  · intro b hb
    match b with
    | ⟨0, _⟩ => rfl
    | ⟨1, _⟩ => exact absurd rfl hb
  · rfl
  · exact plane_col_apply sg 1 1 _ _ _ g 0 (by omega) (by omega)

theorem tab6_at_4 (sg : FVec F S100000x3x3 .f32) (g : Fin 100000) :
    tab6 sg (ix2 g (⟨4, by omega⟩ : Fin 6)) = sg (ix3 g (⟨1, by omega⟩ : Fin 3) (⟨2, by omega⟩ : Fin 3)) := by
  unfold tab6
  refine (concatenate_apply_piece (1 : Fin 2) _ _ (ix2 g (⟨4, by omega⟩ : Fin 6)) 4 ?_ S100000x1 (broadcastInDim S100000x1 ![0] bcast_S100000_S100000x1_0 (shapeCast _ (extractStridedSlice S100000x1x1 ![0, 1, 2] sg slices_S100000x3x3_S100000x1x1_0_1_2) shapeCasts_S100000x1x1_S100000)) ?_ rfl 4 ?_
    (ix2 g (0 : Fin 1)) ?_ ?_).trans ?_
  · simp only [List.length_cons, List.length_nil]; omega
  · rfl
  · rfl
  · intro b hb
    match b with
    | ⟨0, _⟩ => rfl
    | ⟨1, _⟩ => exact absurd rfl hb
  · rfl
  · exact plane_col_apply sg 1 2 _ _ _ g 0 (by omega) (by omega)

theorem tab6_at_5 (sg : FVec F S100000x3x3 .f32) (g : Fin 100000) :
    tab6 sg (ix2 g (⟨5, by omega⟩ : Fin 6)) = sg (ix3 g (⟨2, by omega⟩ : Fin 3) (⟨2, by omega⟩ : Fin 3)) := by
  unfold tab6
  refine (concatenate_apply_piece (1 : Fin 2) _ _ (ix2 g (⟨5, by omega⟩ : Fin 6)) 5 ?_ S100000x1 (broadcastInDim S100000x1 ![0] bcast_S100000_S100000x1_0 (shapeCast _ (extractStridedSlice S100000x1x1 ![0, 2, 2] sg slices_S100000x3x3_S100000x1x1_0_2_2) shapeCasts_S100000x1x1_S100000)) ?_ rfl 5 ?_
    (ix2 g (0 : Fin 1)) ?_ ?_).trans ?_
  · simp only [List.length_cons, List.length_nil]; omega
  · rfl
  · rfl
  · intro b hb
    match b with
    | ⟨0, _⟩ => rfl
    | ⟨1, _⟩ => exact absurd rfl hb
  · rfl
  · exact plane_col_apply sg 2 2 _ _ _ g 0 (by omega) (by omega)

theorem feats_at_0 (a0 : FVec F S131072x3 .f32) (a1 : FVec F S131072x3x3 .f32) (n : Fin 131072) :
    feats a0 a1 (ix2 n (⟨0, by omega⟩ : Fin 9)) = a0 (ix2 n (⟨0, by omega⟩ : Fin 3)) := by
  unfold feats
  refine (concatenate_apply_piece (1 : Fin 2) _ _ (ix2 n (⟨0, by omega⟩ : Fin 9)) 0 ?_ S131072x1 (broadcastInDim S131072x1 ![0] bcast_S131072_S131072x1_0 (shapeCast _ (extractStridedSlice S131072x1 ![0, 0] a0 slices_S131072x3_S131072x1_0_0) shapeCasts_S131072x1_S131072)) ?_ rfl 0 ?_
    (ix2 n (0 : Fin 1)) ?_ ?_).trans ?_
  · simp only [List.length_cons, List.length_nil]; omega
  · rfl
  · rfl
  · intro b hb
    match b with
    | ⟨0, _⟩ => rfl
    | ⟨1, _⟩ => exact absurd rfl hb
  · rfl
  · exact col_col_apply a0 0 _ _ _ n 0 (by omega)

theorem feats_at_1 (a0 : FVec F S131072x3 .f32) (a1 : FVec F S131072x3x3 .f32) (n : Fin 131072) :
    feats a0 a1 (ix2 n (⟨1, by omega⟩ : Fin 9)) = a0 (ix2 n (⟨1, by omega⟩ : Fin 3)) := by
  unfold feats
  refine (concatenate_apply_piece (1 : Fin 2) _ _ (ix2 n (⟨1, by omega⟩ : Fin 9)) 1 ?_ S131072x1 (broadcastInDim S131072x1 ![0] bcast_S131072_S131072x1_0 (shapeCast _ (extractStridedSlice S131072x1 ![0, 1] a0 slices_S131072x3_S131072x1_0_1) shapeCasts_S131072x1_S131072)) ?_ rfl 1 ?_
    (ix2 n (0 : Fin 1)) ?_ ?_).trans ?_
  · simp only [List.length_cons, List.length_nil]; omega
  · rfl
  · rfl
  · intro b hb
    match b with
    | ⟨0, _⟩ => rfl
    | ⟨1, _⟩ => exact absurd rfl hb
  · rfl
  · exact col_col_apply a0 1 _ _ _ n 0 (by omega)

theorem feats_at_2 (a0 : FVec F S131072x3 .f32) (a1 : FVec F S131072x3x3 .f32) (n : Fin 131072) :
    feats a0 a1 (ix2 n (⟨2, by omega⟩ : Fin 9)) = a0 (ix2 n (⟨2, by omega⟩ : Fin 3)) := by
  unfold feats
  refine (concatenate_apply_piece (1 : Fin 2) _ _ (ix2 n (⟨2, by omega⟩ : Fin 9)) 2 ?_ S131072x1 (broadcastInDim S131072x1 ![0] bcast_S131072_S131072x1_0 (shapeCast _ (extractStridedSlice S131072x1 ![0, 2] a0 slices_S131072x3_S131072x1_0_2) shapeCasts_S131072x1_S131072)) ?_ rfl 2 ?_
    (ix2 n (0 : Fin 1)) ?_ ?_).trans ?_
  · simp only [List.length_cons, List.length_nil]; omega
  · rfl
  · rfl
  · intro b hb
    match b with
    | ⟨0, _⟩ => rfl
    | ⟨1, _⟩ => exact absurd rfl hb
  · rfl
  · exact col_col_apply a0 2 _ _ _ n 0 (by omega)

theorem feats_at_3 (a0 : FVec F S131072x3 .f32) (a1 : FVec F S131072x3x3 .f32) (n : Fin 131072) :
    feats a0 a1 (ix2 n (⟨3, by omega⟩ : Fin 9)) = a1 (ix3 n (⟨0, by omega⟩ : Fin 3) (⟨0, by omega⟩ : Fin 3)) := by
  unfold feats
  refine (concatenate_apply_piece (1 : Fin 2) _ _ (ix2 n (⟨3, by omega⟩ : Fin 9)) 3 ?_ S131072x1 (broadcastInDim S131072x1 ![0] bcast_S131072_S131072x1_0 (shapeCast _ (extractStridedSlice S131072x1x1 ![0, 0, 0] a1 slices_S131072x3x3_S131072x1x1_0_0_0) shapeCasts_S131072x1x1_S131072)) ?_ rfl 3 ?_
    (ix2 n (0 : Fin 1)) ?_ ?_).trans ?_
  · simp only [List.length_cons, List.length_nil]; omega
  · rfl
  · rfl
  · intro b hb
    match b with
    | ⟨0, _⟩ => rfl
    | ⟨1, _⟩ => exact absurd rfl hb
  · rfl
  · exact plane_col_apply a1 0 0 _ _ _ n 0 (by omega) (by omega)

theorem feats_at_4 (a0 : FVec F S131072x3 .f32) (a1 : FVec F S131072x3x3 .f32) (n : Fin 131072) :
    feats a0 a1 (ix2 n (⟨4, by omega⟩ : Fin 9)) = a1 (ix3 n (⟨0, by omega⟩ : Fin 3) (⟨1, by omega⟩ : Fin 3)) := by
  unfold feats
  refine (concatenate_apply_piece (1 : Fin 2) _ _ (ix2 n (⟨4, by omega⟩ : Fin 9)) 4 ?_ S131072x1 (broadcastInDim S131072x1 ![0] bcast_S131072_S131072x1_0 (shapeCast _ (extractStridedSlice S131072x1x1 ![0, 0, 1] a1 slices_S131072x3x3_S131072x1x1_0_0_1) shapeCasts_S131072x1x1_S131072)) ?_ rfl 4 ?_
    (ix2 n (0 : Fin 1)) ?_ ?_).trans ?_
  · simp only [List.length_cons, List.length_nil]; omega
  · rfl
  · rfl
  · intro b hb
    match b with
    | ⟨0, _⟩ => rfl
    | ⟨1, _⟩ => exact absurd rfl hb
  · rfl
  · exact plane_col_apply a1 0 1 _ _ _ n 0 (by omega) (by omega)

theorem feats_at_5 (a0 : FVec F S131072x3 .f32) (a1 : FVec F S131072x3x3 .f32) (n : Fin 131072) :
    feats a0 a1 (ix2 n (⟨5, by omega⟩ : Fin 9)) = a1 (ix3 n (⟨0, by omega⟩ : Fin 3) (⟨2, by omega⟩ : Fin 3)) := by
  unfold feats
  refine (concatenate_apply_piece (1 : Fin 2) _ _ (ix2 n (⟨5, by omega⟩ : Fin 9)) 5 ?_ S131072x1 (broadcastInDim S131072x1 ![0] bcast_S131072_S131072x1_0 (shapeCast _ (extractStridedSlice S131072x1x1 ![0, 0, 2] a1 slices_S131072x3x3_S131072x1x1_0_0_2) shapeCasts_S131072x1x1_S131072)) ?_ rfl 5 ?_
    (ix2 n (0 : Fin 1)) ?_ ?_).trans ?_
  · simp only [List.length_cons, List.length_nil]; omega
  · rfl
  · rfl
  · intro b hb
    match b with
    | ⟨0, _⟩ => rfl
    | ⟨1, _⟩ => exact absurd rfl hb
  · rfl
  · exact plane_col_apply a1 0 2 _ _ _ n 0 (by omega) (by omega)

theorem feats_at_6 (a0 : FVec F S131072x3 .f32) (a1 : FVec F S131072x3x3 .f32) (n : Fin 131072) :
    feats a0 a1 (ix2 n (⟨6, by omega⟩ : Fin 9)) = a1 (ix3 n (⟨1, by omega⟩ : Fin 3) (⟨1, by omega⟩ : Fin 3)) := by
  unfold feats
  refine (concatenate_apply_piece (1 : Fin 2) _ _ (ix2 n (⟨6, by omega⟩ : Fin 9)) 6 ?_ S131072x1 (broadcastInDim S131072x1 ![0] bcast_S131072_S131072x1_0 (shapeCast _ (extractStridedSlice S131072x1x1 ![0, 1, 1] a1 slices_S131072x3x3_S131072x1x1_0_1_1) shapeCasts_S131072x1x1_S131072)) ?_ rfl 6 ?_
    (ix2 n (0 : Fin 1)) ?_ ?_).trans ?_
  · simp only [List.length_cons, List.length_nil]; omega
  · rfl
  · rfl
  · intro b hb
    match b with
    | ⟨0, _⟩ => rfl
    | ⟨1, _⟩ => exact absurd rfl hb
  · rfl
  · exact plane_col_apply a1 1 1 _ _ _ n 0 (by omega) (by omega)

theorem feats_at_7 (a0 : FVec F S131072x3 .f32) (a1 : FVec F S131072x3x3 .f32) (n : Fin 131072) :
    feats a0 a1 (ix2 n (⟨7, by omega⟩ : Fin 9)) = a1 (ix3 n (⟨1, by omega⟩ : Fin 3) (⟨2, by omega⟩ : Fin 3)) := by
  unfold feats
  refine (concatenate_apply_piece (1 : Fin 2) _ _ (ix2 n (⟨7, by omega⟩ : Fin 9)) 7 ?_ S131072x1 (broadcastInDim S131072x1 ![0] bcast_S131072_S131072x1_0 (shapeCast _ (extractStridedSlice S131072x1x1 ![0, 1, 2] a1 slices_S131072x3x3_S131072x1x1_0_1_2) shapeCasts_S131072x1x1_S131072)) ?_ rfl 7 ?_
    (ix2 n (0 : Fin 1)) ?_ ?_).trans ?_
  · simp only [List.length_cons, List.length_nil]; omega
  · rfl
  · rfl
  · intro b hb
    match b with
    | ⟨0, _⟩ => rfl
    | ⟨1, _⟩ => exact absurd rfl hb
  · rfl
  · exact plane_col_apply a1 1 2 _ _ _ n 0 (by omega) (by omega)

theorem feats_at_8 (a0 : FVec F S131072x3 .f32) (a1 : FVec F S131072x3x3 .f32) (n : Fin 131072) :
    feats a0 a1 (ix2 n (⟨8, by omega⟩ : Fin 9)) = a1 (ix3 n (⟨2, by omega⟩ : Fin 3) (⟨2, by omega⟩ : Fin 3)) := by
  unfold feats
  refine (concatenate_apply_piece (1 : Fin 2) _ _ (ix2 n (⟨8, by omega⟩ : Fin 9)) 8 ?_ S131072x1 (broadcastInDim S131072x1 ![0] bcast_S131072_S131072x1_0 (shapeCast _ (extractStridedSlice S131072x1x1 ![0, 2, 2] a1 slices_S131072x3x3_S131072x1x1_0_2_2) shapeCasts_S131072x1x1_S131072)) ?_ rfl 8 ?_
    (ix2 n (0 : Fin 1)) ?_ ?_).trans ?_
  · simp only [List.length_cons, List.length_nil]; omega
  · rfl
  · rfl
  · intro b hb
    match b with
    | ⟨0, _⟩ => rfl
    | ⟨1, _⟩ => exact absurd rfl hb
  · rfl
  · exact plane_col_apply a1 2 2 _ _ _ n 0 (by omega) (by omega)

end Cert.KernelIdeal.HostSide

end
-- ==== Proof.LibGatherRows.lean ====
/-
  A gather of whole ROWS read at an index.

  What `x[idx]` of an array `x : [N, D]` (or `[N, D, E]`) at an integer array `idx : [R, C]` lowers to: a
  `stablehlo.gather` over the start indices as `[R, C, 1]` whose one start-index component names operand axis 0, that
  axis collapsed (slice size 1) and the operand's remaining axes carried whole into the result's trailing offset axes.
  Result element `(r, c, p)` (or `(r, c, p, q)`) is the operand at row `idx[r, c, 0]`, read as a signed integer and
  clamped into `[0, N − 1]`, and at the same trailing coordinates. The statements are generic in every extent; the
  dimension numbers are given as records (`rowsDims`, `matsDims`) whose well-formedness a program decides at its
  literal shapes, so a program's own record with these fields is the same term up to unfolding.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather: operand `[N, D]`, start indices `[R, C, 1]`, result `[R, C, D]`. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The row gather read at `(r, c, p)`: the operand at row `idx[r, c, 0]` (signed, clamped into `[0, N − 1]`),
    column `p`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (p : Fin D) :
    Host.gather (rowsDims N D R C wf) x idx (ix3 r c p)
      = x (ix2 ⟨min (idx (ix3 r c (0 : Fin 1))).toInt.toNat (N - 1), by omega⟩ p) := by
  unfold Host.gather
  refine congrArg x ?_
  funext a
  refine Fin.ext ?_
  match a with
  | ⟨0, _⟩ =>
    show (rowsDims N D R C wf).start (ix3 r c p) idx 0 + (rowsDims N D R C wf).batchCoord (ix3 r c p) 0
      + (rowsDims N D R C wf).offCoord (ix3 r c p) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx (ix3 r c p) ⟨List.idxOf (0 : Fin 2) (rowsDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N D R C wf).start (ix3 r c p) idx 1 + (rowsDims N D R C wf).batchCoord (ix3 r c p) 1
      + (rowsDims N D R C wf).offCoord (ix3 r c p) 1 = p.val
    rw [GatherDims.batchCoord_eq_zero _ _ _ List.not_mem_nil]
    unfold GatherDims.start
    have h1 : (1 : Fin 2) ∉ [(0 : Fin 2)] := by decide
    rw [dif_neg (show (1 : Fin 2) ∉ (rowsDims N D R C wf).startIndexMap from h1)]
    unfold GatherDims.offCoord
    rw [dif_pos ((GatherDims.mem_sKept _ _).mpr ⟨show (1 : Fin 2) ∉ (rowsDims N D R C wf).collapsedSliceDims from h1, List.not_mem_nil⟩)]
    simp only [Nat.zero_add]
    rfl

/-- The dimension numbers of a gather of matrices: operand `[N, D, E]`, start indices `[R, C, 1]`, result
    `[R, C, D, E]`. -/
abbrev matsDims (N D E R C : Nat)
    (wf : GatherDims.WF ⟨3, ![N, D, E]⟩ ⟨3, ![R, C, 1]⟩ ⟨4, ![R, C, D, E]⟩ [2, 3] [0] [] [0] [] 2 ![1, D, E]) :
    GatherDims ⟨3, ![N, D, E]⟩ ⟨3, ![R, C, 1]⟩ ⟨4, ![R, C, D, E]⟩ where
  offsetDims := [2, 3]
  collapsedSliceDims := [0]
  operandBatchingDims := []
  startIndicesBatchingDims := []
  startIndexMap := [0]
  indexVectorDim := 2
  sliceSizes := ![1, D, E]
  wf := wf

/-- The gather of matrices read at `(r, c, p, q)`: the operand at slab `idx[r, c, 0]` (signed, clamped into
    `[0, N − 1]`), entry `(p, q)`. -/
theorem gather_mats_apply {N D E R C w : Nat} (hN : 0 < N)
    (wf : GatherDims.WF ⟨3, ![N, D, E]⟩ ⟨3, ![R, C, 1]⟩ ⟨4, ![R, C, D, E]⟩ [2, 3] [0] [] [0] [] 2 ![1, D, E])
    (x : (⟨3, ![N, D, E]⟩ : Shape).Idx → α) (idx : IVec ⟨3, ![R, C, 1]⟩ w) (r : Fin R) (c : Fin C) (p : Fin D) (q : Fin E) :
    Host.gather (matsDims N D E R C wf) x idx (ix4 r c p q)
      = x (ix3 ⟨min (idx (ix3 r c (0 : Fin 1))).toInt.toNat (N - 1), by omega⟩ p q) := by
  unfold Host.gather
  refine congrArg x ?_
  funext a
  refine Fin.ext ?_
  match a with
  | ⟨0, _⟩ =>
    show (matsDims N D E R C wf).start (ix4 r c p q) idx 0 + (matsDims N D E R C wf).batchCoord (ix4 r c p q) 0
      + (matsDims N D E R C wf).offCoord (ix4 r c p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (matsDims N D E R C wf).startIndexMap from List.mem_singleton.mpr rfl)]
    have hsi : (matsDims N D E R C wf).siIdx (ix4 r c p q) ⟨List.idxOf (0 : Fin 3) (matsDims N D E R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (matsDims N D E R C wf).start (ix4 r c p q) idx 1 + (matsDims N D E R C wf).batchCoord (ix4 r c p q) 1
      + (matsDims N D E R C wf).offCoord (ix4 r c p q) 1 = p.val
    rw [GatherDims.batchCoord_eq_zero _ _ _ List.not_mem_nil]
    unfold GatherDims.start
    have h1 : (1 : Fin 3) ∉ [(0 : Fin 3)] := by decide
    rw [dif_neg (show (1 : Fin 3) ∉ (matsDims N D E R C wf).startIndexMap from h1)]
    unfold GatherDims.offCoord
    rw [dif_pos ((GatherDims.mem_sKept _ _).mpr ⟨show (1 : Fin 3) ∉ (matsDims N D E R C wf).collapsedSliceDims from h1, List.not_mem_nil⟩)]
    simp only [Nat.zero_add]
    rfl
  | ⟨2, _⟩ =>
    show (matsDims N D E R C wf).start (ix4 r c p q) idx 2 + (matsDims N D E R C wf).batchCoord (ix4 r c p q) 2
      + (matsDims N D E R C wf).offCoord (ix4 r c p q) 2 = q.val
    rw [GatherDims.batchCoord_eq_zero _ _ _ List.not_mem_nil]
    unfold GatherDims.start
    have h2 : (2 : Fin 3) ∉ [(0 : Fin 3)] := by decide
    rw [dif_neg (show (2 : Fin 3) ∉ (matsDims N D E R C wf).startIndexMap from h2)]
    unfold GatherDims.offCoord
    rw [dif_pos ((GatherDims.mem_sKept _ _).mpr ⟨show (2 : Fin 3) ∉ (matsDims N D E R C wf).collapsedSliceDims from h2, List.not_mem_nil⟩)]
    simp only [Nat.zero_add]
    rfl

end Idealize.ShloMosaic.GatherRows

end
-- ==== Proof.KHostAt.lean ====
/-
  The eleven arrays the pallas_call stages, read at an entry (n, k) (the feature table at (n, j)): each is an entry of an
  argument array, or of the covariance table Σ_g, at the row the neighbour word names (read signed, clamped).
-/
import proofs.«142190_j3564822856016_2_alg».proof.Proof.Gen.KernelIdeal.Launch
import proofs.«142190_j3564822856016_2_alg».proof.Proof.Spec
import Idealize.ShloMosaic.Lib.StableHlo.Run
import Idealize.ShloMosaic.Lib.ValueIdx
import Idealize.ShloMosaic.Lib.Pipeline.Value
import proofs.«142190_j3564822856016_2_alg».proof.Proof.KHostTables
import proofs.«142190_j3564822856016_2_alg».proof.Proof.LibGatherRows
set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

open Cert.LibColumnsAt Idealize.ShloMosaic.GatherRows

variable {F : FTy → Type} [FloatOps F]

/-- A gathered three-column array's column p at (n, k). -/
theorem gathered3_at (x : FVec F S100000x3 .f32) (tb : IVec S131072x32x1 32) (p : Nat) (hp : p < 3)
    (hs : S131072x32x3.Slices ![0, 0, p] S131072x32x1) (n : Fin 131072) (k : Fin 32) :
    shapeCast S131072x32 (extractStridedSlice S131072x32x1 ![0, 0, p] (Host.gather gather_S100000x3_S131072x32x1_S131072x32x3_2_0_n_n_0_2_13 x tb) hs) shapeCasts_S131072x32x1_S131072x32 (ix2 n k)
      = x (ix2 (Cert.Spec.row tb n k) ⟨p, hp⟩) := by
  rw [slice3_cast_apply _ p hs _ n k hp]
  exact gather_rows_apply (by omega) gather_S100000x3_S131072x32x1_S131072x32x3_2_0_n_n_0_2_13_wf x tb n k ⟨p, hp⟩

/-- A gathered six-column array's column j at (n, k). -/
theorem gathered6_at (x : FVec F S100000x6 .f32) (tb : IVec S131072x32x1 32) (j : Nat) (hj : j < 6)
    (hs : S131072x32x6.Slices ![0, 0, j] S131072x32x1) (n : Fin 131072) (k : Fin 32) :
    shapeCast S131072x32 (extractStridedSlice S131072x32x1 ![0, 0, j] (Host.gather gather_S100000x6_S131072x32x1_S131072x32x6_2_0_n_n_0_2_16 x tb) hs) shapeCasts_S131072x32x1_S131072x32 (ix2 n k)
      = x (ix2 (Cert.Spec.row tb n k) ⟨j, hj⟩) := by
  rw [slice3_cast_apply _ j hs _ n k hj]
  exact gather_rows_apply (by omega) gather_S100000x6_S131072x32x1_S131072x32x6_2_0_n_n_0_2_16_wf x tb n k ⟨j, hj⟩

/-- The gathered colours at (n, k). -/
theorem gathered1_at (x : FVec F S100000 .f32) (tb : IVec S131072x32x1 32) (n : Fin 131072) (k : Fin 32) :
    Host.gather gather_S100000_S131072x32x1_S131072x32_n_0_n_n_0_2_1 x tb (ix2 n k) = x (ix1 (Cert.Spec.row tb n k)) := by
  refine (gather_take_apply (by omega) gather_S100000_S131072x32x1_S131072x32_n_0_n_n_0_2_1_wf x tb (ix2 n k)).trans ?_
  have hidx : takeIdx (ix2 n k) = (ix3 n k (0 : Fin 1) : S131072x32x1.Idx) := funext fun a => Fin.ext (by
    match a with
    | ⟨0, _⟩ => rfl
    | ⟨1, _⟩ => rfl
    | ⟨2, _⟩ => rfl)
  refine congrArg (fun i => x (ix1 i)) (Fin.ext ?_)
  show min (tb (takeIdx (ix2 n k))).toInt.toNat (100000 - 1) = min (tb (ix3 n k (0 : Fin 1))).toInt.toNat (100000 - 1)
  rw [hidx]

theorem v121_at (W : Valuation τ sig (Elt F)) (n : Fin 131072) (k : Fin 32) :
    (after (post (F := F)) W (Proc.devRef .tc main_v121) : S131072x32.Idx → F .f32) (ix2 n k)
      = (W (Proc.devRef .tc main_arg2) : S100000x3.Idx → F .f32) (ix2 (Cert.Spec.row (tbl (W (Proc.devRef .tc main_arg6))) n k) 0) := by
  rw [v121_eq]; exact gathered3_at _ _ 0 (by omega) _ n k

theorem v123_at (W : Valuation τ sig (Elt F)) (n : Fin 131072) (k : Fin 32) :
    (after (post (F := F)) W (Proc.devRef .tc main_v123) : S131072x32.Idx → F .f32) (ix2 n k)
      = (W (Proc.devRef .tc main_arg2) : S100000x3.Idx → F .f32) (ix2 (Cert.Spec.row (tbl (W (Proc.devRef .tc main_arg6))) n k) 1) := by
  rw [v123_eq]; exact gathered3_at _ _ 1 (by omega) _ n k

theorem v125_at (W : Valuation τ sig (Elt F)) (n : Fin 131072) (k : Fin 32) :
    (after (post (F := F)) W (Proc.devRef .tc main_v125) : S131072x32.Idx → F .f32) (ix2 n k)
      = (W (Proc.devRef .tc main_arg2) : S100000x3.Idx → F .f32) (ix2 (Cert.Spec.row (tbl (W (Proc.devRef .tc main_arg6))) n k) 2) := by
  rw [v125_eq]; exact gathered3_at _ _ 2 (by omega) _ n k

theorem v127_at (W : Valuation τ sig (Elt F)) (n : Fin 131072) (k : Fin 32) :
    (after (post (F := F)) W (Proc.devRef .tc main_v127) : S131072x32.Idx → F .f32) (ix2 n k)
      = (W (Proc.devRef .tc main_v79) : S100000x3x3.Idx → F .f32) (ix3 (Cert.Spec.row (tbl (W (Proc.devRef .tc main_arg6))) n k) 0 0) := by
  rw [v127_eq]; exact (gathered6_at _ _ 0 (by omega) _ n k).trans (tab6_at_0 _ _)

theorem v129_at (W : Valuation τ sig (Elt F)) (n : Fin 131072) (k : Fin 32) :
    (after (post (F := F)) W (Proc.devRef .tc main_v129) : S131072x32.Idx → F .f32) (ix2 n k)
      = (W (Proc.devRef .tc main_v79) : S100000x3x3.Idx → F .f32) (ix3 (Cert.Spec.row (tbl (W (Proc.devRef .tc main_arg6))) n k) 0 1) := by
  rw [v129_eq]; exact (gathered6_at _ _ 1 (by omega) _ n k).trans (tab6_at_1 _ _)

theorem v131_at (W : Valuation τ sig (Elt F)) (n : Fin 131072) (k : Fin 32) :
    (after (post (F := F)) W (Proc.devRef .tc main_v131) : S131072x32.Idx → F .f32) (ix2 n k)
      = (W (Proc.devRef .tc main_v79) : S100000x3x3.Idx → F .f32) (ix3 (Cert.Spec.row (tbl (W (Proc.devRef .tc main_arg6))) n k) 0 2) := by
  rw [v131_eq]; exact (gathered6_at _ _ 2 (by omega) _ n k).trans (tab6_at_2 _ _)

theorem v133_at (W : Valuation τ sig (Elt F)) (n : Fin 131072) (k : Fin 32) :
    (after (post (F := F)) W (Proc.devRef .tc main_v133) : S131072x32.Idx → F .f32) (ix2 n k)
      = (W (Proc.devRef .tc main_v79) : S100000x3x3.Idx → F .f32) (ix3 (Cert.Spec.row (tbl (W (Proc.devRef .tc main_arg6))) n k) 1 1) := by
  rw [v133_eq]; exact (gathered6_at _ _ 3 (by omega) _ n k).trans (tab6_at_3 _ _)

theorem v135_at (W : Valuation τ sig (Elt F)) (n : Fin 131072) (k : Fin 32) :
    (after (post (F := F)) W (Proc.devRef .tc main_v135) : S131072x32.Idx → F .f32) (ix2 n k)
      = (W (Proc.devRef .tc main_v79) : S100000x3x3.Idx → F .f32) (ix3 (Cert.Spec.row (tbl (W (Proc.devRef .tc main_arg6))) n k) 1 2) := by
  rw [v135_eq]; exact (gathered6_at _ _ 4 (by omega) _ n k).trans (tab6_at_4 _ _)

theorem v137_at (W : Valuation τ sig (Elt F)) (n : Fin 131072) (k : Fin 32) :
    (after (post (F := F)) W (Proc.devRef .tc main_v137) : S131072x32.Idx → F .f32) (ix2 n k)
      = (W (Proc.devRef .tc main_v79) : S100000x3x3.Idx → F .f32) (ix3 (Cert.Spec.row (tbl (W (Proc.devRef .tc main_arg6))) n k) 2 2) := by
  rw [v137_eq]; exact (gathered6_at _ _ 5 (by omega) _ n k).trans (tab6_at_5 _ _)

theorem v119_at (W : Valuation τ sig (Elt F)) (n : Fin 131072) (k : Fin 32) :
    (after (post (F := F)) W (Proc.devRef .tc main_v119) : S131072x32.Idx → F .f32) (ix2 n k)
      = (W (Proc.devRef .tc main_arg5) : S100000.Idx → F .f32) (ix1 (Cert.Spec.row (tbl (W (Proc.devRef .tc main_arg6))) n k)) := by
  rw [v119_eq]; exact gathered1_at _ _ n k

theorem v165_at_0 (W : Valuation τ sig (Elt F)) (n : Fin 131072) :
    (after (post (F := F)) W (Proc.devRef .tc main_v165) : S131072x9.Idx → F .f32) (ix2 n 0)
      = (W (Proc.devRef .tc main_arg0) : S131072x3.Idx → F .f32) (ix2 n 0) := by
  rw [v165_eq]; exact feats_at_0 _ _ n

theorem v165_at_1 (W : Valuation τ sig (Elt F)) (n : Fin 131072) :
    (after (post (F := F)) W (Proc.devRef .tc main_v165) : S131072x9.Idx → F .f32) (ix2 n 1)
      = (W (Proc.devRef .tc main_arg0) : S131072x3.Idx → F .f32) (ix2 n 1) := by
  rw [v165_eq]; exact feats_at_1 _ _ n

theorem v165_at_2 (W : Valuation τ sig (Elt F)) (n : Fin 131072) :
    (after (post (F := F)) W (Proc.devRef .tc main_v165) : S131072x9.Idx → F .f32) (ix2 n 2)
      = (W (Proc.devRef .tc main_arg0) : S131072x3.Idx → F .f32) (ix2 n 2) := by
  rw [v165_eq]; exact feats_at_2 _ _ n

theorem v165_at_3 (W : Valuation τ sig (Elt F)) (n : Fin 131072) :
    (after (post (F := F)) W (Proc.devRef .tc main_v165) : S131072x9.Idx → F .f32) (ix2 n 3)
      = (W (Proc.devRef .tc main_arg1) : S131072x3x3.Idx → F .f32) (ix3 n 0 0) := by
  rw [v165_eq]; exact feats_at_3 _ _ n

theorem v165_at_4 (W : Valuation τ sig (Elt F)) (n : Fin 131072) :
    (after (post (F := F)) W (Proc.devRef .tc main_v165) : S131072x9.Idx → F .f32) (ix2 n 4)
      = (W (Proc.devRef .tc main_arg1) : S131072x3x3.Idx → F .f32) (ix3 n 0 1) := by
  rw [v165_eq]; exact feats_at_4 _ _ n

theorem v165_at_5 (W : Valuation τ sig (Elt F)) (n : Fin 131072) :
    (after (post (F := F)) W (Proc.devRef .tc main_v165) : S131072x9.Idx → F .f32) (ix2 n 5)
      = (W (Proc.devRef .tc main_arg1) : S131072x3x3.Idx → F .f32) (ix3 n 0 2) := by
  rw [v165_eq]; exact feats_at_5 _ _ n

theorem v165_at_6 (W : Valuation τ sig (Elt F)) (n : Fin 131072) :
    (after (post (F := F)) W (Proc.devRef .tc main_v165) : S131072x9.Idx → F .f32) (ix2 n 6)
      = (W (Proc.devRef .tc main_arg1) : S131072x3x3.Idx → F .f32) (ix3 n 1 1) := by
  rw [v165_eq]; exact feats_at_6 _ _ n

theorem v165_at_7 (W : Valuation τ sig (Elt F)) (n : Fin 131072) :
    (after (post (F := F)) W (Proc.devRef .tc main_v165) : S131072x9.Idx → F .f32) (ix2 n 7)
      = (W (Proc.devRef .tc main_arg1) : S131072x3x3.Idx → F .f32) (ix3 n 1 2) := by
  rw [v165_eq]; exact feats_at_7 _ _ n

theorem v165_at_8 (W : Valuation τ sig (Elt F)) (n : Fin 131072) :
    (after (post (F := F)) W (Proc.devRef .tc main_v165) : S131072x9.Idx → F .f32) (ix2 n 8)
      = (W (Proc.devRef .tc main_arg1) : S131072x3x3.Idx → F .f32) (ix3 n 2 2) := by
  rw [v165_eq]; exact feats_at_8 _ _ n

end Cert.KernelIdeal.HostSide

end
-- ==== Proof.KSym.lean ====
/-
  Two facts about the first stretch of the kernel's host side: it writes none of the argument arrays, and the
  covariance table it ends with is a Gram product M Mᵀ, hence symmetric — entry (i, j) is Σ_k M[i,k]·M[j,k] and
  multiplication of extended reals commutes.
-/
import proofs.«142190_j3564822856016_2_alg».proof.Proof.Gen.KernelIdeal.Launch
import proofs.«142190_j3564822856016_2_alg».proof.Proof.Spec
import Idealize.ShloMosaic.Lib.StableHlo.Run
import Idealize.ShloMosaic.Lib.ValueIdx
import Idealize.ShloMosaic.Lib.Pipeline.Value
import proofs.«142190_j3564822856016_2_alg».proof.Proof.KHost
import Idealize.ShloMosaic.PureOps.Ideal.Laws
set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

open scoped BigOperators

variable {F : FTy → Type} [FloatOps F]

set_option maxHeartbeats 4000000 in
theorem pre_arg0 (W : Valuation τ sig (Elt F)) :
    after (pre (F := F)) W (Proc.devRef .tc main_arg0) = W (Proc.devRef .tc main_arg0) := by
  simp only [pre, hostOps0, List.take_succ_cons, List.take_zero]
  after_results_simp

set_option maxHeartbeats 4000000 in
theorem pre_arg1 (W : Valuation τ sig (Elt F)) :
    after (pre (F := F)) W (Proc.devRef .tc main_arg1) = W (Proc.devRef .tc main_arg1) := by
  simp only [pre, hostOps0, List.take_succ_cons, List.take_zero]
  after_results_simp

set_option maxHeartbeats 4000000 in
theorem pre_arg2 (W : Valuation τ sig (Elt F)) :
    after (pre (F := F)) W (Proc.devRef .tc main_arg2) = W (Proc.devRef .tc main_arg2) := by
  simp only [pre, hostOps0, List.take_succ_cons, List.take_zero]
  after_results_simp

set_option maxHeartbeats 4000000 in
theorem pre_arg5 (W : Valuation τ sig (Elt F)) :
    after (pre (F := F)) W (Proc.devRef .tc main_arg5) = W (Proc.devRef .tc main_arg5) := by
  simp only [pre, hostOps0, List.take_succ_cons, List.take_zero]
  after_results_simp

set_option maxHeartbeats 4000000 in
theorem pre_arg6 (W : Valuation τ sig (Elt F)) :
    after (pre (F := F)) W (Proc.devRef .tc main_arg6) = W (Proc.devRef .tc main_arg6) := by
  simp only [pre, hostOps0, List.take_succ_cons, List.take_zero]
  after_results_simp

set_option maxHeartbeats 4000000 in
/-- The covariance table is a batch product of one array with itself along the last axis. -/
theorem v79_gram (W : Valuation τ sig (Elt F)) :
    ∃ M : FVec F S100000x3x3 .f32,
      (after (pre (F := F)) W (Proc.devRef .tc main_v79) : S100000x3x3.Idx → F .f32) = Host.dotGeneral dot_S100000x3x3_S100000x3x3_S100000x3x3_2_2_1_1_0_0 none M M := by
  refine ⟨after ((hostOps0 (F := F)).take 94) W (Proc.devRef .tc main_v78), ?_⟩
  have hsplit : (pre (F := F)) = (hostOps0 (F := F)).take 94 ++ ((hostOps0 (F := F)).drop 94).take 1 := by
    unfold pre; exact List.take_add (l := hostOps0 (F := F)) (i := 94) (j := 1)
  rw [hsplit, after_append]
  generalize after ((hostOps0 (F := F)).take 94) W = W'
  simp only [hostOps0, List.drop_succ_cons, List.drop_zero, List.take_succ_cons, List.take_zero]
  after_results_simp

/-- A Gram product's (2,1) entry is its (1,2) entry. -/
theorem gram_symm (M : FVec Ideal S100000x3x3 .f32) (g : Fin 100000) :
    Host.dotGeneral dot_S100000x3x3_S100000x3x3_S100000x3x3_2_2_1_1_0_0 none M M (ix3 g 2 1) = Host.dotGeneral dot_S100000x3x3_S100000x3x3_S100000x3x3_2_2_1_1_0_0 none M M (ix3 g 1 2) := by
  simp only [Host.dotGeneral]
  rw [Ideal.dotGeneral_apply, Ideal.dotGeneral_apply]
  refine Finset.sum_congr rfl fun k _ => ?_
  rw [mul_comm]
  congr 2
  · funext a; refine Fin.ext ?_
    match a with
    | ⟨0, _⟩ => rfl
    | ⟨1, _⟩ => rfl
    | ⟨2, _⟩ => rfl
  · funext a; refine Fin.ext ?_
    match a with
    | ⟨0, _⟩ => rfl
    | ⟨1, _⟩ => rfl
    | ⟨2, _⟩ => rfl

/-- So the kernel's covariance table is symmetric in its last off-diagonal pair. -/
theorem v79_symm (W : Valuation τ sig (Elt Ideal)) (g : Fin 100000) :
    (after (pre (F := Ideal)) W (Proc.devRef .tc main_v79) : S100000x3x3.Idx → EReal) (ix3 g 2 1)
      = (after (pre (F := Ideal)) W (Proc.devRef .tc main_v79) : S100000x3x3.Idx → EReal) (ix3 g 1 2) := by
  obtain ⟨M, hM⟩ := v79_gram W
  rw [hM]; exact gram_symm M g

end Cert.KernelIdeal.HostSide

end
-- ==== Proof.KValue.lean ====
/-
  What the kernel's output block holds at a grid point, as the specification's result at the rows of that block.

  Row r of the block at point t is point n = 1024 t + r. Each staged block's entry (r, k) is its array's entry (n, k);
  the arrays are entries of the arguments and of Σ_g at the neighbour's row; so the body's weight at (r, k) is the
  specification's weight at (n, k) once Σ_psf[n,2,1] = Σ_psf[n,1,2] (the precondition) and Σ_g[g,2,1] = Σ_g[g,1,2]
  (a Gram product) put the last row's off-diagonal entry where the body reads its transpose.
-/
import proofs.«142190_j3564822856016_2_alg».proof.Proof.KValueRun
import proofs.«142190_j3564822856016_2_alg».proof.Proof.KFrameOut
import proofs.«142190_j3564822856016_2_alg».proof.Proof.KPay
import proofs.«142190_j3564822856016_2_alg».proof.Proof.KHostAt
import proofs.«142190_j3564822856016_2_alg».proof.Proof.KSym

set_option maxRecDepth 16384

noncomputable section

namespace Cert.KernelIdeal.AtPoint

open Cert.KernelIdeal Cert.KernelIdeal.Gen Cert.KernelIdeal.Hand Cert.KernelIdeal.HostSide Cert.KernelIdeal.Pay
open Idealize.ShloMosaic Idealize.ShloMosaic.TcCoe Idealize.SL.Sem Idealize.ShloMosaic.StableHlo Idealize.ShloMosaic.ValueIdx

/-! ## One row of one block, over any blocks with the right entries -/

/-- If row r of eleven blocks holds, lane by lane, the entries of point n's neighbours — centres, the six upper-triangle
    covariance entries, colours — and row r of the feature block holds point n's coordinates and Σ_psf entries, then
    row r of the output block is the specification's result at n, provided the two (2,1) entries are the (1,2) ones. -/
theorem row_of_entries (x0 x1 x2 x3 x4 x5 x6 x7 x8 x9 : Vec Ideal S1024x32 .f32) (x10 : Vec Ideal S1024x9 .f32)
    (r : Fin 1024) (u : Fin 1) (n : Fin 131072)
    (coords : S131072x3.Idx → EReal) (psf : S131072x3x3.Idx → EReal) (mu : S100000x3.Idx → EReal)
    (sg : S100000x3x3.Idx → EReal) (color : S100000.Idx → EReal) (tb : S131072x32x1.Idx → BitVec 32)
    (h0 : ∀ k, x0 (ix2 r k) = mu (ix2 (Cert.Spec.row tb n k) 0)) (h1 : ∀ k, x1 (ix2 r k) = mu (ix2 (Cert.Spec.row tb n k) 1))
    (h2 : ∀ k, x2 (ix2 r k) = mu (ix2 (Cert.Spec.row tb n k) 2))
    (h3 : ∀ k, x3 (ix2 r k) = sg (ix3 (Cert.Spec.row tb n k) 0 0)) (h4 : ∀ k, x4 (ix2 r k) = sg (ix3 (Cert.Spec.row tb n k) 0 1))
    (h5 : ∀ k, x5 (ix2 r k) = sg (ix3 (Cert.Spec.row tb n k) 0 2)) (h6 : ∀ k, x6 (ix2 r k) = sg (ix3 (Cert.Spec.row tb n k) 1 1))
    (h7 : ∀ k, x7 (ix2 r k) = sg (ix3 (Cert.Spec.row tb n k) 1 2)) (h8 : ∀ k, x8 (ix2 r k) = sg (ix3 (Cert.Spec.row tb n k) 2 2))
    (h9 : ∀ k, x9 (ix2 r k) = color (ix1 (Cert.Spec.row tb n k)))
    (f0 : x10 (ix2 r 0) = coords (ix2 n 0)) (f1 : x10 (ix2 r 1) = coords (ix2 n 1)) (f2 : x10 (ix2 r 2) = coords (ix2 n 2))
    (f3 : x10 (ix2 r 3) = psf (ix3 n 0 0)) (f4 : x10 (ix2 r 4) = psf (ix3 n 0 1)) (f5 : x10 (ix2 r 5) = psf (ix3 n 0 2))
    (f6 : x10 (ix2 r 6) = psf (ix3 n 1 1)) (f7 : x10 (ix2 r 7) = psf (ix3 n 1 2)) (f8 : x10 (ix2 r 8) = psf (ix3 n 2 2))
    (hpsf : psf (ix3 n 2 1) = psf (ix3 n 1 2)) (hsg : ∀ g : Fin 100000, sg (ix3 g 2 1) = sg (ix3 g 1 2)) :
    out0_11 x0 x1 x2 x3 x4 x5 x6 x7 x8 x9 x10 (ix2 r u) = Cert.Spec.result coords psf mu sg color tb n := by
  rw [out0_11_eq]
  show payCore x10 x0 x1 x2 x3 x4 x5 x6 x7 x8 x9 (ix2 r u) = _
  rw [payCore_at]
  unfold Cert.Spec.result
  congr 1
  · funext k
    rw [h0 k, h1 k, h2 k, h3 k, h4 k, h5 k, h6 k, h7 k, h8 k, f0, f1, f2, f3, f4, f5, f6, f7, f8]
    unfold Cert.Spec.weight Cert.Spec.cov Cert.Spec.off
    rw [hsg, hpsf]
  · funext k
    exact h9 k

/-! ## The blocks at a grid point have those entries -/

variable (m : (ℓ : Loc nD τ sig) → Buf (Elt Ideal) ℓ)

/-- Core c's buffers at launch. -/
abbrev L (c : Dev nD) : Valuation τ sig (Elt Ideal) := fun b => m (c, b)
/-- … and after the first stretch of host operations (up to the covariance table). -/
abbrev Wp (c : Dev nD) : Valuation τ sig (Elt Ideal) := after (pre (F := Ideal)) (L m c)

/-- The kernel's covariance table. -/
def sgK (c : Dev nD) : S100000x3x3.Idx → EReal := Wp m c (Proc.devRef .tc main_v79)

/-- What the region finds in a buffer is what the host operations left there, in two stretches. -/
theorem V_eq (c : Dev nD) (b : Ref sig .tc) : V m c b = after (post (F := Ideal)) (Wp m c) (Proc.devRef .tc b) := by
  show after (List.flatten [hostOps0 (F := Ideal)]) (L m c) (Proc.devRef .tc b) = _
  rw [show List.flatten [hostOps0 (F := Ideal)] = hostOps0 (F := Ideal) from by
    simp only [List.flatten_cons, List.flatten_nil, List.append_nil]]
  rw [after_split]

theorem entry_0 (c : Dev nD) (t : Fin cfg0.N) (r : Fin 1024) (k : Fin 32) :
    (iblk m c 0 t : Vec Ideal S1024x32 .f32) (ix2 r k)
      = (L m c (Proc.devRef .tc main_arg2) : S100000x3.Idx → EReal) (ix2 (Cert.Spec.row (tbl (L m c (Proc.devRef .tc main_arg6))) ⟨1024 * t.val + r.val, row_lt t r⟩ k) 0) := by
  rw [iblk_at_0 m c t r k, V_eq m c main_v121, v121_at (Wp m c) ⟨1024 * t.val + r.val, row_lt t r⟩ k]
  dsimp only [Wp]
  rw [pre_arg2 (L m c), pre_arg6 (L m c)]

theorem entry_1 (c : Dev nD) (t : Fin cfg0.N) (r : Fin 1024) (k : Fin 32) :
    (iblk m c 1 t : Vec Ideal S1024x32 .f32) (ix2 r k)
      = (L m c (Proc.devRef .tc main_arg2) : S100000x3.Idx → EReal) (ix2 (Cert.Spec.row (tbl (L m c (Proc.devRef .tc main_arg6))) ⟨1024 * t.val + r.val, row_lt t r⟩ k) 1) := by
  rw [iblk_at_1 m c t r k, V_eq m c main_v123, v123_at (Wp m c) ⟨1024 * t.val + r.val, row_lt t r⟩ k]
  dsimp only [Wp]
  rw [pre_arg2 (L m c), pre_arg6 (L m c)]

theorem entry_2 (c : Dev nD) (t : Fin cfg0.N) (r : Fin 1024) (k : Fin 32) :
    (iblk m c 2 t : Vec Ideal S1024x32 .f32) (ix2 r k)
      = (L m c (Proc.devRef .tc main_arg2) : S100000x3.Idx → EReal) (ix2 (Cert.Spec.row (tbl (L m c (Proc.devRef .tc main_arg6))) ⟨1024 * t.val + r.val, row_lt t r⟩ k) 2) := by
  rw [iblk_at_2 m c t r k, V_eq m c main_v125, v125_at (Wp m c) ⟨1024 * t.val + r.val, row_lt t r⟩ k]
  dsimp only [Wp]
  rw [pre_arg2 (L m c), pre_arg6 (L m c)]

theorem entry_3 (c : Dev nD) (t : Fin cfg0.N) (r : Fin 1024) (k : Fin 32) :
    (iblk m c 3 t : Vec Ideal S1024x32 .f32) (ix2 r k)
      = sgK m c (ix3 (Cert.Spec.row (tbl (L m c (Proc.devRef .tc main_arg6))) ⟨1024 * t.val + r.val, row_lt t r⟩ k) 0 0) := by
  rw [iblk_at_3 m c t r k, V_eq m c main_v127, v127_at (Wp m c) ⟨1024 * t.val + r.val, row_lt t r⟩ k]
  dsimp only [Wp, sgK]
  rw [pre_arg6 (L m c)]

theorem entry_4 (c : Dev nD) (t : Fin cfg0.N) (r : Fin 1024) (k : Fin 32) :
    (iblk m c 4 t : Vec Ideal S1024x32 .f32) (ix2 r k)
      = sgK m c (ix3 (Cert.Spec.row (tbl (L m c (Proc.devRef .tc main_arg6))) ⟨1024 * t.val + r.val, row_lt t r⟩ k) 0 1) := by
  rw [iblk_at_4 m c t r k, V_eq m c main_v129, v129_at (Wp m c) ⟨1024 * t.val + r.val, row_lt t r⟩ k]
  dsimp only [Wp, sgK]
  rw [pre_arg6 (L m c)]

theorem entry_5 (c : Dev nD) (t : Fin cfg0.N) (r : Fin 1024) (k : Fin 32) :
    (iblk m c 5 t : Vec Ideal S1024x32 .f32) (ix2 r k)
      = sgK m c (ix3 (Cert.Spec.row (tbl (L m c (Proc.devRef .tc main_arg6))) ⟨1024 * t.val + r.val, row_lt t r⟩ k) 0 2) := by
  rw [iblk_at_5 m c t r k, V_eq m c main_v131, v131_at (Wp m c) ⟨1024 * t.val + r.val, row_lt t r⟩ k]
  dsimp only [Wp, sgK]
  rw [pre_arg6 (L m c)]

theorem entry_6 (c : Dev nD) (t : Fin cfg0.N) (r : Fin 1024) (k : Fin 32) :
    (iblk m c 6 t : Vec Ideal S1024x32 .f32) (ix2 r k)
      = sgK m c (ix3 (Cert.Spec.row (tbl (L m c (Proc.devRef .tc main_arg6))) ⟨1024 * t.val + r.val, row_lt t r⟩ k) 1 1) := by
  rw [iblk_at_6 m c t r k, V_eq m c main_v133, v133_at (Wp m c) ⟨1024 * t.val + r.val, row_lt t r⟩ k]
  dsimp only [Wp, sgK]
  rw [pre_arg6 (L m c)]

theorem entry_7 (c : Dev nD) (t : Fin cfg0.N) (r : Fin 1024) (k : Fin 32) :
    (iblk m c 7 t : Vec Ideal S1024x32 .f32) (ix2 r k)
      = sgK m c (ix3 (Cert.Spec.row (tbl (L m c (Proc.devRef .tc main_arg6))) ⟨1024 * t.val + r.val, row_lt t r⟩ k) 1 2) := by
  rw [iblk_at_7 m c t r k, V_eq m c main_v135, v135_at (Wp m c) ⟨1024 * t.val + r.val, row_lt t r⟩ k]
  dsimp only [Wp, sgK]
  rw [pre_arg6 (L m c)]

theorem entry_8 (c : Dev nD) (t : Fin cfg0.N) (r : Fin 1024) (k : Fin 32) :
    (iblk m c 8 t : Vec Ideal S1024x32 .f32) (ix2 r k)
      = sgK m c (ix3 (Cert.Spec.row (tbl (L m c (Proc.devRef .tc main_arg6))) ⟨1024 * t.val + r.val, row_lt t r⟩ k) 2 2) := by
  rw [iblk_at_8 m c t r k, V_eq m c main_v137, v137_at (Wp m c) ⟨1024 * t.val + r.val, row_lt t r⟩ k]
  dsimp only [Wp, sgK]
  rw [pre_arg6 (L m c)]

theorem entry_9 (c : Dev nD) (t : Fin cfg0.N) (r : Fin 1024) (k : Fin 32) :
    (iblk m c 9 t : Vec Ideal S1024x32 .f32) (ix2 r k)
      = (L m c (Proc.devRef .tc main_arg5) : S100000.Idx → EReal) (ix1 (Cert.Spec.row (tbl (L m c (Proc.devRef .tc main_arg6))) ⟨1024 * t.val + r.val, row_lt t r⟩ k)) := by
  rw [iblk_at_9 m c t r k, V_eq m c main_v119, v119_at (Wp m c) ⟨1024 * t.val + r.val, row_lt t r⟩ k]
  dsimp only [Wp]
  rw [pre_arg5 (L m c), pre_arg6 (L m c)]

theorem feat_0 (c : Dev nD) (t : Fin cfg0.N) (r : Fin 1024) :
    (iblk m c 10 t : Vec Ideal S1024x9 .f32) (ix2 r 0)
      = (L m c (Proc.devRef .tc main_arg0) : S131072x3.Idx → EReal) (ix2 ⟨1024 * t.val + r.val, row_lt t r⟩ 0) := by
  rw [iblk_at_10 m c t r 0, V_eq m c main_v165, v165_at_0 (Wp m c) ⟨1024 * t.val + r.val, row_lt t r⟩]
  dsimp only [Wp]
  rw [pre_arg0 (L m c)]

theorem feat_1 (c : Dev nD) (t : Fin cfg0.N) (r : Fin 1024) :
    (iblk m c 10 t : Vec Ideal S1024x9 .f32) (ix2 r 1)
      = (L m c (Proc.devRef .tc main_arg0) : S131072x3.Idx → EReal) (ix2 ⟨1024 * t.val + r.val, row_lt t r⟩ 1) := by
  rw [iblk_at_10 m c t r 1, V_eq m c main_v165, v165_at_1 (Wp m c) ⟨1024 * t.val + r.val, row_lt t r⟩]
  dsimp only [Wp]
  rw [pre_arg0 (L m c)]

theorem feat_2 (c : Dev nD) (t : Fin cfg0.N) (r : Fin 1024) :
    (iblk m c 10 t : Vec Ideal S1024x9 .f32) (ix2 r 2)
      = (L m c (Proc.devRef .tc main_arg0) : S131072x3.Idx → EReal) (ix2 ⟨1024 * t.val + r.val, row_lt t r⟩ 2) := by
  rw [iblk_at_10 m c t r 2, V_eq m c main_v165, v165_at_2 (Wp m c) ⟨1024 * t.val + r.val, row_lt t r⟩]
  dsimp only [Wp]
  rw [pre_arg0 (L m c)]

theorem feat_3 (c : Dev nD) (t : Fin cfg0.N) (r : Fin 1024) :
    (iblk m c 10 t : Vec Ideal S1024x9 .f32) (ix2 r 3)
      = (L m c (Proc.devRef .tc main_arg1) : S131072x3x3.Idx → EReal) (ix3 ⟨1024 * t.val + r.val, row_lt t r⟩ 0 0) := by
  rw [iblk_at_10 m c t r 3, V_eq m c main_v165, v165_at_3 (Wp m c) ⟨1024 * t.val + r.val, row_lt t r⟩]
  dsimp only [Wp]
  rw [pre_arg1 (L m c)]

theorem feat_4 (c : Dev nD) (t : Fin cfg0.N) (r : Fin 1024) :
    (iblk m c 10 t : Vec Ideal S1024x9 .f32) (ix2 r 4)
      = (L m c (Proc.devRef .tc main_arg1) : S131072x3x3.Idx → EReal) (ix3 ⟨1024 * t.val + r.val, row_lt t r⟩ 0 1) := by
  rw [iblk_at_10 m c t r 4, V_eq m c main_v165, v165_at_4 (Wp m c) ⟨1024 * t.val + r.val, row_lt t r⟩]
  dsimp only [Wp]
  rw [pre_arg1 (L m c)]

theorem feat_5 (c : Dev nD) (t : Fin cfg0.N) (r : Fin 1024) :
    (iblk m c 10 t : Vec Ideal S1024x9 .f32) (ix2 r 5)
      = (L m c (Proc.devRef .tc main_arg1) : S131072x3x3.Idx → EReal) (ix3 ⟨1024 * t.val + r.val, row_lt t r⟩ 0 2) := by
  rw [iblk_at_10 m c t r 5, V_eq m c main_v165, v165_at_5 (Wp m c) ⟨1024 * t.val + r.val, row_lt t r⟩]
  dsimp only [Wp]
  rw [pre_arg1 (L m c)]

theorem feat_6 (c : Dev nD) (t : Fin cfg0.N) (r : Fin 1024) :
    (iblk m c 10 t : Vec Ideal S1024x9 .f32) (ix2 r 6)
      = (L m c (Proc.devRef .tc main_arg1) : S131072x3x3.Idx → EReal) (ix3 ⟨1024 * t.val + r.val, row_lt t r⟩ 1 1) := by
  rw [iblk_at_10 m c t r 6, V_eq m c main_v165, v165_at_6 (Wp m c) ⟨1024 * t.val + r.val, row_lt t r⟩]
  dsimp only [Wp]
  rw [pre_arg1 (L m c)]

theorem feat_7 (c : Dev nD) (t : Fin cfg0.N) (r : Fin 1024) :
    (iblk m c 10 t : Vec Ideal S1024x9 .f32) (ix2 r 7)
      = (L m c (Proc.devRef .tc main_arg1) : S131072x3x3.Idx → EReal) (ix3 ⟨1024 * t.val + r.val, row_lt t r⟩ 1 2) := by
  rw [iblk_at_10 m c t r 7, V_eq m c main_v165, v165_at_7 (Wp m c) ⟨1024 * t.val + r.val, row_lt t r⟩]
  dsimp only [Wp]
  rw [pre_arg1 (L m c)]

theorem feat_8 (c : Dev nD) (t : Fin cfg0.N) (r : Fin 1024) :
    (iblk m c 10 t : Vec Ideal S1024x9 .f32) (ix2 r 8)
      = (L m c (Proc.devRef .tc main_arg1) : S131072x3x3.Idx → EReal) (ix3 ⟨1024 * t.val + r.val, row_lt t r⟩ 2 2) := by
  rw [iblk_at_10 m c t r 8, V_eq m c main_v165, v165_at_8 (Wp m c) ⟨1024 * t.val + r.val, row_lt t r⟩]
  dsimp only [Wp]
  rw [pre_arg1 (L m c)]

/-- The result the kernel program computes at output entry i = (n, 0): the specification's at n. -/
def G (c : Dev nD) : S131072x1.Idx → Elt Ideal .f32 := fun i =>
  Cert.Spec.result (L m c (Proc.devRef .tc main_arg0)) (L m c (Proc.devRef .tc main_arg1)) (L m c (Proc.devRef .tc main_arg2))
    (sgK m c) (L m c (Proc.devRef .tc main_arg5)) (tbl (L m c (Proc.devRef .tc main_arg6))) (i 0)

/-- The output block at point t, row r, is the specification's result at point 1024 t + r. -/
theorem block_at (hpsf : ∀ (c : Dev nD) (n : Fin 131072),
      (L m c (Proc.devRef .tc main_arg1) : S131072x3x3.Idx → EReal) (ix3 n 2 1) = L m c (Proc.devRef .tc main_arg1) (ix3 n 1 2))
    (c : Dev nD) (t : Fin cfg0.N) (r : Fin 1024) (u : Fin 1) :
    out0_11 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix2 r u)
      = G m c (ix2 ⟨1024 * t.val + r.val, row_lt t r⟩ u) :=
  row_of_entries (iblk m c 0 t) (iblk m c 1 t) (iblk m c 2 t) (iblk m c 3 t) (iblk m c 4 t) (iblk m c 5 t) (iblk m c 6 t)
    (iblk m c 7 t) (iblk m c 8 t) (iblk m c 9 t) (iblk m c 10 t) r u ⟨1024 * t.val + r.val, row_lt t r⟩
    (L m c (Proc.devRef .tc main_arg0)) (L m c (Proc.devRef .tc main_arg1)) (L m c (Proc.devRef .tc main_arg2))
    (sgK m c) (L m c (Proc.devRef .tc main_arg5)) (tbl (L m c (Proc.devRef .tc main_arg6)))
    (entry_0 m c t r) (entry_1 m c t r) (entry_2 m c t r) (entry_3 m c t r) (entry_4 m c t r) (entry_5 m c t r)
    (entry_6 m c t r) (entry_7 m c t r) (entry_8 m c t r) (entry_9 m c t r)
    (feat_0 m c t r) (feat_1 m c t r) (feat_2 m c t r) (feat_3 m c t r) (feat_4 m c t r) (feat_5 m c t r)
    (feat_6 m c t r) (feat_7 m c t r) (feat_8 m c t r)
    (hpsf c ⟨1024 * t.val + r.val, row_lt t r⟩) (fun g => v79_symm (L m c) g)

end Cert.KernelIdeal.AtPoint

end
-- ==== Proof.SGEq.lean ====
/-
  Both programs build the Gaussians' covariance table the same way: the quaternion normalised by rsqrt(|q|² + ε), the
  rotation matrix R from its products, M = R · diag(scaling), and Σ_g = M Mᵀ as one batch product. Operation for
  operation the two texts are the same term of the rotation and scaling arrays.
-/
import proofs.«142190_j3564822856016_2_alg».proof.Proof.KHost
import proofs.«142190_j3564822856016_2_alg».proof.Proof.Gen.ReferenceIdeal.Run

set_option maxRecDepth 65536

noncomputable section

namespace Cert.KernelIdeal.HostSide

open Idealize.ShloMosaic Idealize.ShloMosaic.TcCoe Idealize.SL.Sem Idealize.ShloMosaic.StableHlo

variable {F : FTy → Type} [FloatOps F]

/-- The reference's covariance table, as its run names it. -/
def sgRef (V0 : Valuation Cert.ReferenceIdeal.τ Cert.ReferenceIdeal.sig (Elt F)) : FVec F Cert.ReferenceIdeal.S100000x3x3 .f32 :=
  Host.dotGeneral Cert.ReferenceIdeal.dot_S100000x3x3_S100000x3x3_S100000x3x3_2_2_1_1_0_0 none
    (Cert.ReferenceIdeal.Value.res_main_v88 V0) (Cert.ReferenceIdeal.Value.res_main_v88 V0)

set_option maxHeartbeats 8000000 in
/-- The kernel program's covariance table is the reference's, from the same rotation and scaling arrays. -/
theorem v79_eq (W : Valuation Cert.KernelIdeal.τ Cert.KernelIdeal.sig (Elt F))
    (V0 : Valuation Cert.ReferenceIdeal.τ Cert.ReferenceIdeal.sig (Elt F))
    (h3 : (W (Proc.devRef .tc Cert.KernelIdeal.main_arg3) : Cert.KernelIdeal.S100000x3.Idx → F .f32) = V0 (Proc.devRef .tc Cert.ReferenceIdeal.main_arg3))
    (h4 : (W (Proc.devRef .tc Cert.KernelIdeal.main_arg4) : Cert.KernelIdeal.S100000x4.Idx → F .f32) = V0 (Proc.devRef .tc Cert.ReferenceIdeal.main_arg4)) :
    (after (pre (F := F)) W (Proc.devRef .tc Cert.KernelIdeal.main_v79) : Cert.KernelIdeal.S100000x3x3.Idx → F .f32) = sgRef V0 := by
  simp only [pre, Cert.KernelIdeal.Gen.hostOps0, List.take_succ_cons, List.take_zero]
  after_results_simp
  try dsimp only [Matrix.cons_val]
  try after_results_simp
  try dsimp only [Matrix.cons_val]
  try after_results_simp
  try dsimp only [Matrix.cons_val]
  try after_results_simp
  unfold sgRef
  simp only [Cert.ReferenceIdeal.Value.res_main_v17, Cert.ReferenceIdeal.Value.res_main_v19, Cert.ReferenceIdeal.Value.res_main_v21, Cert.ReferenceIdeal.Value.res_main_v23, Cert.ReferenceIdeal.Value.res_main_v25, Cert.ReferenceIdeal.Value.res_main_v26, Cert.ReferenceIdeal.Value.res_main_v27, Cert.ReferenceIdeal.Value.res_main_v28, Cert.ReferenceIdeal.Value.res_main_v29, Cert.ReferenceIdeal.Value.res_main_v30, Cert.ReferenceIdeal.Value.res_main_v31, Cert.ReferenceIdeal.Value.res_main_v32, Cert.ReferenceIdeal.Value.res_main_v33, Cert.ReferenceIdeal.Value.res_main_v34, Cert.ReferenceIdeal.Value.res_main_v88]
  rw [← h3, ← h4]
  rfl

end Cert.KernelIdeal.HostSide

end
-- ==== Proof.Sym.lean ====
/-
  Two symmetries the kernel relies on.

  The point spread's covariance Σ_psf is symmetric by the precondition's last conjunct (the arrays compared entry by
  entry with their transposes), so its (2,1) entry is its (1,2) entry. Each Gaussian's covariance Σ_g = M Mᵀ is
  symmetric because its (i,j) entry is Σ_k M[i,k]·M[j,k] and multiplication of extended reals commutes.
-/
import proofs.«142190_j3564822856016_2_alg».proof.Defs
import Idealize.ShloMosaic.Lib.ReduceAll
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Sym

open Idealize.ShloMosaic Idealize.ShloMosaic.ValueIdx Idealize.SL.Sem

instance : Subsingleton Cert.Pre_finite_inputs.S_.Idx := ⟨fun a b => funext fun d => d.elim0⟩

/-- The precondition's last conjunct read at an entry: Σ_psf[n, 2, 1] = Σ_psf[n, 1, 2]. -/
theorem psf_symm_of_fn [Cert.Pre_finite_inputs.Facts] (a0 : FVec Ideal Cert.Pre_finite_inputs.S131072x3 .f32)
    (a1 : FVec Ideal Cert.Pre_finite_inputs.S131072x3x3 .f32) (a2 a3 : FVec Ideal Cert.Pre_finite_inputs.S100000x3 .f32)
    (a4 : FVec Ideal Cert.Pre_finite_inputs.S100000x4 .f32) (a5 : FVec Ideal Cert.Pre_finite_inputs.S100000 .f32)
    (a6 : IVec Cert.Pre_finite_inputs.S131072x32 32)
    (h : Cert.Pre_finite_inputs.fn (F := Ideal) a0 a1 a2 a3 a4 a5 a6 = fun _ => 1#1) (n : Fin 131072) :
    a1 (ix3 n 2 1) = a1 (ix3 n 1 2) := by
  have e := congrFun h ix0
  dsimp only [Cert.Pre_finite_inputs.fn, Cert.Pre_finite_inputs.fn_part1, andi] at e
  have e1 := (IntOp.andi_eq_one.1 e).2
  have e2 := Host.reduce_andi_all _ _ _ _ _ e1 (ix3 n 2 1)
  rw [cmpf_apply, Ideal.cmpf_def] at e2
  have e3 : a1 (ix3 n 2 1) = transpose Cert.Pre_finite_inputs.S131072x3x3 [0, 2, 1] a1
      Cert.Pre_finite_inputs.Facts.transposes_S131072x3x3_S131072x3x3_0_2_1 (ix3 n 2 1) := by
    by_contra hne
    have hd : decide (a1 (ix3 n 2 1) = transpose Cert.Pre_finite_inputs.S131072x3x3 [0, 2, 1] a1
      Cert.Pre_finite_inputs.Facts.transposes_S131072x3x3_S131072x3x3_0_2_1 (ix3 n 2 1)) = false := decide_eq_false hne
    simp [Ideal.cmp, hd] at e2
  rw [e3]
  exact transpose_apply _ _ _ _ _ (fun b => by
    match b with
    | ⟨0, _⟩ => rfl
    | ⟨1, _⟩ => rfl
    | ⟨2, _⟩ => rfl)

end Cert.Sym

end
-- ==== Proof.RefFrame.lean ====
/-
  The reference program is a straight line of host operations: it runs to the end, faults nowhere and
  writes only its own result buffers, so its argument arrays end as they began.
-/
import proofs.«142190_j3564822856016_2_alg».proof.Defs
import proofs.«142190_j3564822856016_2_alg».proof.Proof.Gen.ReferenceIdeal.Run
import proofs.«142190_j3564822856016_2_alg».proof.Proof.Gen.Pre_finite_inputs

noncomputable section

namespace Cert.Proof.RefFrame

open Idealize.ShloMosaic Idealize.SL.Sem

/-- The reference's frame: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.RefValueLayout.lean ====
/-
  The layout steps of the point evaluation, each read at one index.

  A query point n has 32 neighbours k. The per-neighbour arrays are [131072, 32, …]; the per-point arrays are
  stretched along a new neighbour axis, and single entries of the trailing 3 or 3×3 axes are cut out and flattened
  to [131072, 32]. Each lemma says which ONE entry of the operand an entry of the result reads. The row sum over
  the neighbour axis is the sum over k : Fin 32 of the entries (n, k).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.RefLayout

open Idealize.ShloMosaic Idealize.ShloMosaic.ValueIdx

variable {α : Type}

/-! ## One entry of the trailing axes, cut out and flattened -/

/-- Entry (p, q) of the trailing 3×3 axes: the slice [131072, 32, 1, 1] at offsets (0, 0, p, q), flattened to
    [131072, 32], reads the operand at (n, k, p, q). -/
theorem cut4_apply (x : (⟨4, ![131072, 32, 3, 3]⟩ : Shape).Idx → α) (p q : Fin 3) (off : Fin 4 → Nat)
    (hoff : off = ![0, 0, p.val, q.val])
    (hs : (⟨4, ![131072, 32, 3, 3]⟩ : Shape).Slices off ⟨4, ![131072, 32, 1, 1]⟩)
    (hc : (⟨4, ![131072, 32, 1, 1]⟩ : Shape).ShapeCasts ⟨2, ![131072, 32]⟩) (n : Fin 131072) (k : Fin 32) :
    shapeCast ⟨2, ![131072, 32]⟩ (extractStridedSlice ⟨4, ![131072, 32, 1, 1]⟩ off x hs) hc (ix2 n k) = x (ix4 n k p q) := by
  subst hoff
  refine (shapeCast_apply _ hc (ix2 n k) (ix4 n k (0 : Fin 1) (0 : Fin 1)) ?_).trans ?_
  · rw [Shape.rowMajor_val_four, Shape.rowMajor_val_two]
    show ((n.val * 32 + k.val) * 1 + 0) * 1 + 0 = n.val * 32 + k.val
    omega
  · refine extractStridedSlice_apply _ x hs (ix4 n k (0 : Fin 1) (0 : Fin 1)) (ix4 n k p q) ?_
    intro a
    match a with
    | ⟨0, _⟩ => show n.val = 0 + n.val; omega
    | ⟨1, _⟩ => show k.val = 0 + k.val; omega
    | ⟨2, _⟩ => show p.val = p.val + 0; omega
    | ⟨3, _⟩ => show q.val = q.val + 0; omega

/-- Entry p of the trailing axis of length 3: the slice [131072, 32, 1] at offsets (0, 0, p), flattened to
    [131072, 32], reads the operand at (n, k, p). -/
theorem cut3_apply (x : (⟨3, ![131072, 32, 3]⟩ : Shape).Idx → α) (p : Fin 3) (off : Fin 3 → Nat)
    (hoff : off = ![0, 0, p.val])
    (hs : (⟨3, ![131072, 32, 3]⟩ : Shape).Slices off ⟨3, ![131072, 32, 1]⟩)
    (hc : (⟨3, ![131072, 32, 1]⟩ : Shape).ShapeCasts ⟨2, ![131072, 32]⟩) (n : Fin 131072) (k : Fin 32) :
    shapeCast ⟨2, ![131072, 32]⟩ (extractStridedSlice ⟨3, ![131072, 32, 1]⟩ off x hs) hc (ix2 n k) = x (ix3 n k p) := by
  subst hoff
  refine (shapeCast_apply _ hc (ix2 n k) (ix3 n k (0 : Fin 1)) ?_).trans ?_
  · rw [Shape.rowMajor_val_three, Shape.rowMajor_val_two]
    show (n.val * 32 + k.val) * 1 + 0 = n.val * 32 + k.val
    omega
  · refine extractStridedSlice_apply _ x hs (ix3 n k (0 : Fin 1)) (ix3 n k p) ?_
    intro a
    match a with
    | ⟨0, _⟩ => show n.val = 0 + n.val; omega
    | ⟨1, _⟩ => show k.val = 0 + k.val; omega
    | ⟨2, _⟩ => show p.val = p.val + 0; omega

/-! ## A per-point array stretched along the neighbour axis -/

/-- A per-point vector [131072, 3], given a unit neighbour axis and stretched to [131072, 32, 3], reads (n, p) at
    (n, k, p). -/
theorem stretch3_apply (x : (⟨2, ![131072, 3]⟩ : Shape).Idx → α)
    (h1 : (⟨2, ![131072, 3]⟩ : Shape).BroadcastsInDim ⟨3, ![131072, 1, 3]⟩ ![0, 2])
    (h2 : (⟨3, ![131072, 1, 3]⟩ : Shape).BroadcastsInDim ⟨3, ![131072, 32, 3]⟩ ![0, 1, 2])
    (n : Fin 131072) (k : Fin 32) (p : Fin 3) :
    broadcastInDim ⟨3, ![131072, 32, 3]⟩ ![0, 1, 2] h2 (broadcastInDim ⟨3, ![131072, 1, 3]⟩ ![0, 2] h1 x) (ix3 n k p)
      = x (ix2 n p) := by
  refine (broadcastInDim_apply _ h2 _ (ix3 n k p) (ix3 n (0 : Fin 1) p) ?_).trans ?_
  · intro a
    match a with
    | ⟨0, _⟩ => rfl
    | ⟨1, _⟩ => rfl
    | ⟨2, _⟩ => rfl
  · refine broadcastInDim_apply _ h1 x (ix3 n (0 : Fin 1) p) (ix2 n p) ?_
    intro a
    match a with
    | ⟨0, _⟩ => rfl
    | ⟨1, _⟩ => rfl

/-- A per-point matrix [131072, 3, 3], given a unit neighbour axis and stretched to [131072, 32, 3, 3], reads
    (n, p, q) at (n, k, p, q). -/
theorem stretch4_apply (x : (⟨3, ![131072, 3, 3]⟩ : Shape).Idx → α)
    (h1 : (⟨3, ![131072, 3, 3]⟩ : Shape).BroadcastsInDim ⟨4, ![131072, 1, 3, 3]⟩ ![0, 2, 3])
    (h2 : (⟨4, ![131072, 1, 3, 3]⟩ : Shape).BroadcastsInDim ⟨4, ![131072, 32, 3, 3]⟩ ![0, 1, 2, 3])
    (n : Fin 131072) (k : Fin 32) (p q : Fin 3) :
    broadcastInDim ⟨4, ![131072, 32, 3, 3]⟩ ![0, 1, 2, 3] h2 (broadcastInDim ⟨4, ![131072, 1, 3, 3]⟩ ![0, 2, 3] h1 x)
        (ix4 n k p q) = x (ix3 n p q) := by
  refine (broadcastInDim_apply _ h2 _ (ix4 n k p q) (ix4 n (0 : Fin 1) p q) ?_).trans ?_
  · intro a
    match a with
    | ⟨0, _⟩ => rfl
    | ⟨1, _⟩ => rfl
    | ⟨2, _⟩ => rfl
    | ⟨3, _⟩ => rfl
  · refine broadcastInDim_apply _ h1 x (ix4 n (0 : Fin 1) p q) (ix3 n p q) ?_
    intro a
    match a with
    | ⟨0, _⟩ => rfl
    | ⟨1, _⟩ => rfl
    | ⟨2, _⟩ => rfl

/-- A per-point scalar [131072], given a unit neighbour axis and stretched to [131072, 32], reads n at (n, k). -/
theorem stretch2_apply (x : (⟨1, ![131072]⟩ : Shape).Idx → α)
    (h1 : (⟨1, ![131072]⟩ : Shape).BroadcastsInDim ⟨2, ![131072, 1]⟩ ![0])
    (n : Fin 131072) (j : Fin 1) :
    broadcastInDim ⟨2, ![131072, 1]⟩ ![0] h1 x (ix2 n j) = x (ix1 n) := by
  refine broadcastInDim_apply _ h1 x (ix2 n j) (ix1 n) ?_
  intro a
  match a with
  | ⟨0, _⟩ => rfl

/-- The column [131072, 1] stretched to [131072, 32] reads (n, 0) at (n, k). -/
theorem stretch_col_apply (x : (⟨2, ![131072, 1]⟩ : Shape).Idx → α)
    (h2 : (⟨2, ![131072, 1]⟩ : Shape).BroadcastsInDim ⟨2, ![131072, 32]⟩ ![0, 1])
    (n : Fin 131072) (k : Fin 32) :
    broadcastInDim ⟨2, ![131072, 32]⟩ ![0, 1] h2 x (ix2 n k) = x (ix2 n (0 : Fin 1)) := by
  refine broadcastInDim_apply _ h2 x (ix2 n k) (ix2 n (0 : Fin 1)) ?_
  intro a
  match a with
  | ⟨0, _⟩ => rfl
  | ⟨1, _⟩ => rfl

/-- A scalar float constant stretched to any shape reads the extended real its word encodes. -/
theorem const_stretch_apply {t : Shape} {φ : FTy} (dims : Fin (⟨0, ![]⟩ : Shape).rank → Fin t.rank)
    (h : (⟨0, ![]⟩ : Shape).BroadcastsInDim t dims) (b : BitVec φ.bits) (j : t.Idx) :
    broadcastInDim t dims h (constant (F := Ideal) ⟨0, ![]⟩ φ b) j = Ideal.ofBits φ b := rfl

/-! ## The sum over the neighbour axis -/

/-- The row sum of a [131072, 32] array from the initial value 0: at n, the sum over the 32 neighbours. -/
theorem rowsum_apply (x : (⟨2, ![131072, 32]⟩ : Shape).Idx → EReal)
    (h' : (⟨2, ![131072, 32]⟩ : Shape).ReducesTo [1] ⟨1, ![131072]⟩) (n : Fin 131072) :
    Ideal.hostReduceAdd h' x (Ideal.ofBits .f32 0x00000000#32) (ix1 n) = ∑ k : Fin 32, x (ix2 n k) := by
  have h : (⟨2, ![131072, 32]⟩ : Shape).Reduces [1] ⟨1, ![131072]⟩ := by decide
  rw [Ideal.hostReduceAdd_single h' h, Ideal.ofBits_zero_f32, zero_add]
  show ∑ k : Fin 32, x (h.lift (ix1 n) k) = _
  refine Finset.sum_congr rfl fun k _ => congrArg x ?_
  funext c
  refine Fin.ext ?_
  match c with
  | ⟨0, _⟩ => rfl
  | ⟨1, _⟩ => rfl

end Cert.RefLayout

end
-- ==== Proof.RefValueStages.lean ====
/-
  The reference's intermediate arrays, each read at one index.

  For a query point n and its k-th neighbour, g = row n k is the neighbour's number. The offset array holds
  coords[n] − μ_g, the covariance array holds Σ_g + Σ_psf[n]; the seven covariance entries and the three offset
  coordinates the weight reads are single entries of these, and the weight array at (n, k) is the weight function of
  those ten numbers, operation by operation as the specification writes it.
-/
import proofs.«142190_j3564822856016_2_alg».proof.Proof.Gen.ReferenceIdeal.Run
import proofs.«142190_j3564822856016_2_alg».proof.Proof.Spec
import proofs.«142190_j3564822856016_2_alg».proof.Proof.LibGatherRows
import proofs.«142190_j3564822856016_2_alg».proof.Proof.RefValueLayout

noncomputable section

open scoped BigOperators

namespace Cert.ReferenceIdeal.AtIndex

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Idealize.ShloMosaic.GatherRows

/-- The index table [131072, 32, 1]: the neighbour numbers, a negative one moved up by the table's length, with a
    trailing unit axis. -/
def TBL (V0 : Valuation τ sig (Elt Ideal)) : S131072x32x1.Idx → BitVec 32 :=
  broadcastInDim S131072x32x1 ![0, 1] bcast_S131072x32_S131072x32x1_0_1 (select (cmpi .slt (V0 (Proc.devRef .tc main_arg6)) (broadcastInDim S131072x32 ![] bcast_S_S131072x32 (constantI S_ 32 0#32))) (addi (V0 (Proc.devRef .tc main_arg6)) (broadcastInDim S131072x32 ![] bcast_S_S131072x32 (constantI S_ 32 100000#32))) (V0 (Proc.devRef .tc main_arg6)))

/-- The neighbours' own covariance matrices [100000, 3, 3], as the reference forms them (R·S times its transpose). -/
def SGr (V0 : Valuation τ sig (Elt Ideal)) : FVec Ideal S100000x3x3 .f32 :=
  Host.dotGeneral (φ₁ := .f32) (φ₂ := .f32) dot_S100000x3x3_S100000x3x3_S100000x3x3_2_2_1_1_0_0 none (res_main_v88 V0) (res_main_v88 V0)

/-- The offset array at (n, k, p): coordinate p of coords[n] − μ_g. -/
theorem v9_apply (V0 : Valuation τ sig (Elt Ideal)) (n : Fin 131072) (k : Fin 32) (p : Fin 3) :
    res_main_v9 V0 (ix3 n k p)
      = Cert.Spec.off (V0 (Proc.devRef .tc main_arg0)) (V0 (Proc.devRef .tc main_arg2)) (TBL V0) n k p := by
  unfold res_main_v9
  refine (subf_apply _ _ _).trans ?_
  refine congrArg₂ (fun a b : EReal => a - b) ?_ ?_
  · exact Cert.RefLayout.stretch3_apply _ _ _ n k p
  · exact gather_rows_apply (N := 100000) (D := 3) (R := 131072) (C := 32) (by decide)
      gather_S100000x3_S131072x32x1_S131072x32x3_2_0_n_n_0_2_13_wf (V0 (Proc.devRef .tc main_arg2)) (TBL V0) n k p

/-- The covariance array at (n, k, p, q): entry (p, q) of Σ_g + Σ_psf[n]. -/
theorem v99_apply (V0 : Valuation τ sig (Elt Ideal)) (n : Fin 131072) (k : Fin 32) (p q : Fin 3) :
    res_main_v99 V0 (ix4 n k p q) = Cert.Spec.cov (V0 (Proc.devRef .tc main_arg1)) (SGr V0) (TBL V0) n k p q := by
  unfold res_main_v99
  refine (addf_apply _ _ _).trans ?_
  refine congrArg₂ (fun a b : EReal => a + b) ?_ ?_
  · exact gather_mats_apply (N := 100000) (D := 3) (E := 3) (R := 131072) (C := 32) (by decide)
      gather_S100000x3x3_S131072x32x1_S131072x32x3x3_23_0_n_n_0_2_133_wf (SGr V0) (TBL V0) n k p q
  · exact Cert.RefLayout.stretch4_apply _ _ _ n k p q

/-! ## The seven covariance entries and the three offset coordinates, as [131072, 32] arrays -/

section Entries
variable (V0 : Valuation τ sig (Elt Ideal)) (n : Fin 131072) (k : Fin 32)

/-- Entry (0, 0). -/
theorem v101_apply : res_main_v101 V0 (ix2 n k) = Cert.Spec.cov (V0 (Proc.devRef .tc main_arg1)) (SGr V0) (TBL V0) n k 0 0 := by
  unfold res_main_v101
  exact (Cert.RefLayout.cut4_apply (res_main_v99 V0) 0 0 _ rfl _ _ n k).trans (v99_apply V0 n k 0 0)
/-- Entry (0, 1). -/
theorem v103_apply : res_main_v103 V0 (ix2 n k) = Cert.Spec.cov (V0 (Proc.devRef .tc main_arg1)) (SGr V0) (TBL V0) n k 0 1 := by
  unfold res_main_v103
  exact (Cert.RefLayout.cut4_apply (res_main_v99 V0) 0 1 _ rfl _ _ n k).trans (v99_apply V0 n k 0 1)
/-- Entry (0, 2). -/
theorem v105_apply : res_main_v105 V0 (ix2 n k) = Cert.Spec.cov (V0 (Proc.devRef .tc main_arg1)) (SGr V0) (TBL V0) n k 0 2 := by
  unfold res_main_v105
  exact (Cert.RefLayout.cut4_apply (res_main_v99 V0) 0 2 _ rfl _ _ n k).trans (v99_apply V0 n k 0 2)
/-- Entry (1, 1). -/
theorem v107_apply : res_main_v107 V0 (ix2 n k) = Cert.Spec.cov (V0 (Proc.devRef .tc main_arg1)) (SGr V0) (TBL V0) n k 1 1 := by
  unfold res_main_v107
  exact (Cert.RefLayout.cut4_apply (res_main_v99 V0) 1 1 _ rfl _ _ n k).trans (v99_apply V0 n k 1 1)
/-- Entry (1, 2). -/
theorem v109_apply : res_main_v109 V0 (ix2 n k) = Cert.Spec.cov (V0 (Proc.devRef .tc main_arg1)) (SGr V0) (TBL V0) n k 1 2 := by
  unfold res_main_v109
  exact (Cert.RefLayout.cut4_apply (res_main_v99 V0) 1 2 _ rfl _ _ n k).trans (v99_apply V0 n k 1 2)
/-- Entry (2, 1). -/
theorem v111_apply : res_main_v111 V0 (ix2 n k) = Cert.Spec.cov (V0 (Proc.devRef .tc main_arg1)) (SGr V0) (TBL V0) n k 2 1 := by
  unfold res_main_v111
  exact (Cert.RefLayout.cut4_apply (res_main_v99 V0) 2 1 _ rfl _ _ n k).trans (v99_apply V0 n k 2 1)
/-- Entry (2, 2). -/
theorem v113_apply : res_main_v113 V0 (ix2 n k) = Cert.Spec.cov (V0 (Proc.devRef .tc main_arg1)) (SGr V0) (TBL V0) n k 2 2 := by
  unfold res_main_v113
  exact (Cert.RefLayout.cut4_apply (res_main_v99 V0) 2 2 _ rfl _ _ n k).trans (v99_apply V0 n k 2 2)

/-- Offset coordinate 0. -/
theorem v157_apply : res_main_v157 V0 (ix2 n k)
    = Cert.Spec.off (V0 (Proc.devRef .tc main_arg0)) (V0 (Proc.devRef .tc main_arg2)) (TBL V0) n k 0 := by
  unfold res_main_v157
  exact (Cert.RefLayout.cut3_apply (res_main_v9 V0) 0 _ rfl _ _ n k).trans (v9_apply V0 n k 0)
/-- Offset coordinate 1. -/
theorem v159_apply : res_main_v159 V0 (ix2 n k)
    = Cert.Spec.off (V0 (Proc.devRef .tc main_arg0)) (V0 (Proc.devRef .tc main_arg2)) (TBL V0) n k 1 := by
  unfold res_main_v159
  exact (Cert.RefLayout.cut3_apply (res_main_v9 V0) 1 _ rfl _ _ n k).trans (v9_apply V0 n k 1)
/-- Offset coordinate 2. -/
theorem v161_apply : res_main_v161 V0 (ix2 n k)
    = Cert.Spec.off (V0 (Proc.devRef .tc main_arg0)) (V0 (Proc.devRef .tc main_arg2)) (TBL V0) n k 2 := by
  unfold res_main_v161
  exact (Cert.RefLayout.cut3_apply (res_main_v9 V0) 2 _ rfl _ _ n k).trans (v9_apply V0 n k 2)

end Entries

end Cert.ReferenceIdeal.AtIndex

end
-- ==== Proof.RefValueWeight.lean ====
/-
  The weight array of the reference at (n, k) is the specification's weight of point n and its k-th neighbour.

  The array is exp(−½ vᵀ S⁻¹ v) written out elementwise: the determinant by cofactors along the first row guarded by ε,
  its reciprocal, the six cofactor products, the three components of S⁻¹ v and the quadratic form. Every operation
  is entrywise, so at (n, k) the array is that same expression of the seven covariance entries and three offset
  coordinates at (n, k) — the specification's `wgt` — and those ten entries were read in the previous module.
-/
import proofs.«142190_j3564822856016_2_alg».proof.Proof.RefValueStages

noncomputable section

open scoped BigOperators

namespace Cert.ReferenceIdeal.AtIndex

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-- The weight array at (n, k), as `wgt` of the ten entry arrays at (n, k): all its operations are entrywise. -/
theorem v184_wgt (V0 : Valuation τ sig (Elt Ideal)) (n : Fin 131072) (k : Fin 32) :
    res_main_v184 V0 (ix2 n k)
      = Cert.Spec.wgt (res_main_v101 V0 (ix2 n k)) (res_main_v103 V0 (ix2 n k)) (res_main_v105 V0 (ix2 n k))
          (res_main_v107 V0 (ix2 n k)) (res_main_v109 V0 (ix2 n k)) (res_main_v111 V0 (ix2 n k))
          (res_main_v113 V0 (ix2 n k)) (res_main_v157 V0 (ix2 n k)) (res_main_v159 V0 (ix2 n k))
          (res_main_v161 V0 (ix2 n k)) := by
  unfold res_main_v184 res_main_v139 res_main_v143 res_main_v151 res_main_v131
  generalize res_main_v101 V0 = A
  generalize res_main_v103 V0 = B
  generalize res_main_v105 V0 = C
  generalize res_main_v107 V0 = E
  generalize res_main_v109 V0 = F
  generalize res_main_v111 V0 = H
  generalize res_main_v113 V0 = I
  generalize res_main_v157 V0 = VX
  generalize res_main_v159 V0 = VY
  generalize res_main_v161 V0 = VZ
  rfl

/-- The weight array at (n, k) is the weight of point n and its k-th neighbour. -/
theorem v184_apply (V0 : Valuation τ sig (Elt Ideal)) (n : Fin 131072) (k : Fin 32) :
    res_main_v184 V0 (ix2 n k)
      = Cert.Spec.weight (V0 (Proc.devRef .tc main_arg0)) (V0 (Proc.devRef .tc main_arg1)) (V0 (Proc.devRef .tc main_arg2))
          (SGr V0) (TBL V0) n k := by
  rw [v184_wgt, v101_apply, v103_apply, v105_apply, v107_apply, v109_apply, v111_apply, v113_apply, v157_apply,
    v159_apply, v161_apply]
  rfl

end Cert.ReferenceIdeal.AtIndex

end
-- ==== Proof.RefValue.lean ====
/-
  The reference's result, read at a query point: the specification's rendered intensity.

  The result array is the row sum over the 32 neighbours of (w / (Σ w + δ)) · colour, where w is the weight array,
  Σ w its row sum kept as a column and stretched back over the neighbours, δ a constant, and colour the table entry
  of each neighbour. Read at n: the sum over k of w(n,k) / (Σ_k' w(n,k') + δ) · colour[row n k], and w(n,k) is the
  specification's weight.
-/
import proofs.«142190_j3564822856016_2_alg».proof.Proof.RefValueWeight

noncomputable section

open scoped BigOperators

namespace Cert.ReferenceIdeal.AtIndex

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-- The host's quotient at an index is the quotient of the entries. -/
theorem hostDivf_apply {s : Shape} {φ : FTy} (a b : FVec Ideal s φ) (i : s.Idx) :
    Host.divf a b i = Ideal.div (a i) (b i) := rfl

/-- The colour gathered for (n, k): the table entry of the k-th neighbour of n. -/
theorem color_apply (V0 : Valuation τ sig (Elt Ideal)) (n : Fin 131072) (k : Fin 32) :
    Host.gather gather_S100000_S131072x32x1_S131072x32_n_0_n_n_0_2_1 (V0 (Proc.devRef .tc main_arg5)) (TBL V0) (ix2 n k)
      = V0 (Proc.devRef .tc main_arg5) (ix1 (Cert.Spec.row (TBL V0) n k)) := by
  refine (gather_take_apply (N := 100000) (R := 131072) (C := 32) (by decide)
    gather_S100000_S131072x32x1_S131072x32_n_0_n_n_0_2_1_wf (V0 (Proc.devRef .tc main_arg5)) (TBL V0) (ix2 n k)).trans ?_
  have hidx : takeIdx (ix2 n k) = ix3 n k (0 : Fin 1) := by
    funext a
    match a with
    | ⟨0, _⟩ => rfl
    | ⟨1, _⟩ => rfl
    | ⟨2, _⟩ => rfl
  refine congrArg (fun r : Fin 100000 => V0 (Proc.devRef .tc main_arg5) (ix1 r)) (Fin.ext ?_)
  show min (TBL V0 (takeIdx (ix2 n k))).toInt.toNat (100000 - 1) = min (TBL V0 (ix3 n k (0 : Fin 1))).toInt.toNat (100000 - 1)
  rw [hidx]

/-- The denominator column, stretched over the neighbours, at (n, k): the sum of the weights of n's neighbours plus δ. -/
theorem den_apply (V0 : Valuation τ sig (Elt Ideal)) (n : Fin 131072) (k : Fin 32) :
    broadcastInDim S131072x32 ![0, 1] bcast_S131072x1_S131072x32_0_1 (addf (broadcastInDim S131072x1 ![0] bcast_S131072_S131072x1_0 (Host.reduceAdd (F := Ideal) (res_main_v184 V0) (constant (F := Ideal) S_ .f32 0x00000000#32) reducesTo_S131072x32_S131072_d1 h_S_)) (broadcastInDim S131072x1 ![] bcast_S_S131072x1 (constant (F := Ideal) S_ .f32 0x3D4CCCCD#32))) (ix2 n k)
      = (∑ k' : Fin 32, Cert.Spec.weight (V0 (Proc.devRef .tc main_arg0)) (V0 (Proc.devRef .tc main_arg1))
          (V0 (Proc.devRef .tc main_arg2)) (SGr V0) (TBL V0) n k') + Cert.Spec.delta := by
  refine (Cert.RefLayout.stretch_col_apply _ _ n k).trans ?_
  refine (addf_apply _ _ _).trans ?_
  refine congrArg₂ (fun a b : EReal => a + b) ?_ rfl
  refine (Cert.RefLayout.stretch2_apply _ _ n (0 : Fin 1)).trans ?_
  refine (Cert.RefLayout.rowsum_apply _ reducesTo_S131072x32_S131072_d1 n).trans ?_
  exact Finset.sum_congr rfl fun k' _ => v184_apply V0 n k'

/-- THE REFERENCE'S RESULT at point n is the specification's rendered intensity at n. -/
theorem ref_result (V0 : Valuation τ sig (Elt Ideal)) :
    (Host.reduceAdd (F := Ideal) (mulf (Host.divf (res_main_v184 V0) (broadcastInDim S131072x32 ![0, 1] bcast_S131072x1_S131072x32_0_1 (addf (broadcastInDim S131072x1 ![0] bcast_S131072_S131072x1_0 (Host.reduceAdd (F := Ideal) (res_main_v184 V0) (constant (F := Ideal) S_ .f32 0x00000000#32) reducesTo_S131072x32_S131072_d1 h_S_)) (broadcastInDim S131072x1 ![] bcast_S_S131072x1 (constant (F := Ideal) S_ .f32 0x3D4CCCCD#32))))) (Host.gather gather_S100000_S131072x32x1_S131072x32_n_0_n_n_0_2_1 (V0 (Proc.devRef .tc main_arg5)) (broadcastInDim S131072x32x1 ![0, 1] bcast_S131072x32_S131072x32x1_0_1 (select (cmpi .slt (V0 (Proc.devRef .tc main_arg6)) (broadcastInDim S131072x32 ![] bcast_S_S131072x32 (constantI S_ 32 0#32))) (addi (V0 (Proc.devRef .tc main_arg6)) (broadcastInDim S131072x32 ![] bcast_S_S131072x32 (constantI S_ 32 100000#32))) (V0 (Proc.devRef .tc main_arg6)))))) (constant (F := Ideal) S_ .f32 0x00000000#32) reducesTo_S131072x32_S131072_d1 h_S_ : S131072.Idx → EReal)
      = fun i => Cert.Spec.result (V0 (Proc.devRef .tc main_arg0)) (V0 (Proc.devRef .tc main_arg1))
          (V0 (Proc.devRef .tc main_arg2)) (SGr V0) (V0 (Proc.devRef .tc main_arg5)) (TBL V0) (i 0) := by
  funext i
  obtain ⟨n, rfl⟩ : ∃ n : Fin 131072, i = ix1 n := ⟨i 0, eq_ix1 i⟩
  refine (Cert.RefLayout.rowsum_apply _ reducesTo_S131072x32_S131072_d1 n).trans ?_
  show _ = Cert.Spec.mix (fun k => Cert.Spec.weight (V0 (Proc.devRef .tc main_arg0)) (V0 (Proc.devRef .tc main_arg1))
      (V0 (Proc.devRef .tc main_arg2)) (SGr V0) (TBL V0) n k)
    (fun k => V0 (Proc.devRef .tc main_arg5) (ix1 (Cert.Spec.row (TBL V0) n k)))
  unfold Cert.Spec.mix
  refine Finset.sum_congr rfl fun k _ => ?_
  refine (mulf_apply _ _ _).trans ?_
  refine congrArg₂ (fun a b : EReal => a * b) ?_ (color_apply V0 n k)
  refine (hostDivf_apply _ _ _).trans ?_
  exact congrArg₂ Ideal.div (v184_apply V0 n k) (den_apply V0 n k)

/-- The same, stated of the reference's final buffer contents: the generated run's term for the result is the one above. -/
theorem ref_val4 (V0 : Valuation τ sig (Elt Ideal)) :
    (val4 V0 (Proc.devRef .tc main_v199) : S131072.Idx → EReal)
      = fun i => Cert.Spec.result (V0 (Proc.devRef .tc main_arg0)) (V0 (Proc.devRef .tc main_arg1))
          (V0 (Proc.devRef .tc main_arg2)) (SGr V0) (V0 (Proc.devRef .tc main_arg5)) (TBL V0) (i 0) :=
  (val4_main_v199 V0).trans (ref_result V0)

end Cert.ReferenceIdeal.AtIndex

end
-- ==== Proof.Claims.lean ====
/-
  The five conjuncts, assembled.

  Both kernel programs (the printed one and its idealization, the same text) run as host operations, one pipelined
  region of 128 points, one reshape, and write no argument array: the two frames. The idealization rewrote nothing, so
  the preservation conjunct is empty. At the ideal values the kernel program's result at point n and the reference's
  are both the specification's rendered intensity at n, from argument arrays that agree and one and the same covariance
  table; the precondition's symmetry of Σ_psf is what lets the kernel read entry (1,2) where the reference reads (2,1).
-/
import proofs.«142190_j3564822856016_2_alg».proof.Defs
import proofs.«142190_j3564822856016_2_alg».proof.Proof.Gen.Kernel
import proofs.«142190_j3564822856016_2_alg».proof.Proof.Gen.KernelIdeal
import proofs.«142190_j3564822856016_2_alg».proof.Proof.Gen.ReferenceIdeal
import proofs.«142190_j3564822856016_2_alg».proof.Proof.Gen.Pre_finite_inputs
import proofs.«142190_j3564822856016_2_alg».proof.Proof.KFrame
import proofs.«142190_j3564822856016_2_alg».proof.Proof.KFrameBits
import proofs.«142190_j3564822856016_2_alg».proof.Proof.KValue
import proofs.«142190_j3564822856016_2_alg».proof.Proof.SGEq
import proofs.«142190_j3564822856016_2_alg».proof.Proof.Sym
import proofs.«142190_j3564822856016_2_alg».proof.Proof.RefFrame
import proofs.«142190_j3564822856016_2_alg».proof.Proof.RefValue

set_option maxRecDepth 16384

noncomputable section

namespace Cert.Proof.Claims

open Idealize.ShloMosaic Idealize.ShloMosaic.TcCoe Idealize.SL.Sem Idealize.ShloMosaic.StableHlo Idealize.ShloMosaic.ValueIdx

theorem frame_k : Cert.frame_Kernel := fun m ρ _ => Cert.Kernel.Hand.frame m ρ
theorem frame_ki : Cert.frame_KernelIdeal := fun m ρ _ => Cert.KernelIdeal.Hand.frame m ρ
theorem preserves : Cert.preserves_Kernel_KernelIdeal := trivial

/-- The specification's result depends on its seven arguments only. -/
theorem result_congr {c c' : (⟨2, ![131072, 3]⟩ : Shape).Idx → EReal} {p p' : (⟨3, ![131072, 3, 3]⟩ : Shape).Idx → EReal}
    {mu mu' : (⟨2, ![100000, 3]⟩ : Shape).Idx → EReal} {sg sg' : (⟨3, ![100000, 3, 3]⟩ : Shape).Idx → EReal}
    {col col' : (⟨1, ![100000]⟩ : Shape).Idx → EReal} {tb tb' : (⟨3, ![131072, 32, 1]⟩ : Shape).Idx → BitVec 32} (n : Fin 131072)
    (h0 : c = c') (h1 : p = p') (h2 : mu = mu') (hs : sg = sg') (h5 : col = col') (ht : tb = tb') :
    Cert.Spec.result c p mu sg col tb n = Cert.Spec.result c' p' mu' sg' col' tb' n := by
  subst h0 h1 h2 hs h5 ht; rfl

theorem algebraic : Cert.algebraic_KernelIdeal_ReferenceIdeal := by
  intro m ρ m' ρ' hpre hagree
  have hpsf : ∀ (c : Dev Cert.KernelIdeal.nD) (n : Fin 131072),
      (Cert.KernelIdeal.AtPoint.L m c (Proc.devRef .tc Cert.KernelIdeal.main_arg1) : Cert.KernelIdeal.S131072x3x3.Idx → EReal) (ix3 n 2 1)
        = Cert.KernelIdeal.AtPoint.L m c (Proc.devRef .tc Cert.KernelIdeal.main_arg1) (ix3 n 1 2) :=
    fun c n => Cert.Sym.psf_symm_of_fn _ _ _ _ _ _ _ (hpre c) n
  refine ⟨fun c => fun i => Cert.KernelIdeal.AtPoint.G m c (ix2 (i 0) (0 : Fin 1)),
    Cert.KernelIdeal.Hand.run_value m ρ (Cert.KernelIdeal.AtPoint.G m) (Cert.KernelIdeal.AtPoint.block_at m hpsf), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  refine (Cert.ReferenceIdeal.AtIndex.ref_result (launchContents m' c)).trans ?_
  funext i
  refine result_congr (i 0) e0 e1 e2 ?_ e5 ?_
  · exact (Cert.KernelIdeal.HostSide.v79_eq (Cert.KernelIdeal.AtPoint.L m c) (launchContents m' c) e3.symm e4.symm).symm
  · unfold Cert.ReferenceIdeal.AtIndex.TBL Cert.KernelIdeal.HostSide.tbl
    rw [show (launchContents m' c (Proc.devRef .tc Cert.ReferenceIdeal.main_arg6)) = Cert.KernelIdeal.AtPoint.L m c (Proc.devRef .tc Cert.KernelIdeal.main_arg6) from e6]

end Cert.Proof.Claims

end
-- ==== Proof.lean ====
/-
  The certificate: a Gaussian-splatting point evaluation as a pipelined kernel (gathers on the host, the per-neighbour
  3×3 cofactor inverse, exponential, normalisation and colour mix in the kernel body) against its plain reference.
  The facts the three programs and the precondition state come first, then the five conjuncts (Proof/Claims.lean).
-/
import proofs.«142190_j3564822856016_2_alg».proof.Defs
import proofs.«142190_j3564822856016_2_alg».proof.Proof.Gen.Kernel
import proofs.«142190_j3564822856016_2_alg».proof.Proof.Gen.Kernel.Skeleton
import proofs.«142190_j3564822856016_2_alg».proof.Proof.Gen.Kernel.Launch
import proofs.«142190_j3564822856016_2_alg».proof.Proof.Gen.Kernel.Points
import proofs.«142190_j3564822856016_2_alg».proof.Proof.Gen.KernelIdeal
import proofs.«142190_j3564822856016_2_alg».proof.Proof.Gen.KernelIdeal.Skeleton
import proofs.«142190_j3564822856016_2_alg».proof.Proof.Gen.KernelIdeal.Launch
import proofs.«142190_j3564822856016_2_alg».proof.Proof.Gen.KernelIdeal.Points
import proofs.«142190_j3564822856016_2_alg».proof.Proof.Gen.ReferenceIdeal
import proofs.«142190_j3564822856016_2_alg».proof.Proof.Gen.Pre_finite_inputs
import proofs.«142190_j3564822856016_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Cert.Proof.RefFrame.frame_ri, Claims.preserves, Claims.algebraic⟩

end Cert.Proof

end
